-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000 : Shape := ⟨1, ![1000000]⟩
abbrev S4096x128 : Shape := ⟨2, ![4096, 128]⟩
abbrev S1000000x128 : Shape := ⟨2, ![1000000, 128]⟩
abbrev S4096x4096 : Shape := ⟨2, ![4096, 4096]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S1000000x128 : S_.BroadcastsInDim S1000000x128 (![] : Fin 0 → Fin S1000000x128.rank)
  reducesTo_S1000000x128_S_d0_1 : S1000000x128.ReducesTo [0, 1] S_
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : IVec S1000000 32) (main_arg1 : IVec S1000000 32) (main_arg2 : FVec F S4096x128 .f32) (main_arg3 : FVec F S1000000x128 .f32) (main_arg4 : FVec F S4096x4096 .f32) : IVec S_ 1 :=
  let main_v0 : FVec F S4096x128 .f32 := Host.absf main_arg2
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S1000000x128 .f32 := Host.absf main_arg3
  let main_cst_0 : FVec F S_ .f32 := constant S_ .f32 0x7F800000#32
  let main_v5 : FVec F S1000000x128 .f32 := broadcastInDim S1000000x128 ![] bcast_S_S1000000x128 main_cst_0
  let main_v6 : IVec S1000000x128 1 := cmpf .olt main_v4 main_v5
  let main_c_1 : IVec S_ 1 := constantI S_ 1 1#1
  let main_v7 : IVec S_ 1 := (fun x v => Host.reduce IntOp.andi x v reducesTo_S1000000x128_S_d0_1 h_S_) main_v6 main_c_1
  let main_v8 : IVec S_ 1 := andi main_v3 main_v7
  let main_v9 : FVec F S4096x4096 .f32 := Host.absf main_arg4
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  main_v13
-- ==== Kernel.lean ====
abbrev S1000000 : Shape := ⟨1, ![1000000]⟩
abbrev S4096x128 : Shape := ⟨2, ![4096, 128]⟩
abbrev S1000000x128 : Shape := ⟨2, ![1000000, 128]⟩
abbrev S4096x4096 : Shape := ⟨2, ![4096, 4096]⟩
abbrev S_ : Shape := ⟨0, ![]⟩
abbrev S1000000x1 : Shape := ⟨2, ![1000000, 1]⟩
abbrev S1000000x2 : Shape := ⟨2, ![1000000, 2]⟩
abbrev S1024x1024 : Shape := ⟨2, ![1024, 1024]⟩
abbrev S1024x128 : Shape := ⟨2, ![1024, 128]⟩
abbrev S1024x1 : Shape := ⟨2, ![1024, 1]⟩
abbrev S1024 : Shape := ⟨1, ![1024]⟩

abbrev nBuf : Space → Nat
  | .hbm => 53
  | .vmem => 17
  | .smem => 0
  | _ => 0

abbrev bufTy : (tb : Table) → Fin (tcTables nBuf tb) → BufTy
  | .hbm, ⟨0, _⟩ => ⟨S1000000, .i32⟩
  | .hbm, ⟨1, _⟩ => ⟨S1000000, .i32⟩
  | .hbm, ⟨2, _⟩ => ⟨S4096x128, .f32⟩
  | .hbm, ⟨3, _⟩ => ⟨S1000000x128, .f32⟩
  | .hbm, ⟨4, _⟩ => ⟨S4096x4096, .f32⟩
  | .hbm, ⟨5, _⟩ => ⟨S_, .i32⟩
  | .hbm, ⟨6, _⟩ => ⟨S1000000, .i32⟩
  | .hbm, ⟨7, _⟩ => ⟨S1000000, .i1⟩
  | .hbm, ⟨8, _⟩ => ⟨S_, .i32⟩
  | .hbm, ⟨9, _⟩ => ⟨S1000000, .i32⟩
  | .hbm, ⟨10, _⟩ => ⟨S1000000, .i32⟩
  | .hbm, ⟨11, _⟩ => ⟨S1000000, .i32⟩
  | .hbm, ⟨12, _⟩ => ⟨S1000000x1, .i32⟩
  | .hbm, ⟨13, _⟩ => ⟨S1000000x128, .f32⟩
  | .hbm, ⟨14, _⟩ => ⟨S_, .i32⟩
  | .hbm, ⟨15, _⟩ => ⟨S1000000, .i32⟩
  | .hbm, ⟨16, _⟩ => ⟨S1000000, .i1⟩
  | .hbm, ⟨17, _⟩ => ⟨S_, .i32⟩
  | .hbm, ⟨18, _⟩ => ⟨S1000000, .i32⟩
  | .hbm, ⟨19, _⟩ => ⟨S1000000, .i32⟩
  | .hbm, ⟨20, _⟩ => ⟨S1000000, .i32⟩
  | .hbm, ⟨21, _⟩ => ⟨S1000000x1, .i32⟩
  | .hbm, ⟨22, _⟩ => ⟨S1000000x128, .f32⟩
  | .hbm, ⟨23, _⟩ => ⟨S1000000x128, .f32⟩
  | .hbm, ⟨24, _⟩ => ⟨S1000000x128, .f32⟩
  | .hbm, ⟨25, _⟩ => ⟨S1000000x128, .f32⟩
  | .hbm, ⟨26, _⟩ => ⟨S_, .f32⟩
  | .hbm, ⟨27, _⟩ => ⟨S1000000, .f32⟩
  | .hbm, ⟨28, _⟩ => ⟨S1000000, .f32⟩
  | .hbm, ⟨29, _⟩ => ⟨S1000000, .f32⟩
  | .hbm, ⟨30, _⟩ => ⟨S1000000, .f32⟩
  | .hbm, ⟨31, _⟩ => ⟨S_, .f32⟩
  | .hbm, ⟨32, _⟩ => ⟨S4096x4096, .f32⟩
  | .hbm, ⟨33, _⟩ => ⟨S_, .i32⟩
  | .hbm, ⟨34, _⟩ => ⟨S1000000, .i32⟩
  | .hbm, ⟨35, _⟩ => ⟨S1000000, .i1⟩
  | .hbm, ⟨36, _⟩ => ⟨S_, .i32⟩
  | .hbm, ⟨37, _⟩ => ⟨S1000000, .i32⟩
  | .hbm, ⟨38, _⟩ => ⟨S1000000, .i32⟩
  | .hbm, ⟨39, _⟩ => ⟨S1000000, .i32⟩
  | .hbm, ⟨40, _⟩ => ⟨S_, .i32⟩
  | .hbm, ⟨41, _⟩ => ⟨S1000000, .i32⟩
  | .hbm, ⟨42, _⟩ => ⟨S1000000, .i1⟩
  | .hbm, ⟨43, _⟩ => ⟨S_, .i32⟩
  | .hbm, ⟨44, _⟩ => ⟨S1000000, .i32⟩
  | .hbm, ⟨45, _⟩ => ⟨S1000000, .i32⟩
  | .hbm, ⟨46, _⟩ => ⟨S1000000, .i32⟩
  | .hbm, ⟨47, _⟩ => ⟨S1000000x1, .i32⟩
  | .hbm, ⟨48, _⟩ => ⟨S1000000x1, .i32⟩
  | .hbm, ⟨49, _⟩ => ⟨S1000000x2, .i32⟩
  | .hbm, ⟨50, _⟩ => ⟨S4096x4096, .f32⟩
  | .hbm, ⟨51, _⟩ => ⟨S4096x128, .f32⟩
  | .hbm, ⟨52, _⟩ => ⟨S4096x128, .f32⟩
  | .local _ .vmem, ⟨0, _⟩ => ⟨S1024x1024, .f32⟩
  | .local _ .vmem, ⟨1, _⟩ => ⟨S1024x1024, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x1024, .f32⟩
  | .local _ .vmem, ⟨8, _⟩ => ⟨S1024x1024, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x1, .f32⟩
  | _, _ => ⟨S1000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_c_1 : Ref sig .tc := ⟨.hbm, 14, rfl⟩
abbrev main_call0_v7 : Ref sig .tc := ⟨.hbm, 15, rfl⟩
abbrev main_call0_v8 : Ref sig .tc := ⟨.hbm, 16, rfl⟩
abbrev main_call0_c_2 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_v15 : Ref sig .tc := ⟨.hbm, 24, rfl⟩
abbrev main_call0_v16 : Ref sig .tc := ⟨.hbm, 25, rfl⟩
abbrev main_call0_cst : Ref sig .tc := ⟨.hbm, 26, rfl⟩
abbrev main_call0_v17 : Ref sig .tc := ⟨.hbm, 27, rfl⟩
abbrev main_call0_v18 : Ref sig .tc := ⟨.hbm, 28, rfl⟩
abbrev main_call0_v19 : Ref sig .tc := ⟨.hbm, 29, rfl⟩
abbrev main_call0_v20 : Ref sig .tc := ⟨.hbm, 30, rfl⟩
abbrev main_call0_cst_3 : Ref sig .tc := ⟨.hbm, 31, rfl⟩
abbrev main_call0_v21 : Ref sig .tc := ⟨.hbm, 32, rfl⟩
abbrev main_call0_c_4 : Ref sig .tc := ⟨.hbm, 33, rfl⟩
abbrev main_call0_v22 : Ref sig .tc := ⟨.hbm, 34, rfl⟩
abbrev main_call0_v23 : Ref sig .tc := ⟨.hbm, 35, rfl⟩
abbrev main_call0_c_5 : Ref sig .tc := ⟨.hbm, 36, rfl⟩
abbrev main_call0_v24 : Ref sig .tc := ⟨.hbm, 37, rfl⟩
abbrev main_call0_v25 : Ref sig .tc := ⟨.hbm, 38, rfl⟩
abbrev main_call0_v26 : Ref sig .tc := ⟨.hbm, 39, rfl⟩
abbrev main_call0_c_6 : Ref sig .tc := ⟨.hbm, 40, rfl⟩
abbrev main_call0_v27 : Ref sig .tc := ⟨.hbm, 41, rfl⟩
abbrev main_call0_v28 : Ref sig .tc := ⟨.hbm, 42, rfl⟩
abbrev main_call0_c_7 : Ref sig .tc := ⟨.hbm, 43, rfl⟩
abbrev main_call0_v29 : Ref sig .tc := ⟨.hbm, 44, rfl⟩
abbrev main_call0_v30 : Ref sig .tc := ⟨.hbm, 45, rfl⟩
abbrev main_call0_v31 : Ref sig .tc := ⟨.hbm, 46, rfl⟩
abbrev main_call0_v32 : Ref sig .tc := ⟨.hbm, 47, rfl⟩
abbrev main_call0_v33 : Ref sig .tc := ⟨.hbm, 48, rfl⟩
abbrev main_call0_v34 : Ref sig .tc := ⟨.hbm, 49, rfl⟩
abbrev main_call0_v35 : Ref sig .tc := ⟨.hbm, 50, rfl⟩
abbrev main_call0_v36 : Ref sig .tc := ⟨.hbm, 51, rfl⟩
abbrev main_v0 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc1_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v22 : BitVec 1 := Scalar.cmpi .eq arg1 c3_i32
  let v23 : BitVec 32 := Scalar.extui v22
  let c0_i32_13 : BitVec 32 := 0#32
  let v24 : BitVec 1 := Scalar.cmpi .ne v23 c0_i32_13
  v24

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  reducesTo_S1000000x128_S1000000_d1 : S1000000x128.ReducesTo [1] S1000000
  h_S_ : 0 < S_.numel
  bcast_S_S4096x4096 : S_.BroadcastsInDim S4096x4096 (![] : Fin 0 → Fin S4096x4096.rank)
  concatenates_S1000000x1_S1000000x1_S1000000x2_d1 : Shape.Concatenates [S1000000x1, S1000000x1] S1000000x2 1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S1024x1024_S1024x1024 : S1024x1024.ShapeCasts S1024x1024
  reduces_S1024x1024_S1024 : S1024x1024.Reduces [1] S1024
  shapeCasts_S1024_S1024x1 : S1024.ShapeCasts S1024x1
  broadcasts_S1024x1_S1024x128 : S1024x1.Broadcasts S1024x128
  gather_S4096x128_S1000000x1_S1000000x128_1_0_n_n_0_1_1128_wf : GatherDims.WF S4096x128 S1000000x1 S1000000x128 [1] [0] [] [0] [] 1 ![1, 128]
  scatter_S4096x4096_S1000000x2_S1000000_n_01_01_1_wf : ScatterDims.WF S4096x4096 S1000000x2 S1000000 [] [0, 1] [0, 1] 1
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S4096x128.size a
  hwx0_1 : ∀ i : grid0.Coords, EltTy.bits .f32 = 32 ∨ (Rect.block (s := S4096x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S4096x128.size a
  hwx0_2 : ∀ i : grid0.Coords, EltTy.bits .f32 = 32 ∨ (Rect.block (s := S4096x128) S1024x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x4096.size a
  hwx1_0 : ∀ i : grid1.Coords, EltTy.bits .f32 = 32 ∨ (Rect.block (s := S4096x4096) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S4096x128.size a
  hwx1_1 : ∀ i : grid1.Coords, EltTy.bits .f32 = 32 ∨ (Rect.block (s := S4096x128) S1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S4096x128.size a
  hwx1_2 : ∀ i : grid1.Coords, EltTy.bits .f32 = 32 ∨ (Rect.block (s := S4096x128) S1024x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S4096x128.size a
  hwx1_3 : ∀ i : grid1.Coords, EltTy.bits .f32 = 32 ∨ (Rect.block (s := S4096x128) S1024x128.size (cc1_transform_3 i) (hinb1_3 i)).WholeWords (EltTy.packing .f32)

variable [Facts₀]

def gather_S4096x128_S1000000x1_S1000000x128_1_0_n_n_0_1_1128 : GatherDims S4096x128 S1000000x1 S1000000x128 where
  offsetDims := [1]
  collapsedSliceDims := [0]
  operandBatchingDims := []
  startIndicesBatchingDims := []
  startIndexMap := [0]
  indexVectorDim := 1
  sliceSizes := ![1, 128]
  wf := gather_S4096x128_S1000000x1_S1000000x128_1_0_n_n_0_1_1128_wf
def scatter_S4096x4096_S1000000x2_S1000000_n_01_01_1 : ScatterDims S4096x4096 S1000000x2 S1000000 where
  updateWindowDims := []
  insertedWindowDims := [0, 1]
  scatterDimsToOperandDims := [0, 1]
  indexVectorDim := 1
  wf := scatter_S4096x4096_S1000000x2_S1000000_n_01_01_1_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg4) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v36) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_call0_v35) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v36) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v36) S1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S1000000 : Shape := ⟨1, ![1000000]⟩
abbrev S4096x128 : Shape := ⟨2, ![4096, 128]⟩
abbrev S1000000x128 : Shape := ⟨2, ![1000000, 128]⟩
abbrev S4096x4096 : Shape := ⟨2, ![4096, 4096]⟩
abbrev S_ : Shape := ⟨0, ![]⟩
abbrev S1000000x1 : Shape := ⟨2, ![1000000, 1]⟩
abbrev S1000000x2 : Shape := ⟨2, ![1000000, 2]⟩
abbrev S4096 : Shape := ⟨1, ![4096]⟩
abbrev S4096x1 : Shape := ⟨2, ![4096, 1]⟩

abbrev nBuf : Space → Nat
  | .hbm => 62
  | .vmem => 0
  | .smem => 0
  | _ => 0

abbrev bufTy : (tb : Table) → Fin (tcTables nBuf tb) → BufTy
  | .hbm, ⟨0, _⟩ => ⟨S1000000, .i32⟩
  | .hbm, ⟨1, _⟩ => ⟨S1000000, .i32⟩
  | .hbm, ⟨2, _⟩ => ⟨S4096x128, .f32⟩
  | .hbm, ⟨3, _⟩ => ⟨S1000000x128, .f32⟩
  | .hbm, ⟨4, _⟩ => ⟨S4096x4096, .f32⟩
  | .hbm, ⟨5, _⟩ => ⟨S_, .i32⟩
  | .hbm, ⟨6, _⟩ => ⟨S1000000, .i32⟩
  | .hbm, ⟨7, _⟩ => ⟨S1000000, .i1⟩
  | .hbm, ⟨8, _⟩ => ⟨S_, .i32⟩
  | .hbm, ⟨9, _⟩ => ⟨S1000000, .i32⟩
  | .hbm, ⟨10, _⟩ => ⟨S1000000, .i32⟩
  | .hbm, ⟨11, _⟩ => ⟨S1000000, .i32⟩
  | .hbm, ⟨12, _⟩ => ⟨S1000000x1, .i32⟩
  | .hbm, ⟨13, _⟩ => ⟨S1000000x128, .f32⟩
  | .hbm, ⟨14, _⟩ => ⟨S_, .i32⟩
  | .hbm, ⟨15, _⟩ => ⟨S1000000, .i32⟩
  | .hbm, ⟨16, _⟩ => ⟨S1000000, .i1⟩
  | .hbm, ⟨17, _⟩ => ⟨S_, .i32⟩
  | .hbm, ⟨18, _⟩ => ⟨S1000000, .i32⟩
  | .hbm, ⟨19, _⟩ => ⟨S1000000, .i32⟩
  | .hbm, ⟨20, _⟩ => ⟨S1000000, .i32⟩
  | .hbm, ⟨21, _⟩ => ⟨S1000000x1, .i32⟩
  | .hbm, ⟨22, _⟩ => ⟨S1000000x128, .f32⟩
  | .hbm, ⟨23, _⟩ => ⟨S1000000x128, .f32⟩
  | .hbm, ⟨24, _⟩ => ⟨S1000000x128, .f32⟩
  | .hbm, ⟨25, _⟩ => ⟨S1000000x128, .f32⟩
  | .hbm, ⟨26, _⟩ => ⟨S_, .f32⟩
  | .hbm, ⟨27, _⟩ => ⟨S1000000, .f32⟩
  | .hbm, ⟨28, _⟩ => ⟨S1000000, .f32⟩
  | .hbm, ⟨29, _⟩ => ⟨S1000000, .f32⟩
  | .hbm, ⟨30, _⟩ => ⟨S1000000, .f32⟩
  | .hbm, ⟨31, _⟩ => ⟨S_, .f32⟩
  | .hbm, ⟨32, _⟩ => ⟨S4096x4096, .f32⟩
  | .hbm, ⟨33, _⟩ => ⟨S_, .i32⟩
  | .hbm, ⟨34, _⟩ => ⟨S1000000, .i32⟩
  | .hbm, ⟨35, _⟩ => ⟨S1000000, .i1⟩
  | .hbm, ⟨36, _⟩ => ⟨S_, .i32⟩
  | .hbm, ⟨37, _⟩ => ⟨S1000000, .i32⟩
  | .hbm, ⟨38, _⟩ => ⟨S1000000, .i32⟩
  | .hbm, ⟨39, _⟩ => ⟨S1000000, .i32⟩
  | .hbm, ⟨40, _⟩ => ⟨S_, .i32⟩
  | .hbm, ⟨41, _⟩ => ⟨S1000000, .i32⟩
  | .hbm, ⟨42, _⟩ => ⟨S1000000, .i1⟩
  | .hbm, ⟨43, _⟩ => ⟨S_, .i32⟩
  | .hbm, ⟨44, _⟩ => ⟨S1000000, .i32⟩
  | .hbm, ⟨45, _⟩ => ⟨S1000000, .i32⟩
  | .hbm, ⟨46, _⟩ => ⟨S1000000, .i32⟩
  | .hbm, ⟨47, _⟩ => ⟨S1000000x1, .i32⟩
  | .hbm, ⟨48, _⟩ => ⟨S1000000x1, .i32⟩
  | .hbm, ⟨49, _⟩ => ⟨S1000000x2, .i32⟩
  | .hbm, ⟨50, _⟩ => ⟨S4096x4096, .f32⟩
  | .hbm, ⟨51, _⟩ => ⟨S_, .f32⟩
  | .hbm, ⟨52, _⟩ => ⟨S4096, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S4096x4096, .f32⟩
  | .hbm, ⟨58, _⟩ => ⟨S4096x4096, .f32⟩
  | .hbm, ⟨59, _⟩ => ⟨S4096x128, .f32⟩
  | .hbm, ⟨60, _⟩ => ⟨S4096x128, .f32⟩
  | .hbm, ⟨61, _⟩ => ⟨S4096x128, .f32⟩
  | _, _ => ⟨S1000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_c_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_6 : Ref sig .tc := ⟨.hbm, 40, rfl⟩
abbrev main_v27 : Ref sig .tc := ⟨.hbm, 41, rfl⟩
abbrev main_v28 : Ref sig .tc := ⟨.hbm, 42, rfl⟩
abbrev main_c_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  reducesTo_S1000000x128_S1000000_d1 : S1000000x128.ReducesTo [1] S1000000
  h_S_ : 0 < S_.numel
  bcast_S_S4096x4096 : S_.BroadcastsInDim S4096x4096 (![] : Fin 0 → Fin S4096x4096.rank)
  concatenates_S1000000x1_S1000000x1_S1000000x2_d1 : Shape.Concatenates [S1000000x1, S1000000x1] S1000000x2 1
  reducesTo_S4096x4096_S4096_d1 : S4096x4096.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  gather_S4096x128_S1000000x1_S1000000x128_1_0_n_n_0_1_1128_wf : GatherDims.WF S4096x128 S1000000x1 S1000000x128 [1] [0] [] [0] [] 1 ![1, 128]
  scatter_S4096x4096_S1000000x2_S1000000_n_01_01_1_wf : ScatterDims.WF S4096x4096 S1000000x2 S1000000 [] [0, 1] [0, 1] 1
  dot_S4096x4096_S4096x128_S4096x128_1_0_0_1_n_n_wf : DotDims.WF S4096x4096 S4096x128 S4096x128 [1] [0] [0] [1] [] []

variable [Facts₀]

def gather_S4096x128_S1000000x1_S1000000x128_1_0_n_n_0_1_1128 : GatherDims S4096x128 S1000000x1 S1000000x128 where
  offsetDims := [1]
  collapsedSliceDims := [0]
  operandBatchingDims := []
  startIndicesBatchingDims := []
  startIndexMap := [0]
  indexVectorDim := 1
  sliceSizes := ![1, 128]
  wf := gather_S4096x128_S1000000x1_S1000000x128_1_0_n_n_0_1_1128_wf
def scatter_S4096x4096_S1000000x2_S1000000_n_01_01_1 : ScatterDims S4096x4096 S1000000x2 S1000000 where
  updateWindowDims := []
  insertedWindowDims := [0, 1]
  scatterDimsToOperandDims := [0, 1]
  indexVectorDim := 1
  wf := scatter_S4096x4096_S1000000x2_S1000000_n_01_01_1_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf

class Facts : Prop extends Facts₀ where

variable [Facts]
-- ==== Proof.Bits.Shared.lean ====
/-
  What the two kernel regions' runs are stated over. Both kernels walk a 4 × 4 grid (row block i, reduction block k,
  the point number being 4·i + k): at k = 0 they clear their accumulators, at every k they add one block product
  (the second kernel also one block of row sums), at k = 3 they write the finished row block out. Here: each window's
  block at a point as read off the arrays the region is entered with; the two branch conditions of each kernel in
  closed form over the point number; where the output window is idle; the staging and accumulator memrefs at a point;
  and the scoped buffers a region does not stage, with its accumulators singled out.
-/
import proofs.«157057_j38895223832723_2_alg».proof.Proof.Gen.Kernel.Launch
import proofs.«157057_j38895223832723_2_alg».proof.Proof.Gen.Kernel.Skeleton
import proofs.«157057_j38895223832723_2_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

/-- The first kernel's window `w` at point `t`: that block of the window's array, the arrays being `V`'s. -/
def blkP (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window the body only reads holds its block when the body runs, whether the pipeline fetched it at this
    point or the block index stayed where it was. -/
theorem foundP_0 {c : Dev nD} (dat : Dat τ (Elt F) Unit ℕ (UR sig nD τ) ℕ cfg0 c) (hA : dat.A 0 = V c (Pipeline.arrRef spec0 0))
    (hafter : ∀ t, dat.after 0 t = blkP V c 0 t) (t : Fin cfg0.N) (d) : dat.before 0 t d = blkP V c 0 t :=
  (dat.before_in_eq_fetched 0 rfl (fun _ => rfl) (fun _ _ _ => rfl) (fun t => by rw [hafter]; unfold Dat.blockOf blkP; rw [hA]; try rfl) t d).trans
    (by unfold Dat.fetched Dat.blockOf blkP; rw [hA]; try rfl)
theorem foundP_1 {c : Dev nD} (dat : Dat τ (Elt F) Unit ℕ (UR sig nD τ) ℕ cfg0 c) (hA : dat.A 1 = V c (Pipeline.arrRef spec0 1))
    (hafter : ∀ t, dat.after 1 t = blkP V c 1 t) (t : Fin cfg0.N) (d) : dat.before 1 t d = blkP V c 1 t :=
  (dat.before_in_eq_fetched 1 rfl (fun _ => rfl) (fun _ _ _ => rfl) (fun t => by rw [hafter]; unfold Dat.blockOf blkP; rw [hA]; try rfl) t d).trans
    (by unfold Dat.fetched Dat.blockOf blkP; rw [hA]; try rfl)

/-- The second kernel's window `w` at point `t`. -/
def blkA (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem foundA_0 {c : Dev nD} (dat : Dat τ (Elt F) Unit ℕ (UR sig nD τ) ℕ cfg1 c) (hA : dat.A 0 = V c (Pipeline.arrRef spec1 0))
    (hafter : ∀ t, dat.after 0 t = blkA V c 0 t) (t : Fin cfg1.N) (d) : dat.before 0 t d = blkA V c 0 t :=
  (dat.before_in_eq_fetched 0 rfl (fun _ => rfl) (fun _ _ _ => rfl) (fun t => by rw [hafter]; unfold Dat.blockOf blkA; rw [hA]; try rfl) t d).trans
    (by unfold Dat.fetched Dat.blockOf blkA; rw [hA]; try rfl)
theorem foundA_1 {c : Dev nD} (dat : Dat τ (Elt F) Unit ℕ (UR sig nD τ) ℕ cfg1 c) (hA : dat.A 1 = V c (Pipeline.arrRef spec1 1))
    (hafter : ∀ t, dat.after 1 t = blkA V c 1 t) (t : Fin cfg1.N) (d) : dat.before 1 t d = blkA V c 1 t :=
  (dat.before_in_eq_fetched 1 rfl (fun _ => rfl) (fun _ _ _ => rfl) (fun t => by rw [hafter]; unfold Dat.blockOf blkA; rw [hA]; try rfl) t d).trans
    (by unfold Dat.fetched Dat.blockOf blkA; rw [hA]; try rfl)
theorem foundA_2 {c : Dev nD} (dat : Dat τ (Elt F) Unit ℕ (UR sig nD τ) ℕ cfg1 c) (hA : dat.A 2 = V c (Pipeline.arrRef spec1 2))
    (hafter : ∀ t, dat.after 2 t = blkA V c 2 t) (t : Fin cfg1.N) (d) : dat.before 2 t d = blkA V c 2 t :=
  (dat.before_in_eq_fetched 2 rfl (fun _ => rfl) (fun _ _ _ => rfl) (fun t => by rw [hafter]; unfold Dat.blockOf blkA; rw [hA]; try rfl) t d).trans
    (by unfold Dat.fetched Dat.blockOf blkA; rw [hA]; try rfl)

end Blocks

/-! ## The branch conditions: k = 0 and k = 3, where k is the point number modulo 4 -/

abbrev firstK0 (i : grid0.Coords) : Prop := (Scalar.cmpi .ne (Scalar.extui (Scalar.cmpi .eq (BitVec.ofNat 32 (i 1).val) 0#32)) 0#32) = 1#1
theorem firstK0_iff : ∀ t : Fin cfg0.N, firstK0 (grid0.coords t) ↔ t.val % 4 = 0 :=
  (by decide +kernel : ∀ t : Fin grid0.N, firstK0 (grid0.coords t) ↔ t.val % 4 = 0)
abbrev lastK0 (i : grid0.Coords) : Prop := k0_cond2 i = 1#1
theorem lastK0_iff : ∀ t : Fin cfg0.N, lastK0 (grid0.coords t) ↔ t.val % 4 = 3 :=
  (by decide +kernel : ∀ t : Fin grid0.N, lastK0 (grid0.coords t) ↔ t.val % 4 = 3)
abbrev firstK1 (i : grid1.Coords) : Prop := (Scalar.cmpi .ne (Scalar.extui (Scalar.cmpi .eq (BitVec.ofNat 32 (i 1).val) 0#32)) 0#32) = 1#1
theorem firstK1_iff : ∀ t : Fin cfg1.N, firstK1 (grid1.coords t) ↔ t.val % 4 = 0 :=
  (by decide +kernel : ∀ t : Fin grid1.N, firstK1 (grid1.coords t) ↔ t.val % 4 = 0)
abbrev lastK1 (i : grid1.Coords) : Prop := k1_cond2 i = 1#1
theorem lastK1_iff : ∀ t : Fin cfg1.N, lastK1 (grid1.coords t) ↔ t.val % 4 = 3 :=
  (by decide +kernel : ∀ t : Fin grid1.N, lastK1 (grid1.coords t) ↔ t.val % 4 = 3)

/-! ## The output window is written only at k = 3 and is idle elsewhere; the inputs are never idle -/

theorem live0_0 : ∀ t : Fin cfg0.N, cfg0.idle 0 (grid0.coords t) = false := by decide +kernel
theorem live0_1 : ∀ t : Fin cfg0.N, cfg0.idle 1 (grid0.coords t) = false := by decide +kernel
theorem idle0_out : ∀ t : Fin cfg0.N, ¬lastK0 (grid0.coords t) → cfg0.idle 2 (grid0.coords t) = true := by decide +kernel
theorem keep0_out : ∀ t : Fin cfg0.N, ¬lastK0 (grid0.coords t) → (cfg0.win 2).flush t = false := by decide +kernel
theorem live0_out : ∀ t : Fin cfg0.N, lastK0 (grid0.coords t) → cfg0.idle 2 (grid0.coords t) = false := by decide +kernel
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem idle1_out : ∀ t : Fin cfg1.N, ¬lastK1 (grid1.coords t) → cfg1.idle 3 (grid1.coords t) = true := by decide +kernel
theorem keep1_out : ∀ t : Fin cfg1.N, ¬lastK1 (grid1.coords t) → (cfg1.win 3).flush t = false := by decide +kernel
theorem live1_out : ∀ t : Fin cfg1.N, lastK1 (grid1.coords t) → cfg1.idle 3 (grid1.coords t) = false := by decide +kernel

/-! ## The memrefs a body is called with at a point -/

abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .f32 := win0_2.stage (cfg0.slots t 2)
abbrev hs0_2 (t : Fin cfg0.N) : (ms0_2 t).IsWhole := hstage0_2 ((cfg0.slots t 2).cast nbuf0_2)
/-- The first kernel's accumulator (a scratch buffer of its own, kept from point to point), -/
abbrev accM0 : Memref sig .tc .vmem S1024x128 .f32 := Memref.whole cc0_scratch0
/-- as a view: its contents are stated through it. -/
abbrev accV0 : View sig .tc .vmem S1024x128 .f32 := accM0.view
/-- One staging buffer of the first kernel's output window, through which its contents are stated. -/
abbrev outV0 : View sig .tc .vmem S1024x128 .f32 := (Memref.whole cc0_stg2_0 : Memref sig .tc .vmem S1024x128 .f32).view

abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x128 .f32 := win1_3.stage (cfg1.slots t 3)
abbrev hs1_3 (t : Fin cfg1.N) : (ms1_3 t).IsWhole := hstage1_3 ((cfg1.slots t 3).cast nbuf1_3)
/-- The second kernel's two accumulators: the running products and the running row sums. -/
abbrev accM1 : Memref sig .tc .vmem S1024x128 .f32 := Memref.whole cc1_scratch0
abbrev accV1 : View sig .tc .vmem S1024x128 .f32 := accM1.view
abbrev sumM1 : Memref sig .tc .vmem S1024x1 .f32 := Memref.whole cc1_scratch1
abbrev sumV1 : View sig .tc .vmem S1024x1 .f32 := sumM1.view
abbrev outV1 : View sig .tc .vmem S1024x128 .f32 := (Memref.whole cc1_stg3_0 : Memref sig .tc .vmem S1024x128 .f32).view

/-! ## The scoped buffers a region does not stage: its accumulators, and the other region's buffers -/

/-- The scoped buffers that are neither the first kernel's staging buffers nor its accumulator (the second kernel's
    buffers), each whole at some contents: the first region never touches them. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

theorem restP_eq (c : Dev nD) :
    (Pipeline.ΦA spec0 c : sProp 𝕄) = iprop((∃ d, owns (c : Thread nD τ) accM0 fullShare d) ∗ others0 c ∗ (∃ r, prngReg c r)) := by
  unfold Pipeline.ΦA; rw [scopedRest0_eq]; unfold others0; simp only [accM0, owns_whole]
  refine Entails.antisymm (show (_ : sProp 𝕄) ⊢ _ from ?_) (show (_ : sProp 𝕄) ⊢ _ from ?_)
  · iintro ⟨⟨HA, HR⟩, Hg⟩
    isplitl [HA]; · iexact HA
    isplitl [HR]; · iexact HR
    iexact Hg
  · iintro ⟨HA, HR, Hg⟩
    isplitr [Hg]
    · isplitl [HA]; · iexact HA
      iexact HR
    iexact Hg

/-- The same for the second region: the first kernel's buffers. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

theorem restA_eq (c : Dev nD) :
    (Pipeline.ΦA spec1 c : sProp 𝕄) = iprop((∃ d, owns (c : Thread nD τ) accM1 fullShare d) ∗ (∃ d, owns (c : Thread nD τ) sumM1 fullShare d) ∗ others1 c ∗ (∃ r, prngReg c r)) := by
  unfold Pipeline.ΦA; rw [scopedRest1_eq]; unfold others1; simp only [accM1, sumM1, owns_whole]
  refine Entails.antisymm (show (_ : sProp 𝕄) ⊢ _ from ?_) (show (_ : sProp 𝕄) ⊢ _ from ?_)
  · iintro ⟨⟨H1, H2, H3, H4, H5, H6, H7, HA, HS⟩, Hg⟩
    isplitl [HA]; · iexact HA
    isplitl [HS]; · iexact HS
    isplitr [Hg]
    · isplitl [H1]; · iexact H1
      isplitl [H2]; · iexact H2
      isplitl [H3]; · iexact H3
      isplitl [H4]; · iexact H4
      isplitl [H5]; · iexact H5
      isplitl [H6]; · iexact H6
      iexact H7
    iexact Hg
  · iintro ⟨HA, HS, ⟨H1, H2, H3, H4, H5, H6, H7⟩, Hg⟩
    isplitr [Hg]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HA]; · iexact HA
      iexact HS
    iexact Hg

end Cert.Kernel.Frm

end
-- ==== Proof.Bits.Run0First.lean ====
/-
  The first kernel's body at a point with k = 0: the accumulators are cleared first. On whole staging memrefs holding the input
  blocks, the output window's buffer handed back as found, the accumulators at anything: the body runs to its end
  and leaves in each buffer it stores into a list of stored pieces, found by running the body symbolically.
-/
import proofs.«157057_j38895223832723_2_alg».proof.Proof.Bits.Shared

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def run0First (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : firstK0 i) (hc1 : ¬lastK0 i)
    (x0 : Vec F S1024x1024 .f32) (x1 : Vec F S1024x128 .f32)  :
    { LA0 : List (View.Piece (Elt F) S1024x128 .f32) //
      ∀ (xo : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xo ∗ (∃ d, owns (c : Thread nD τ) arg5 fullShare d)
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LA0)) -∗ K ⟨⟩))
          ⊢ wp frame (wpE (defs₀ (F := F)) Variants.none c none) E (cc0__matmul_kernel i arg2 harg2 arg3 harg3 arg4 harg4 arg5 harg5) K } := by
  refine ⟨?_, fun xo E K => ?run⟩
  case run =>
    simp only [cc0__matmul_kernel_eq_skeleton]; unfold cc0__matmul_kernel_skel
    unfold owns
    iintro ⟨⟨%f0, %hf0, H0⟩, ⟨%f1, %hf1, H1⟩, ⟨%fO, %hfO, HO⟩, ⟨%dA0, %fA0, -, HA0⟩, Hk⟩
    obtain rfl := harg2.eq_unread hf0; obtain rfl := harg3.eq_unread hf1; obtain rfl := harg4.eq_unread hfO
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HO]
    · iexists _; isplitr; · ipureintro; exact harg4.read_unread _
      iexact HO
    iexists _; iexact HA0

end Cert.Kernel.Frm

end
-- ==== Proof.Bits.Run0Mid.lean ====
/-
  The first kernel's body at a point with k = 1, 2: accumulation only. On whole staging memrefs holding the input
  blocks, the output window's buffer handed back as found, the accumulators at what the point before left: the body runs to its end
  and leaves in each buffer it stores into a list of stored pieces, found by running the body symbolically.
-/
import proofs.«157057_j38895223832723_2_alg».proof.Proof.Bits.Run0First

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def run0Mid (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬firstK0 i) (hc1 : ¬lastK0 i)
    (x0 : Vec F S1024x1024 .f32) (x1 : Vec F S1024x128 .f32) (xa0 : Vec F S1024x128 .f32) :
    { LA0 : List (View.Piece (Elt F) S1024x128 .f32) //
      ∀ (xo : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xo ∗ owns (c : Thread nD τ) arg5 fullShare xa0
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LA0)) -∗ K ⟨⟩))
          ⊢ wp frame (wpE (defs₀ (F := F)) Variants.none c none) E (cc0__matmul_kernel i arg2 harg2 arg3 harg3 arg4 harg4 arg5 harg5) K } := by
  refine ⟨?_, fun xo E K => ?run⟩
  case run =>
    simp only [cc0__matmul_kernel_eq_skeleton]; unfold cc0__matmul_kernel_skel
    unfold owns
    iintro ⟨⟨%f0, %hf0, H0⟩, ⟨%f1, %hf1, H1⟩, ⟨%fO, %hfO, HO⟩, ⟨%fA0, %hfA0, HA0⟩, Hk⟩
    obtain rfl := harg2.eq_unread hf0; obtain rfl := harg3.eq_unread hf1; obtain rfl := harg4.eq_unread hfO; obtain rfl := harg5.eq_unread hfA0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HO]
    · iexists _; isplitr; · ipureintro; exact harg4.read_unread _
      iexact HO
    iexists _; iexact HA0

end Cert.Kernel.Frm

end
-- ==== Proof.Bits.Run0Last.lean ====
/-
  The first kernel's body at a point with k = 3: after the accumulation the finished block is stored into the output window. On whole staging memrefs holding the input
  blocks, the accumulators at what the point before left: the body runs to its end
  and leaves in each buffer it stores into a list of stored pieces, found by running the body symbolically.
-/
import proofs.«157057_j38895223832723_2_alg».proof.Proof.Bits.Run0Mid

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def run0Last (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬firstK0 i) (hc1 : lastK0 i)
    (x0 : Vec F S1024x1024 .f32) (x1 : Vec F S1024x128 .f32) (xa0 : Vec F S1024x128 .f32) :
    Σ' (LO : List (View.Piece (Elt F) S1024x128 .f32)), { LA0 : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xa0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LA0)) -∗ K ⟨⟩))
          ⊢ wp frame (wpE (defs₀ (F := F)) Variants.none c none) E (cc0__matmul_kernel i arg2 harg2 arg3 harg3 arg4 harg4 arg5 harg5) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%dO, %fO, -, HO⟩, ⟨%fA0, %hfA0, HA0⟩, Hk⟩
    obtain rfl := harg2.eq_unread hf0; obtain rfl := harg3.eq_unread hf1; obtain rfl := harg5.eq_unread hfA0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HO]; · iexists _; iexact HO
    iexists _; iexact HA0

end Cert.Kernel.Frm

end
-- ==== Proof.Bits.Region0.lean ====
/-
  The first kernel region, feat = W · af, block by block. At point 4·i + k the body adds the product of block (i, k)
  of W with block k of af to an accumulator it keeps between points (cleared at k = 0) and, at k = 3, copies the
  accumulator into the output window, which the pipeline then writes back as row block i of feat. Here: what the
  accumulator and the output window hold after every point (a recursion over the points, each step one of the three
  symbolic runs of the body), the region's invariant (the accumulator at that content), the pipeline's proof data and
  the body obligation at every point.
-/
import proofs.«157057_j38895223832723_2_alg».proof.Proof.Bits.Run0Last

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The three runs at a grid point's own memrefs -/

abbrev rFirst0 (c : Dev nD) (t : Fin cfg0.N) (h0 : firstK0 (grid0.coords t)) (h1 : ¬lastK0 (grid0.coords t)) (x0 : Vec F S1024x1024 .f32) (x1 : Vec F S1024x128 .f32) :=
  run0First (F := F) c (grid0.coords t) (ms0_0 t) (hs0_0 t) (ms0_1 t) (hs0_1 t) (ms0_2 t) (hs0_2 t) accM0 (Memref.isWhole_whole _) h0 h1 x0 x1
abbrev rMid0 (c : Dev nD) (t : Fin cfg0.N) (h0 : ¬firstK0 (grid0.coords t)) (h1 : ¬lastK0 (grid0.coords t)) (x0 : Vec F S1024x1024 .f32) (x1 : Vec F S1024x128 .f32) (xa : Vec F S1024x128 .f32) :=
  run0Mid (F := F) c (grid0.coords t) (ms0_0 t) (hs0_0 t) (ms0_1 t) (hs0_1 t) (ms0_2 t) (hs0_2 t) accM0 (Memref.isWhole_whole _) h0 h1 x0 x1 xa
abbrev rLast0 (c : Dev nD) (t : Fin cfg0.N) (h0 : ¬firstK0 (grid0.coords t)) (h1 : lastK0 (grid0.coords t)) (x0 : Vec F S1024x1024 .f32) (x1 : Vec F S1024x128 .f32) (xa : Vec F S1024x128 .f32) :=
  run0Last (F := F) c (grid0.coords t) (ms0_0 t) (hs0_0 t) (ms0_1 t) (hs0_1 t) (ms0_2 t) (hs0_2 t) accM0 (Memref.isWhole_whole _) h0 h1 x0 x1 xa

/-- A run's stored pieces for the accumulator tile it: every index is covered. -/
theorem accCover0First (c : Dev nD) (t : Fin cfg0.N) (h0 : firstK0 (grid0.coords t)) (h1 : ¬lastK0 (grid0.coords t)) (x0 : Vec F S1024x1024 .f32) (x1 : Vec F S1024x128 .f32) (y : S1024x128.Idx) :
    ∃ pc ∈ (rFirst0 c t h0 h1 x0 x1).1, y ∈ pc.1.set :=
  View.cover_of_tiledL (rFirst0 c t h0 h1 x0 x1).1 S1024x128.size (by sl_kernel_rfl) y
theorem accCover0Mid (c : Dev nD) (t : Fin cfg0.N) (h0 : ¬firstK0 (grid0.coords t)) (h1 : ¬lastK0 (grid0.coords t)) (x0 : Vec F S1024x1024 .f32) (x1 : Vec F S1024x128 .f32) (xa : Vec F S1024x128 .f32) (y : S1024x128.Idx) :
    ∃ pc ∈ (rMid0 c t h0 h1 x0 x1 xa).1, y ∈ pc.1.set :=
  View.cover_of_tiledL (rMid0 c t h0 h1 x0 x1 xa).1 S1024x128.size (by sl_kernel_rfl) y
theorem accCover0Last (c : Dev nD) (t : Fin cfg0.N) (h0 : ¬firstK0 (grid0.coords t)) (h1 : lastK0 (grid0.coords t)) (x0 : Vec F S1024x1024 .f32) (x1 : Vec F S1024x128 .f32) (xa : Vec F S1024x128 .f32) (y : S1024x128.Idx) :
    ∃ pc ∈ (rLast0 c t h0 h1 x0 x1 xa).2.1, y ∈ pc.1.set :=
  View.cover_of_tiledL (rLast0 c t h0 h1 x0 x1 xa).2.1 S1024x128.size (by sl_kernel_rfl) y
theorem outCover0Last (c : Dev nD) (t : Fin cfg0.N) (h0 : ¬firstK0 (grid0.coords t)) (h1 : lastK0 (grid0.coords t)) (x0 : Vec F S1024x1024 .f32) (x1 : Vec F S1024x128 .f32) (xa : Vec F S1024x128 .f32) (y : S1024x128.Idx) :
    ∃ pc ∈ (rLast0 c t h0 h1 x0 x1 xa).1, y ∈ pc.1.set :=
  View.cover_of_tiledL (rLast0 c t h0 h1 x0 x1 xa).1 S1024x128.size (by sl_kernel_rfl) y

/-- What a run leaves in the accumulator: its pieces read back. -/
def accFirst0 (c : Dev nD) (t : Fin cfg0.N) (h0 : firstK0 (grid0.coords t)) (h1 : ¬lastK0 (grid0.coords t)) (x0 : Vec F S1024x1024 .f32) (x1 : Vec F S1024x128 .f32) : Vec F S1024x128 .f32 :=
  accV0.read (Elt F) (accV0.writes (Elt F) accV0.junk (rFirst0 c t h0 h1 x0 x1).1)
def accMid0 (c : Dev nD) (t : Fin cfg0.N) (h0 : ¬firstK0 (grid0.coords t)) (h1 : ¬lastK0 (grid0.coords t)) (x0 : Vec F S1024x1024 .f32) (x1 : Vec F S1024x128 .f32) (xa : Vec F S1024x128 .f32) : Vec F S1024x128 .f32 :=
  accV0.read (Elt F) (accV0.writes (Elt F) accV0.junk (rMid0 c t h0 h1 x0 x1 xa).1)
def accLast0 (c : Dev nD) (t : Fin cfg0.N) (h0 : ¬firstK0 (grid0.coords t)) (h1 : lastK0 (grid0.coords t)) (x0 : Vec F S1024x1024 .f32) (x1 : Vec F S1024x128 .f32) (xa : Vec F S1024x128 .f32) : Vec F S1024x128 .f32 :=
  accV0.read (Elt F) (accV0.writes (Elt F) accV0.junk (rLast0 c t h0 h1 x0 x1 xa).2.1)
/-- What the run at k = 3 leaves in the output window's buffer. -/
def outLast0 (c : Dev nD) (t : Fin cfg0.N) (h0 : ¬firstK0 (grid0.coords t)) (h1 : lastK0 (grid0.coords t)) (x0 : Vec F S1024x1024 .f32) (x1 : Vec F S1024x128 .f32) (xa : Vec F S1024x128 .f32) : Vec F S1024x128 .f32 :=
  outV0.read (Elt F) (outV0.writes (Elt F) outV0.junk (rLast0 c t h0 h1 x0 x1 xa).1)
/-- At k ≠ 3 the body stores nothing into the output window: a stand-in nothing reads (the window is idle there). -/
def outIdle0 : Vec F S1024x128 .f32 := outV0.read (Elt F) outV0.junk

/-! ## The contents point by point -/

/-- After point `n`: (the output window's buffer, the accumulator). The accumulator after a point with k ≠ 0 is the
    run's result over what the point before left. -/
def traj0 (c : Dev nD) : (n : ℕ) → n < cfg0.N → Vec F S1024x128 .f32 × Vec F S1024x128 .f32
  | 0, hn => (outIdle0, accFirst0 c ⟨0, hn⟩ ((firstK0_iff ⟨0, hn⟩).mpr (Nat.zero_mod _)) (fun h => (fun h => by (try dsimp only at h); omega) ((lastK0_iff ⟨0, hn⟩).mp h)) (blkP V c 0 ⟨0, hn⟩) (blkP V c 1 ⟨0, hn⟩))
  | n + 1, hn =>
    if h0 : (n + 1) % 4 = 0 then
      (outIdle0, accFirst0 c ⟨n + 1, hn⟩ ((firstK0_iff ⟨n + 1, hn⟩).mpr h0) (fun h => (fun h => by (try dsimp only at h); omega) ((lastK0_iff ⟨n + 1, hn⟩).mp h)) (blkP V c 0 ⟨n + 1, hn⟩) (blkP V c 1 ⟨n + 1, hn⟩))
    else
      if h1 : (n + 1) % 4 = 3 then
        (outLast0 c ⟨n + 1, hn⟩ (fun h => h0 ((firstK0_iff ⟨n + 1, hn⟩).mp h)) ((lastK0_iff ⟨n + 1, hn⟩).mpr h1) (blkP V c 0 ⟨n + 1, hn⟩) (blkP V c 1 ⟨n + 1, hn⟩) (traj0 c n (Nat.lt_of_succ_lt hn)).2,
         accLast0 c ⟨n + 1, hn⟩ (fun h => h0 ((firstK0_iff ⟨n + 1, hn⟩).mp h)) ((lastK0_iff ⟨n + 1, hn⟩).mpr h1) (blkP V c 0 ⟨n + 1, hn⟩) (blkP V c 1 ⟨n + 1, hn⟩) (traj0 c n (Nat.lt_of_succ_lt hn)).2)
      else
        (outIdle0, accMid0 c ⟨n + 1, hn⟩ (fun h => h0 ((firstK0_iff ⟨n + 1, hn⟩).mp h)) (fun h => h1 ((lastK0_iff ⟨n + 1, hn⟩).mp h)) (blkP V c 0 ⟨n + 1, hn⟩) (blkP V c 1 ⟨n + 1, hn⟩) (traj0 c n (Nat.lt_of_succ_lt hn)).2)

theorem traj0_first (c : Dev nD) (t : Fin cfg0.N) (h0 : t.val % 4 = 0) (h1 : ¬t.val % 4 = 3) :
    traj0 V c t.val t.isLt = (outIdle0, accFirst0 c t ((firstK0_iff t).mpr h0) (fun h => h1 ((lastK0_iff t).mp h)) (blkP V c 0 t) (blkP V c 1 t)) := by
  obtain ⟨n, hn⟩ := t
  cases n with
  | zero => exact rfl
  | succ n => exact (dif_pos h0).trans rfl

theorem traj0_mid (c : Dev nD) (t : Fin cfg0.N) (h0 : ¬t.val % 4 = 0) (h1 : ¬t.val % 4 = 3) :
    traj0 V c t.val t.isLt = (outIdle0, accMid0 c t (fun h => h0 ((firstK0_iff t).mp h)) (fun h => h1 ((lastK0_iff t).mp h)) (blkP V c 0 t) (blkP V c 1 t)
      (traj0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem traj0_last (c : Dev nD) (t : Fin cfg0.N) (h0 : ¬t.val % 4 = 0) (h1 : t.val % 4 = 3) :
    traj0 V c t.val t.isLt = (outLast0 c t (fun h => h0 ((firstK0_iff t).mp h)) ((lastK0_iff t).mpr h1) (blkP V c 0 t) (blkP V c 1 t)
        (traj0 V c (t.val - 1) (Nat.lt_of_le_of_lt (Nat.sub_le _ _) t.isLt)).2,
      accLast0 c t (fun h => h0 ((firstK0_iff t).mp h)) ((lastK0_iff t).mpr h1) (blkP V c 0 t) (blkP V c 1 t)
        (traj0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant: before the first point every scoped buffer it does not stage at anything; afterwards
    the accumulator at what the point before left -/

def inv0 (c : Dev nD) : (n : ℕ) → n ≤ cfg0.N → sProp 𝕄
  | 0, _ => Pipeline.ΦA spec0 c
  | n + 1, hn => iprop(owns (c : Thread nD τ) accM0 fullShare ((traj0 V c n hn).2) ∗ others0 c ∗ (∃ r, prngReg c r))

theorem inv0_zero (c : Dev nD) (n : ℕ) (h : n ≤ cfg0.N) (hz : n = 0) : inv0 V c n h = Pipeline.ΦA spec0 c := by
  subst hz; rfl
theorem inv0_succ (c : Dev nD) (n : ℕ) (hn : n < cfg0.N) :
    inv0 V c (n + 1) hn = iprop(owns (c : Thread nD τ) accM0 fullShare ((traj0 V c n hn).2) ∗ others0 c ∗ (∃ r, prngReg c r)) := rfl
theorem inv0_pos (c : Dev nD) (n : ℕ) (h : n ≤ cfg0.N) (hz : n ≠ 0) :
    inv0 V c n h = iprop(owns (c : Thread nD τ) accM0 fullShare ((traj0 V c (n - 1) (by omega)).2) ∗ others0 c ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => blkP V c 0 t
    | ⟨1, _⟩ => blkP V c 1 t
    | ⟨2, _⟩ => (traj0 V c t.val t.isLt).1
  Φ t := inv0 V c t.val (Nat.le_of_lt_succ t.isLt)
  q _ := fullShare
  owed _ := 0

theorem dat0_A (c : Dev nD) (w : Fin cfg0.W) : (dat0 V c).A w = V c (Pipeline.arrRef spec0 w) := by
  dsimp only [dat0]
theorem inv0_castSucc (c : Dev nD) (t : Fin cfg0.N) :
    (dat0 V c).Φ t.castSucc = inv0 V c t.val (Nat.le_of_lt t.isLt) := by
  dsimp only [dat0]; simp only [Fin.coe_castSucc]
theorem after0_0 (c : Dev nD) (t : Fin cfg0.N) : (dat0 V c).after 0 t = blkP V c 0 t := by dsimp only [dat0]
theorem after0_1 (c : Dev nD) (t : Fin cfg0.N) : (dat0 V c).after 1 t = blkP V c 1 t := by dsimp only [dat0]
theorem after0_2 (c : Dev nD) (t : Fin cfg0.N) : (dat0 V c).after 2 t = (traj0 V c t.val t.isLt).1 := by dsimp only [dat0]
theorem found0_0 (c : Dev nD) (t : Fin cfg0.N) (d) : (dat0 V c).before 0 t d = blkP V c 0 t :=
  foundP_0 V (dat0 V c) (dat0_A V c 0) (after0_0 V c) t d
theorem found0_1 (c : Dev nD) (t : Fin cfg0.N) (d) : (dat0 V c).before 1 t d = blkP V c 1 t :=
  foundP_1 V (dat0 V c) (dat0_A V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the input memrefs hold their blocks; the point number modulo 4 says which run applies; the
    invariant hands the body the accumulator (at anything before the first point) and takes it back at this point's
    content; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [found0_0, found0_1]
  rw [show (dat0 V c).owesAt () t.succ = (dat0 V c).owesAt () t.castSucc from rfl]
  rw [show (dat0 V c).Φ t.succ = inv0 V c (t.val + 1) t.isLt from rfl, inv0_succ]
  have hN : t.val < 16 := lt_of_lt_of_eq t.isLt (show cfg0.N = 16 from N_0)
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  by_cases h0 : t.val % 4 = 0
  · have h1 : ¬t.val % 4 = 3 := by omega
    rw [Dat.leavesExact_idle (dat0 V c) 2 t (idle0_out t (fun h => h1 ((lastK0_iff t).mp h))) (keep0_out t (fun h => h1 ((lastK0_iff t).mp h)))]
    rw [traj0_first V c t h0 h1]
    unfold accFirst0; (try dsimp only)
    by_cases hz : t.val = 0
    · rw [inv0_castSucc V c t, inv0_zero V c _ _ hz, restP_eq]
      iintro ⟨⟨HA, HR, Hg⟩, Ho, ⟨%d0, H0⟩, ⟨%d1, H1⟩, ⟨%d2, H2⟩⟩
      iapply ((rFirst0 c t ((firstK0_iff t).mpr h0) (fun h => h1 ((lastK0_iff t).mp h)) (blkP V c 0 t) (blkP V c 1 t)).2 _ Set.univ _)
      isplitl [H0]; · iexact H0
      isplitl [H1]; · iexact H1
      isplitl [H2]; · iexact H2
      isplitl [HA]; · iexact HA
      iintro ⟨H0, H1, H2, ⟨%ea, HA⟩⟩
      isplitl [HA HR Hg]
      · isplitl [HA]
        · unfold owns; iexists _; isplitr
          swap; · iexact HA
          ipureintro; exact View.read_writes_of_cover _ _ _ _ _ (accCover0First c t _ _ _ _)
        isplitl [HR]; · iexact HR
        iexact Hg
      isplitl [Ho]; · iexact Ho
      isplitl [H0]; · iexact H0
      isplitl [H1]; · iexact H1
      iexists _; iexact H2
    · rw [inv0_castSucc V c t, inv0_pos V c _ _ hz]
      iintro ⟨⟨HA, HR, Hg⟩, Ho, ⟨%d0, H0⟩, ⟨%d1, H1⟩, ⟨%d2, H2⟩⟩
      iapply ((rFirst0 c t ((firstK0_iff t).mpr h0) (fun h => h1 ((lastK0_iff t).mp h)) (blkP V c 0 t) (blkP V c 1 t)).2 _ Set.univ _)
      isplitl [H0]; · iexact H0
      isplitl [H1]; · iexact H1
      isplitl [H2]; · iexact H2
      isplitl [HA]; · iexists _; iexact HA
      iintro ⟨H0, H1, H2, ⟨%ea, HA⟩⟩
      isplitl [HA HR Hg]
      · isplitl [HA]
        · unfold owns; iexists _; isplitr
          swap; · iexact HA
          ipureintro; exact View.read_writes_of_cover _ _ _ _ _ (accCover0First c t _ _ _ _)
        isplitl [HR]; · iexact HR
        iexact Hg
      isplitl [Ho]; · iexact Ho
      isplitl [H0]; · iexact H0
      isplitl [H1]; · iexact H1
      iexists _; iexact H2
  · have hz : t.val ≠ 0 := fun e => h0 (by rw [e])
    by_cases h1 : t.val % 4 = 3
    · rw [show (dat0 V c).leavesExact 2 t = owns (c : Thread nD τ) (ms0_2 t) fullShare ((dat0 V c).after 2 t) from by
        unfold Dat.leavesExact; rw [live0_out t ((lastK0_iff t).mpr h1)], after0_2]
      rw [traj0_last V c t h0 h1]
      unfold outLast0 accLast0; (try dsimp only)
      rw [inv0_castSucc V c t, inv0_pos V c _ _ hz]
      iintro ⟨⟨HA, HR, Hg⟩, Ho, ⟨%d0, H0⟩, ⟨%d1, H1⟩, ⟨%d2, H2⟩⟩
      iapply ((rLast0 c t (fun h => h0 ((firstK0_iff t).mp h)) ((lastK0_iff t).mpr h1) (blkP V c 0 t) (blkP V c 1 t) _).2.2 Set.univ _)
      isplitl [H0]; · iexact H0
      isplitl [H1]; · iexact H1
      isplitl [H2]; · iexists _; iexact H2
      isplitl [HA]; · iexact HA
      iintro ⟨H0, H1, ⟨%eo, H2⟩, ⟨%ea, HA⟩⟩
      isplitl [HA HR Hg]
      · isplitl [HA]
        · unfold owns; iexists _; isplitr
          swap; · iexact HA
          ipureintro; exact View.read_writes_of_cover _ _ _ _ _ (accCover0Last c t _ _ _ _ _)
        isplitl [HR]; · iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (outCover0Last c t _ _ _ _ _)
    · rw [Dat.leavesExact_idle (dat0 V c) 2 t (idle0_out t (fun h => h1 ((lastK0_iff t).mp h))) (keep0_out t (fun h => h1 ((lastK0_iff t).mp h)))]
      rw [traj0_mid V c t h0 h1]
      unfold accMid0; (try dsimp only)
      rw [inv0_castSucc V c t, inv0_pos V c _ _ hz]
      iintro ⟨⟨HA, HR, Hg⟩, Ho, ⟨%d0, H0⟩, ⟨%d1, H1⟩, ⟨%d2, H2⟩⟩
      iapply ((rMid0 c t (fun h => h0 ((firstK0_iff t).mp h)) (fun h => h1 ((lastK0_iff t).mp h)) (blkP V c 0 t) (blkP V c 1 t) _).2 _ Set.univ _)
      isplitl [H0]; · iexact H0
      isplitl [H1]; · iexact H1
      isplitl [H2]; · iexact H2
      isplitl [HA]; · iexact HA
      iintro ⟨H0, H1, H2, ⟨%ea, HA⟩⟩
      isplitl [HA HR Hg]
      · isplitl [HA]
        · unfold owns; iexists _; isplitr
          swap; · iexact HA
          ipureintro; exact View.read_writes_of_cover _ _ _ _ _ (accCover0Mid c t _ _ _ _ _)
        isplitl [HR]; · iexact HR
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem inv0_in (c : Dev nD) : Pipeline.ΦA spec0 c ⊢ (dat0 V c).Φ 0 := by
  rw [show (dat0 V c).Φ 0 = inv0 V c 0 (Nat.zero_le _) from rfl, inv0_zero V c 0 _ rfl]
  try exact Idealize.SL.BI.Entails.refl _

/-- and after the last point the invariant gives it back, the accumulator's content forgotten. -/
theorem inv0_out (c : Dev nD) : (dat0 V c).Φ (Fin.last cfg0.N) ⊢ Pipeline.ΦA spec0 c := by
  rw [show (dat0 V c).Φ (Fin.last cfg0.N) = inv0 V c (Fin.last cfg0.N).val (Nat.le_of_lt_succ (Fin.last cfg0.N).isLt) from rfl,
    inv0_pos V c _ _ (by rw [Fin.val_last]; have : cfg0.N = 16 := N_0; omega), restP_eq]
  iintro ⟨HA, HR, Hg⟩
  isplitl [HA]; · iexists _; iexact HA
  isplitl [HR]; · iexact HR
  iexact Hg

end

end Cert.Kernel.Frm

end
-- ==== Proof.Bits.Run1First.lean ====
/-
  The second kernel's body at a point with k = 0: the accumulators are cleared first. On whole staging memrefs holding the input
  blocks, the output window's buffer handed back as found, the accumulators at anything: the body runs to its end
  and leaves in each buffer it stores into a list of stored pieces, found by running the body symbolically.
-/
import proofs.«157057_j38895223832723_2_alg».proof.Proof.Bits.Shared

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def run1First (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (hc0 : firstK1 i) (hc1 : ¬lastK1 i)
    (x0 : Vec F S1024x1024 .f32) (x1 : Vec F S1024x128 .f32) (x2 : Vec F S1024x128 .f32)  :
    Σ' (LA0 : List (View.Piece (Elt F) S1024x128 .f32)), { LA1 : List (View.Piece (Elt F) S1024x1 .f32) //
      ∀ (xo : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xo ∗ (∃ f, arg6.view.loc (c : Thread nD τ) ↦[arg6.view.set]{fullShare} arg6.view.writes (Elt F) f LA0) ∗ (∃ f, arg7.view.loc (c : Thread nD τ) ↦[arg7.view.set]{fullShare} arg7.view.writes (Elt F) f LA1)) -∗ K ⟨⟩))
          ⊢ wp frame (wpE (defs₀ (F := F)) Variants.none c none) E (cc1__attn_kernel i arg2 harg2 arg3 harg3 arg4 harg4 arg5 harg5 arg6 harg6 arg7 harg7) K } := by
  refine ⟨?_, ?_, fun xo E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%fO, %hfO, HO⟩, ⟨%dA0, %fA0, -, HA0⟩, ⟨%dA1, %fA1, -, HA1⟩, Hk⟩
    obtain rfl := harg2.eq_unread hf0; obtain rfl := harg3.eq_unread hf1; obtain rfl := harg4.eq_unread hf2; obtain rfl := harg5.eq_unread hfO
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; · ipureintro; exact harg5.read_unread _
      iexact HO
    isplitl [HA0]; · iexists _; iexact HA0
    iexists _; iexact HA1

end Cert.Kernel.Frm

end
-- ==== Proof.Bits.Run1Mid.lean ====
/-
  The second kernel's body at a point with k = 1, 2: accumulation only. On whole staging memrefs holding the input
  blocks, the output window's buffer handed back as found, the accumulators at what the point before left: the body runs to its end
  and leaves in each buffer it stores into a list of stored pieces, found by running the body symbolically.
-/
import proofs.«157057_j38895223832723_2_alg».proof.Proof.Bits.Run1First

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def run1Mid (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (hc0 : ¬firstK1 i) (hc1 : ¬lastK1 i)
    (x0 : Vec F S1024x1024 .f32) (x1 : Vec F S1024x128 .f32) (x2 : Vec F S1024x128 .f32) (xa0 : Vec F S1024x128 .f32) (xa1 : Vec F S1024x1 .f32) :
    Σ' (LA0 : List (View.Piece (Elt F) S1024x128 .f32)), { LA1 : List (View.Piece (Elt F) S1024x1 .f32) //
      ∀ (xo : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare xa0 ∗ owns (c : Thread nD τ) arg7 fullShare xa1
            ∗ (iprop(owns (c : Thread nD τ) arg2 fullShare x0 ∗ owns (c : Thread nD τ) arg3 fullShare x1 ∗ owns (c : Thread nD τ) arg4 fullShare x2 ∗ owns (c : Thread nD τ) arg5 fullShare xo ∗ (∃ f, arg6.view.loc (c : Thread nD τ) ↦[arg6.view.set]{fullShare} arg6.view.writes (Elt F) f LA0) ∗ (∃ f, arg7.view.loc (c : Thread nD τ) ↦[arg7.view.set]{fullShare} arg7.view.writes (Elt F) f LA1)) -∗ K ⟨⟩))
          ⊢ wp frame (wpE (defs₀ (F := F)) Variants.none c none) E (cc1__attn_kernel i arg2 harg2 arg3 harg3 arg4 harg4 arg5 harg5 arg6 harg6 arg7 harg7) K } := by
  refine ⟨?_, ?_, fun xo E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%fO, %hfO, HO⟩, ⟨%fA0, %hfA0, HA0⟩, ⟨%fA1, %hfA1, HA1⟩, Hk⟩
    obtain rfl := harg2.eq_unread hf0; obtain rfl := harg3.eq_unread hf1; obtain rfl := harg4.eq_unread hf2; obtain rfl := harg5.eq_unread hfO; obtain rfl := harg6.eq_unread hfA0; obtain rfl := harg7.eq_unread hfA1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; · ipureintro; exact harg5.read_unread _
      iexact HO
    isplitl [HA0]; · iexists _; iexact HA0
    iexists _; iexact HA1

end Cert.Kernel.Frm

end
-- ==== Proof.Bits.Run1Last.lean ====
/-
  The second kernel's body at a point with k = 3: after the accumulation the finished block is stored into the output window. On whole staging memrefs holding the input
  blocks, the accumulators at what the point before left: the body runs to its end
  and leaves in each buffer it stores into a list of stored pieces, found by running the body symbolically.
-/
import proofs.«157057_j38895223832723_2_alg».proof.Proof.Bits.Run1Mid

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def run1Last (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (hc0 : ¬firstK1 i) (hc1 : lastK1 i)
    (x0 : Vec F S1024x1024 .f32) (x1 : Vec F S1024x128 .f32) (x2 : Vec F S1024x128 .f32) (xa0 : Vec F S1024x128 .f32) (xa1 : Vec F S1024x1 .f32) :
    Σ' (LO : List (View.Piece (Elt F) S1024x128 .f32)) (LA0 : List (View.Piece (Elt F) S1024x128 .f32)), { LA1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xa0 ∗ owns (c : Thread nD τ) arg7 fullShare xa1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LA0) ∗ (∃ f, arg7.view.loc (c : Thread nD τ) ↦[arg7.view.set]{fullShare} arg7.view.writes (Elt F) f LA1)) -∗ K ⟨⟩))
          ⊢ wp frame (wpE (defs₀ (F := F)) Variants.none c none) E (cc1__attn_kernel i arg2 harg2 arg3 harg3 arg4 harg4 arg5 harg5 arg6 harg6 arg7 harg7) K } := by
  refine ⟨?_, ?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%dO, %fO, -, HO⟩, ⟨%fA0, %hfA0, HA0⟩, ⟨%fA1, %hfA1, HA1⟩, Hk⟩
    obtain rfl := harg2.eq_unread hf0; obtain rfl := harg3.eq_unread hf1; obtain rfl := harg4.eq_unread hf2; obtain rfl := harg6.eq_unread hfA0; obtain rfl := harg7.eq_unread hfA1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]; · iexists _; iexact HO
    isplitl [HA0]; · iexists _; iexact HA0
    iexists _; iexact HA1

end Cert.Kernel.Frm

end
-- ==== Proof.Bits.Region1.lean ====
/-
  The second kernel region, h = (att · feat) / (rowsum att + ε) + feat, block by block. At point 4·i + k the body adds
  the product of block (i, k) of att with block k of feat to one accumulator and the row sums of block (i, k) of att to
  another (both cleared at k = 0) and, at k = 3, divides the first by the second plus ε row by row, adds row block i of
  feat, and stores the result into the output window. Here: what the two accumulators and the output window hold after
  every point, the region's invariant, the pipeline's proof data and the body obligation at every point. The windows on
  feat read one array twice; each holds half of the share.
-/
import proofs.«157057_j38895223832723_2_alg».proof.Proof.Bits.Run1Last

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

abbrev rFirst1 (c : Dev nD) (t : Fin cfg1.N) (h0 : firstK1 (grid1.coords t)) (h1 : ¬lastK1 (grid1.coords t)) (x0 : Vec F S1024x1024 .f32) (x1 : Vec F S1024x128 .f32) (x2 : Vec F S1024x128 .f32) :=
  run1First (F := F) c (grid1.coords t) (ms1_0 t) (hs1_0 t) (ms1_1 t) (hs1_1 t) (ms1_2 t) (hs1_2 t) (ms1_3 t) (hs1_3 t) accM1 (Memref.isWhole_whole _) sumM1 (Memref.isWhole_whole _) h0 h1 x0 x1 x2
abbrev rMid1 (c : Dev nD) (t : Fin cfg1.N) (h0 : ¬firstK1 (grid1.coords t)) (h1 : ¬lastK1 (grid1.coords t)) (x0 : Vec F S1024x1024 .f32) (x1 : Vec F S1024x128 .f32) (x2 : Vec F S1024x128 .f32) (xa : Vec F S1024x128 .f32) (xs : Vec F S1024x1 .f32) :=
  run1Mid (F := F) c (grid1.coords t) (ms1_0 t) (hs1_0 t) (ms1_1 t) (hs1_1 t) (ms1_2 t) (hs1_2 t) (ms1_3 t) (hs1_3 t) accM1 (Memref.isWhole_whole _) sumM1 (Memref.isWhole_whole _) h0 h1 x0 x1 x2 xa xs
abbrev rLast1 (c : Dev nD) (t : Fin cfg1.N) (h0 : ¬firstK1 (grid1.coords t)) (h1 : lastK1 (grid1.coords t)) (x0 : Vec F S1024x1024 .f32) (x1 : Vec F S1024x128 .f32) (x2 : Vec F S1024x128 .f32) (xa : Vec F S1024x128 .f32) (xs : Vec F S1024x1 .f32) :=
  run1Last (F := F) c (grid1.coords t) (ms1_0 t) (hs1_0 t) (ms1_1 t) (hs1_1 t) (ms1_2 t) (hs1_2 t) (ms1_3 t) (hs1_3 t) accM1 (Memref.isWhole_whole _) sumM1 (Memref.isWhole_whole _) h0 h1 x0 x1 x2 xa xs

theorem accCover1First (c : Dev nD) (t : Fin cfg1.N) (h0 : firstK1 (grid1.coords t)) (h1 : ¬lastK1 (grid1.coords t)) (x0 : Vec F S1024x1024 .f32) (x1 : Vec F S1024x128 .f32) (x2 : Vec F S1024x128 .f32) (y : S1024x128.Idx) :
    ∃ pc ∈ (rFirst1 c t h0 h1 x0 x1 x2).1, y ∈ pc.1.set :=
  View.cover_of_tiledL (rFirst1 c t h0 h1 x0 x1 x2).1 S1024x128.size (by sl_kernel_rfl) y
theorem sumCover1First (c : Dev nD) (t : Fin cfg1.N) (h0 : firstK1 (grid1.coords t)) (h1 : ¬lastK1 (grid1.coords t)) (x0 : Vec F S1024x1024 .f32) (x1 : Vec F S1024x128 .f32) (x2 : Vec F S1024x128 .f32) (y : S1024x1.Idx) :
    ∃ pc ∈ (rFirst1 c t h0 h1 x0 x1 x2).2.1, y ∈ pc.1.set :=
  View.cover_of_tiledL (rFirst1 c t h0 h1 x0 x1 x2).2.1 S1024x1.size (by sl_kernel_rfl) y
theorem accCover1Mid (c : Dev nD) (t : Fin cfg1.N) (h0 : ¬firstK1 (grid1.coords t)) (h1 : ¬lastK1 (grid1.coords t)) (x0 : Vec F S1024x1024 .f32) (x1 : Vec F S1024x128 .f32) (x2 : Vec F S1024x128 .f32) (xa : Vec F S1024x128 .f32) (xs : Vec F S1024x1 .f32) (y : S1024x128.Idx) :
    ∃ pc ∈ (rMid1 c t h0 h1 x0 x1 x2 xa xs).1, y ∈ pc.1.set :=
  View.cover_of_tiledL (rMid1 c t h0 h1 x0 x1 x2 xa xs).1 S1024x128.size (by sl_kernel_rfl) y
theorem sumCover1Mid (c : Dev nD) (t : Fin cfg1.N) (h0 : ¬firstK1 (grid1.coords t)) (h1 : ¬lastK1 (grid1.coords t)) (x0 : Vec F S1024x1024 .f32) (x1 : Vec F S1024x128 .f32) (x2 : Vec F S1024x128 .f32) (xa : Vec F S1024x128 .f32) (xs : Vec F S1024x1 .f32) (y : S1024x1.Idx) :
    ∃ pc ∈ (rMid1 c t h0 h1 x0 x1 x2 xa xs).2.1, y ∈ pc.1.set :=
  View.cover_of_tiledL (rMid1 c t h0 h1 x0 x1 x2 xa xs).2.1 S1024x1.size (by sl_kernel_rfl) y
theorem outCover1Last (c : Dev nD) (t : Fin cfg1.N) (h0 : ¬firstK1 (grid1.coords t)) (h1 : lastK1 (grid1.coords t)) (x0 : Vec F S1024x1024 .f32) (x1 : Vec F S1024x128 .f32) (x2 : Vec F S1024x128 .f32) (xa : Vec F S1024x128 .f32) (xs : Vec F S1024x1 .f32) (y : S1024x128.Idx) :
    ∃ pc ∈ (rLast1 c t h0 h1 x0 x1 x2 xa xs).1, y ∈ pc.1.set :=
  View.cover_of_tiledL (rLast1 c t h0 h1 x0 x1 x2 xa xs).1 S1024x128.size (by sl_kernel_rfl) y
theorem accCover1Last (c : Dev nD) (t : Fin cfg1.N) (h0 : ¬firstK1 (grid1.coords t)) (h1 : lastK1 (grid1.coords t)) (x0 : Vec F S1024x1024 .f32) (x1 : Vec F S1024x128 .f32) (x2 : Vec F S1024x128 .f32) (xa : Vec F S1024x128 .f32) (xs : Vec F S1024x1 .f32) (y : S1024x128.Idx) :
    ∃ pc ∈ (rLast1 c t h0 h1 x0 x1 x2 xa xs).2.1, y ∈ pc.1.set :=
  View.cover_of_tiledL (rLast1 c t h0 h1 x0 x1 x2 xa xs).2.1 S1024x128.size (by sl_kernel_rfl) y
theorem sumCover1Last (c : Dev nD) (t : Fin cfg1.N) (h0 : ¬firstK1 (grid1.coords t)) (h1 : lastK1 (grid1.coords t)) (x0 : Vec F S1024x1024 .f32) (x1 : Vec F S1024x128 .f32) (x2 : Vec F S1024x128 .f32) (xa : Vec F S1024x128 .f32) (xs : Vec F S1024x1 .f32) (y : S1024x1.Idx) :
    ∃ pc ∈ (rLast1 c t h0 h1 x0 x1 x2 xa xs).2.2.1, y ∈ pc.1.set :=
  View.cover_of_tiledL (rLast1 c t h0 h1 x0 x1 x2 xa xs).2.2.1 S1024x1.size (by sl_kernel_rfl) y

def accFirst1 (c : Dev nD) (t : Fin cfg1.N) (h0 : firstK1 (grid1.coords t)) (h1 : ¬lastK1 (grid1.coords t)) (x0 : Vec F S1024x1024 .f32) (x1 : Vec F S1024x128 .f32) (x2 : Vec F S1024x128 .f32) : Vec F S1024x128 .f32 :=
  accV1.read (Elt F) (accV1.writes (Elt F) accV1.junk (rFirst1 c t h0 h1 x0 x1 x2).1)
def sumFirst1 (c : Dev nD) (t : Fin cfg1.N) (h0 : firstK1 (grid1.coords t)) (h1 : ¬lastK1 (grid1.coords t)) (x0 : Vec F S1024x1024 .f32) (x1 : Vec F S1024x128 .f32) (x2 : Vec F S1024x128 .f32) : Vec F S1024x1 .f32 :=
  sumV1.read (Elt F) (sumV1.writes (Elt F) sumV1.junk (rFirst1 c t h0 h1 x0 x1 x2).2.1)
def accMid1 (c : Dev nD) (t : Fin cfg1.N) (h0 : ¬firstK1 (grid1.coords t)) (h1 : ¬lastK1 (grid1.coords t)) (x0 : Vec F S1024x1024 .f32) (x1 : Vec F S1024x128 .f32) (x2 : Vec F S1024x128 .f32) (xa : Vec F S1024x128 .f32) (xs : Vec F S1024x1 .f32) : Vec F S1024x128 .f32 :=
  accV1.read (Elt F) (accV1.writes (Elt F) accV1.junk (rMid1 c t h0 h1 x0 x1 x2 xa xs).1)
def sumMid1 (c : Dev nD) (t : Fin cfg1.N) (h0 : ¬firstK1 (grid1.coords t)) (h1 : ¬lastK1 (grid1.coords t)) (x0 : Vec F S1024x1024 .f32) (x1 : Vec F S1024x128 .f32) (x2 : Vec F S1024x128 .f32) (xa : Vec F S1024x128 .f32) (xs : Vec F S1024x1 .f32) : Vec F S1024x1 .f32 :=
  sumV1.read (Elt F) (sumV1.writes (Elt F) sumV1.junk (rMid1 c t h0 h1 x0 x1 x2 xa xs).2.1)
def outLast1 (c : Dev nD) (t : Fin cfg1.N) (h0 : ¬firstK1 (grid1.coords t)) (h1 : lastK1 (grid1.coords t)) (x0 : Vec F S1024x1024 .f32) (x1 : Vec F S1024x128 .f32) (x2 : Vec F S1024x128 .f32) (xa : Vec F S1024x128 .f32) (xs : Vec F S1024x1 .f32) : Vec F S1024x128 .f32 :=
  outV1.read (Elt F) (outV1.writes (Elt F) outV1.junk (rLast1 c t h0 h1 x0 x1 x2 xa xs).1)
def accLast1 (c : Dev nD) (t : Fin cfg1.N) (h0 : ¬firstK1 (grid1.coords t)) (h1 : lastK1 (grid1.coords t)) (x0 : Vec F S1024x1024 .f32) (x1 : Vec F S1024x128 .f32) (x2 : Vec F S1024x128 .f32) (xa : Vec F S1024x128 .f32) (xs : Vec F S1024x1 .f32) : Vec F S1024x128 .f32 :=
  accV1.read (Elt F) (accV1.writes (Elt F) accV1.junk (rLast1 c t h0 h1 x0 x1 x2 xa xs).2.1)
def sumLast1 (c : Dev nD) (t : Fin cfg1.N) (h0 : ¬firstK1 (grid1.coords t)) (h1 : lastK1 (grid1.coords t)) (x0 : Vec F S1024x1024 .f32) (x1 : Vec F S1024x128 .f32) (x2 : Vec F S1024x128 .f32) (xa : Vec F S1024x128 .f32) (xs : Vec F S1024x1 .f32) : Vec F S1024x1 .f32 :=
  sumV1.read (Elt F) (sumV1.writes (Elt F) sumV1.junk (rLast1 c t h0 h1 x0 x1 x2 xa xs).2.2.1)
def outIdle1 : Vec F S1024x128 .f32 := outV1.read (Elt F) outV1.junk

/-- After point `n`: (the output window's buffer, the product accumulator, the row-sum accumulator). -/
def traj1 (c : Dev nD) : (n : ℕ) → n < cfg1.N → Vec F S1024x128 .f32 × Vec F S1024x128 .f32 × Vec F S1024x1 .f32
  | 0, hn => (outIdle1, accFirst1 c ⟨0, hn⟩ ((firstK1_iff ⟨0, hn⟩).mpr (Nat.zero_mod _)) (fun h => (fun h => by (try dsimp only at h); omega) ((lastK1_iff ⟨0, hn⟩).mp h)) (blkA V c 0 ⟨0, hn⟩) (blkA V c 1 ⟨0, hn⟩) (blkA V c 2 ⟨0, hn⟩),
      sumFirst1 c ⟨0, hn⟩ ((firstK1_iff ⟨0, hn⟩).mpr (Nat.zero_mod _)) (fun h => (fun h => by (try dsimp only at h); omega) ((lastK1_iff ⟨0, hn⟩).mp h)) (blkA V c 0 ⟨0, hn⟩) (blkA V c 1 ⟨0, hn⟩) (blkA V c 2 ⟨0, hn⟩))
  | n + 1, hn =>
    if h0 : (n + 1) % 4 = 0 then
      (outIdle1, accFirst1 c ⟨n + 1, hn⟩ ((firstK1_iff ⟨n + 1, hn⟩).mpr h0) (fun h => (fun h => by (try dsimp only at h); omega) ((lastK1_iff ⟨n + 1, hn⟩).mp h)) (blkA V c 0 ⟨n + 1, hn⟩) (blkA V c 1 ⟨n + 1, hn⟩) (blkA V c 2 ⟨n + 1, hn⟩),
        sumFirst1 c ⟨n + 1, hn⟩ ((firstK1_iff ⟨n + 1, hn⟩).mpr h0) (fun h => (fun h => by (try dsimp only at h); omega) ((lastK1_iff ⟨n + 1, hn⟩).mp h)) (blkA V c 0 ⟨n + 1, hn⟩) (blkA V c 1 ⟨n + 1, hn⟩) (blkA V c 2 ⟨n + 1, hn⟩))
    else
      if h1 : (n + 1) % 4 = 3 then
        (outLast1 c ⟨n + 1, hn⟩ (fun h => h0 ((firstK1_iff ⟨n + 1, hn⟩).mp h)) ((lastK1_iff ⟨n + 1, hn⟩).mpr h1) (blkA V c 0 ⟨n + 1, hn⟩) (blkA V c 1 ⟨n + 1, hn⟩) (blkA V c 2 ⟨n + 1, hn⟩) (traj1 c n (Nat.lt_of_succ_lt hn)).2.1 (traj1 c n (Nat.lt_of_succ_lt hn)).2.2,
         accLast1 c ⟨n + 1, hn⟩ (fun h => h0 ((firstK1_iff ⟨n + 1, hn⟩).mp h)) ((lastK1_iff ⟨n + 1, hn⟩).mpr h1) (blkA V c 0 ⟨n + 1, hn⟩) (blkA V c 1 ⟨n + 1, hn⟩) (blkA V c 2 ⟨n + 1, hn⟩) (traj1 c n (Nat.lt_of_succ_lt hn)).2.1 (traj1 c n (Nat.lt_of_succ_lt hn)).2.2,
         sumLast1 c ⟨n + 1, hn⟩ (fun h => h0 ((firstK1_iff ⟨n + 1, hn⟩).mp h)) ((lastK1_iff ⟨n + 1, hn⟩).mpr h1) (blkA V c 0 ⟨n + 1, hn⟩) (blkA V c 1 ⟨n + 1, hn⟩) (blkA V c 2 ⟨n + 1, hn⟩) (traj1 c n (Nat.lt_of_succ_lt hn)).2.1 (traj1 c n (Nat.lt_of_succ_lt hn)).2.2)
      else
        (outIdle1, accMid1 c ⟨n + 1, hn⟩ (fun h => h0 ((firstK1_iff ⟨n + 1, hn⟩).mp h)) (fun h => h1 ((lastK1_iff ⟨n + 1, hn⟩).mp h)) (blkA V c 0 ⟨n + 1, hn⟩) (blkA V c 1 ⟨n + 1, hn⟩) (blkA V c 2 ⟨n + 1, hn⟩) (traj1 c n (Nat.lt_of_succ_lt hn)).2.1 (traj1 c n (Nat.lt_of_succ_lt hn)).2.2,
         sumMid1 c ⟨n + 1, hn⟩ (fun h => h0 ((firstK1_iff ⟨n + 1, hn⟩).mp h)) (fun h => h1 ((lastK1_iff ⟨n + 1, hn⟩).mp h)) (blkA V c 0 ⟨n + 1, hn⟩) (blkA V c 1 ⟨n + 1, hn⟩) (blkA V c 2 ⟨n + 1, hn⟩) (traj1 c n (Nat.lt_of_succ_lt hn)).2.1 (traj1 c n (Nat.lt_of_succ_lt hn)).2.2)

theorem traj1_first (c : Dev nD) (t : Fin cfg1.N) (h0 : t.val % 4 = 0) (h1 : ¬t.val % 4 = 3) :
    traj1 V c t.val t.isLt = (outIdle1, accFirst1 c t ((firstK1_iff t).mpr h0) (fun h => h1 ((lastK1_iff t).mp h)) (blkA V c 0 t) (blkA V c 1 t) (blkA V c 2 t), sumFirst1 c t ((firstK1_iff t).mpr h0) (fun h => h1 ((lastK1_iff t).mp h)) (blkA V c 0 t) (blkA V c 1 t) (blkA V c 2 t)) := by
  obtain ⟨n, hn⟩ := t
  cases n with
  | zero => exact rfl
  | succ n => exact (dif_pos h0).trans rfl

theorem traj1_mid (c : Dev nD) (t : Fin cfg1.N) (h0 : ¬t.val % 4 = 0) (h1 : ¬t.val % 4 = 3) :
    traj1 V c t.val t.isLt = (outIdle1, accMid1 c t (fun h => h0 ((firstK1_iff t).mp h)) (fun h => h1 ((lastK1_iff t).mp h)) (blkA V c 0 t) (blkA V c 1 t) (blkA V c 2 t) (traj1 V c (t.val - 1) (Nat.lt_of_le_of_lt (Nat.sub_le _ _) t.isLt)).2.1 (traj1 V c (t.val - 1) (Nat.lt_of_le_of_lt (Nat.sub_le _ _) t.isLt)).2.2,
      sumMid1 c t (fun h => h0 ((firstK1_iff t).mp h)) (fun h => h1 ((lastK1_iff t).mp h)) (blkA V c 0 t) (blkA V c 1 t) (blkA V c 2 t) (traj1 V c (t.val - 1) (Nat.lt_of_le_of_lt (Nat.sub_le _ _) t.isLt)).2.1 (traj1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem traj1_last (c : Dev nD) (t : Fin cfg1.N) (h0 : ¬t.val % 4 = 0) (h1 : t.val % 4 = 3) :
    traj1 V c t.val t.isLt = (outLast1 c t (fun h => h0 ((firstK1_iff t).mp h)) ((lastK1_iff t).mpr h1) (blkA V c 0 t) (blkA V c 1 t) (blkA V c 2 t) (traj1 V c (t.val - 1) (Nat.lt_of_le_of_lt (Nat.sub_le _ _) t.isLt)).2.1 (traj1 V c (t.val - 1) (Nat.lt_of_le_of_lt (Nat.sub_le _ _) t.isLt)).2.2,
      accLast1 c t (fun h => h0 ((firstK1_iff t).mp h)) ((lastK1_iff t).mpr h1) (blkA V c 0 t) (blkA V c 1 t) (blkA V c 2 t) (traj1 V c (t.val - 1) (Nat.lt_of_le_of_lt (Nat.sub_le _ _) t.isLt)).2.1 (traj1 V c (t.val - 1) (Nat.lt_of_le_of_lt (Nat.sub_le _ _) t.isLt)).2.2,
      sumLast1 c t (fun h => h0 ((firstK1_iff t).mp h)) ((lastK1_iff t).mpr h1) (blkA V c 0 t) (blkA V c 1 t) (blkA V c 2 t) (traj1 V c (t.val - 1) (Nat.lt_of_le_of_lt (Nat.sub_le _ _) t.isLt)).2.1 (traj1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

def inv1 (c : Dev nD) : (n : ℕ) → n ≤ cfg1.N → sProp 𝕄
  | 0, _ => Pipeline.ΦA spec1 c
  | n + 1, hn => iprop(owns (c : Thread nD τ) accM1 fullShare ((traj1 V c n hn).2.1) ∗ owns (c : Thread nD τ) sumM1 fullShare ((traj1 V c n hn).2.2) ∗ others1 c ∗ (∃ r, prngReg c r))

theorem inv1_zero (c : Dev nD) (n : ℕ) (h : n ≤ cfg1.N) (hz : n = 0) : inv1 V c n h = Pipeline.ΦA spec1 c := by
  subst hz; rfl
theorem inv1_succ (c : Dev nD) (n : ℕ) (hn : n < cfg1.N) :
    inv1 V c (n + 1) hn = iprop(owns (c : Thread nD τ) accM1 fullShare ((traj1 V c n hn).2.1) ∗ owns (c : Thread nD τ) sumM1 fullShare ((traj1 V c n hn).2.2) ∗ others1 c ∗ (∃ r, prngReg c r)) := rfl
theorem inv1_pos (c : Dev nD) (n : ℕ) (h : n ≤ cfg1.N) (hz : n ≠ 0) :
    inv1 V c n h = iprop(owns (c : Thread nD τ) accM1 fullShare ((traj1 V c (n - 1) (by omega)).2.1) ∗ owns (c : Thread nD τ) sumM1 fullShare ((traj1 V c (n - 1) (by omega)).2.2) ∗ others1 c ∗ (∃ r, prngReg c r)) := by
  cases n with
  | zero => exact absurd rfl hz
  | succ n => rfl

/-- The proof data: the two windows on feat each hold half of the array's share. -/
def dat1 (c : Dev nD) : Dat τ (Elt F) Unit ℕ (UR sig nD τ) ℕ cfg1 c where
  A w := V c (Pipeline.arrRef spec1 w)
  after w t := match w with
    | ⟨0, _⟩ => blkA V c 0 t
    | ⟨1, _⟩ => blkA V c 1 t
    | ⟨2, _⟩ => blkA V c 2 t
    | ⟨3, _⟩ => (traj1 V c t.val t.isLt).1
  Φ t := inv1 V c t.val (Nat.le_of_lt_succ t.isLt)
  q w := match w with
    | ⟨1, _⟩ => fullShare.left
    | ⟨2, _⟩ => fullShare.right
    | _ => fullShare
  owed _ := 0

theorem dat1_A (c : Dev nD) (w : Fin cfg1.W) : (dat1 V c).A w = V c (Pipeline.arrRef spec1 w) := by
  dsimp only [dat1]
theorem inv1_castSucc (c : Dev nD) (t : Fin cfg1.N) :
    (dat1 V c).Φ t.castSucc = inv1 V c t.val (Nat.le_of_lt t.isLt) := by
  dsimp only [dat1]; simp only [Fin.coe_castSucc]
theorem after1_0 (c : Dev nD) (t : Fin cfg1.N) : (dat1 V c).after 0 t = blkA V c 0 t := by dsimp only [dat1]
theorem after1_1 (c : Dev nD) (t : Fin cfg1.N) : (dat1 V c).after 1 t = blkA V c 1 t := by dsimp only [dat1]
theorem after1_2 (c : Dev nD) (t : Fin cfg1.N) : (dat1 V c).after 2 t = blkA V c 2 t := by dsimp only [dat1]
theorem after1_3 (c : Dev nD) (t : Fin cfg1.N) : (dat1 V c).after 3 t = (traj1 V c t.val t.isLt).1 := by dsimp only [dat1]
theorem found1_0 (c : Dev nD) (t : Fin cfg1.N) (d) : (dat1 V c).before 0 t d = blkA V c 0 t :=
  foundA_0 V (dat1 V c) (dat1_A V c 0) (after1_0 V c) t d
theorem found1_1 (c : Dev nD) (t : Fin cfg1.N) (d) : (dat1 V c).before 1 t d = blkA V c 1 t :=
  foundA_1 V (dat1 V c) (dat1_A V c 1) (after1_1 V c) t d
theorem found1_2 (c : Dev nD) (t : Fin cfg1.N) (d) : (dat1 V c).before 2 t d = blkA V c 2 t :=
  foundA_2 V (dat1 V c) (dat1_A V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [found1_0, found1_1, found1_2]
  rw [show (dat1 V c).owesAt () t.succ = (dat1 V c).owesAt () t.castSucc from rfl]
  rw [show (dat1 V c).Φ t.succ = inv1 V c (t.val + 1) t.isLt from rfl, inv1_succ]
  have hN : t.val < 16 := lt_of_lt_of_eq t.isLt (show cfg1.N = 16 from N_1)
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  by_cases h0 : t.val % 4 = 0
  · have h1 : ¬t.val % 4 = 3 := by omega
    rw [Dat.leavesExact_idle (dat1 V c) 3 t (idle1_out t (fun h => h1 ((lastK1_iff t).mp h))) (keep1_out t (fun h => h1 ((lastK1_iff t).mp h)))]
    rw [traj1_first V c t h0 h1]
    unfold accFirst1 sumFirst1; (try dsimp only)
    by_cases hz : t.val = 0
    · rw [inv1_castSucc V c t, inv1_zero V c _ _ hz, restA_eq]
      iintro ⟨⟨HA, HS, HR, Hg⟩, Ho, ⟨%d0, H0⟩, ⟨%d1, H1⟩, ⟨%d2, H2⟩, ⟨%d3, H3⟩⟩
      iapply ((rFirst1 c t ((firstK1_iff t).mpr h0) (fun h => h1 ((lastK1_iff t).mp h)) (blkA V c 0 t) (blkA V c 1 t) (blkA V c 2 t)).2.2 _ Set.univ _)
      isplitl [H0]; · iexact H0
      isplitl [H1]; · iexact H1
      isplitl [H2]; · iexact H2
      isplitl [H3]; · iexact H3
      isplitl [HA]; · iexact HA
      isplitl [HS]; · iexact HS
      iintro ⟨H0, H1, H2, H3, ⟨%ea, HA⟩, ⟨%es, HS⟩⟩
      isplitl [HA HS HR Hg]
      · isplitl [HA]
        · unfold owns; iexists _; isplitr
          swap; · iexact HA
          ipureintro; exact View.read_writes_of_cover _ _ _ _ _ (accCover1First c t _ _ _ _ _ )
        isplitl [HS]
        · unfold owns; iexists _; isplitr
          swap; · iexact HS
          ipureintro; exact View.read_writes_of_cover _ _ _ _ _ (sumCover1First c t _ _ _ _ _ )
        isplitl [HR]; · iexact HR
        iexact Hg
      isplitl [Ho]; · iexact Ho
      isplitl [H0]; · iexact H0
      isplitl [H1]; · iexact H1
      isplitl [H2]; · iexact H2
      iexists _; iexact H3
    · rw [inv1_castSucc V c t, inv1_pos V c _ _ hz]
      iintro ⟨⟨HA, HS, HR, Hg⟩, Ho, ⟨%d0, H0⟩, ⟨%d1, H1⟩, ⟨%d2, H2⟩, ⟨%d3, H3⟩⟩
      iapply ((rFirst1 c t ((firstK1_iff t).mpr h0) (fun h => h1 ((lastK1_iff t).mp h)) (blkA V c 0 t) (blkA V c 1 t) (blkA V c 2 t)).2.2 _ Set.univ _)
      isplitl [H0]; · iexact H0
      isplitl [H1]; · iexact H1
      isplitl [H2]; · iexact H2
      isplitl [H3]; · iexact H3
      isplitl [HA]; · iexists _; iexact HA
      isplitl [HS]; · iexists _; iexact HS
      iintro ⟨H0, H1, H2, H3, ⟨%ea, HA⟩, ⟨%es, HS⟩⟩
      isplitl [HA HS HR Hg]
      · isplitl [HA]
        · unfold owns; iexists _; isplitr
          swap; · iexact HA
          ipureintro; exact View.read_writes_of_cover _ _ _ _ _ (accCover1First c t _ _ _ _ _ )
        isplitl [HS]
        · unfold owns; iexists _; isplitr
          swap; · iexact HS
          ipureintro; exact View.read_writes_of_cover _ _ _ _ _ (sumCover1First c t _ _ _ _ _ )
        isplitl [HR]; · iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 = 3
    · rw [show (dat1 V c).leavesExact 3 t = owns (c : Thread nD τ) (ms1_3 t) fullShare ((dat1 V c).after 3 t) from by
        unfold Dat.leavesExact; rw [live1_out t ((lastK1_iff t).mpr h1)], after1_3]
      rw [traj1_last V c t h0 h1]
      unfold outLast1 accLast1 sumLast1; (try dsimp only)
      rw [inv1_castSucc V c t, inv1_pos V c _ _ hz]
      iintro ⟨⟨HA, HS, HR, Hg⟩, Ho, ⟨%d0, H0⟩, ⟨%d1, H1⟩, ⟨%d2, H2⟩, ⟨%d3, H3⟩⟩
      iapply ((rLast1 c t (fun h => h0 ((firstK1_iff t).mp h)) ((lastK1_iff t).mpr h1) (blkA V c 0 t) (blkA V c 1 t) (blkA V c 2 t) _ _).2.2.2 Set.univ _)
      isplitl [H0]; · iexact H0
      isplitl [H1]; · iexact H1
      isplitl [H2]; · iexact H2
      isplitl [H3]; · iexists _; iexact H3
      isplitl [HA]; · iexact HA
      isplitl [HS]; · iexact HS
      iintro ⟨H0, H1, H2, ⟨%eo, H3⟩, ⟨%ea, HA⟩, ⟨%es, HS⟩⟩
      isplitl [HA HS HR Hg]
      · isplitl [HA]
        · unfold owns; iexists _; isplitr
          swap; · iexact HA
          ipureintro; exact View.read_writes_of_cover _ _ _ _ _ (accCover1Last c t _ _ _ _ _ _ _ )
        isplitl [HS]
        · unfold owns; iexists _; isplitr
          swap; · iexact HS
          ipureintro; exact View.read_writes_of_cover _ _ _ _ _ (sumCover1Last c t _ _ _ _ _ _ _ )
        isplitl [HR]; · iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outCover1Last c t _ _ _ _ _ _ _)
    · rw [Dat.leavesExact_idle (dat1 V c) 3 t (idle1_out t (fun h => h1 ((lastK1_iff t).mp h))) (keep1_out t (fun h => h1 ((lastK1_iff t).mp h)))]
      rw [traj1_mid V c t h0 h1]
      unfold accMid1 sumMid1; (try dsimp only)
      rw [inv1_castSucc V c t, inv1_pos V c _ _ hz]
      iintro ⟨⟨HA, HS, HR, Hg⟩, Ho, ⟨%d0, H0⟩, ⟨%d1, H1⟩, ⟨%d2, H2⟩, ⟨%d3, H3⟩⟩
      iapply ((rMid1 c t (fun h => h0 ((firstK1_iff t).mp h)) (fun h => h1 ((lastK1_iff t).mp h)) (blkA V c 0 t) (blkA V c 1 t) (blkA V c 2 t) _ _).2.2 _ Set.univ _)
      isplitl [H0]; · iexact H0
      isplitl [H1]; · iexact H1
      isplitl [H2]; · iexact H2
      isplitl [H3]; · iexact H3
      isplitl [HA]; · iexact HA
      isplitl [HS]; · iexact HS
      iintro ⟨H0, H1, H2, H3, ⟨%ea, HA⟩, ⟨%es, HS⟩⟩
      isplitl [HA HS HR Hg]
      · isplitl [HA]
        · unfold owns; iexists _; isplitr
          swap; · iexact HA
          ipureintro; exact View.read_writes_of_cover _ _ _ _ _ (accCover1Mid c t _ _ _ _ _ _ _ )
        isplitl [HS]
        · unfold owns; iexists _; isplitr
          swap; · iexact HS
          ipureintro; exact View.read_writes_of_cover _ _ _ _ _ (sumCover1Mid c t _ _ _ _ _ _ _ )
        isplitl [HR]; · iexact HR
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

theorem inv1_in (c : Dev nD) : Pipeline.ΦA spec1 c ⊢ (dat1 V c).Φ 0 := by
  rw [show (dat1 V c).Φ 0 = inv1 V c 0 (Nat.zero_le _) from rfl, inv1_zero V c 0 _ rfl]
  try exact Idealize.SL.BI.Entails.refl _

theorem inv1_out (c : Dev nD) : (dat1 V c).Φ (Fin.last cfg1.N) ⊢ Pipeline.ΦA spec1 c := by
  rw [show (dat1 V c).Φ (Fin.last cfg1.N) = inv1 V c (Fin.last cfg1.N).val (Nat.le_of_lt_succ (Fin.last cfg1.N).isLt) from rfl,
    inv1_pos V c _ _ (by rw [Fin.val_last]; have : cfg1.N = 16 := N_1; omega), restA_eq]
  iintro ⟨HA, HS, HR, Hg⟩
  isplitl [HA]; · iexists _; iexact HA
  isplitl [HS]; · iexists _; iexact HS
  isplitl [HR]; · iexact HR
  iexact Hg

end

end Cert.Kernel.Frm

end
-- ==== Proof.Bits.Whole.lean ====
/-
  The whole program: the host operations that build the attention input, then the two kernel regions. The contents
  of every unscoped buffer at each boundary — the launch memory, after the host operations, after the first region
  (feat written), after the second (the result written) —, the two regions' proof data at their entry contents, each
  region as a segment of the run between those boundaries, and the run: every weakly fair execution terminates with
  every unscoped buffer at the last boundary's contents. The second region reads feat through two windows; the array
  is split into two half shares at its entry and joined again at its exit.
-/
import proofs.«157057_j38895223832723_2_alg».proof.Proof.Bits.Region0
import proofs.«157057_j38895223832723_2_alg».proof.Proof.Bits.Region1
import proofs.«157057_j38895223832723_2_alg».proof.Proof.Gen.Kernel.Regions

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents at the boundaries -/

/-- After the host operations (the first region's entry), read at the TensorCore's references. -/
abbrev arr1 : (c : Dev nD) → (b : Ref sig .tc) → Buf (Elt F) ((c : Thread nD τ).loc b) := fun c b => Gen.V1 m c b
/-- After the first region: its arrays at what the pipeline leaves, every other buffer as entered. -/
def mem2 (c : Dev nD) : Valuation τ sig (Elt F) :=
  Pipeline.withArrays spec0 c (Gen.V1 m c) fun w => (dat0 (arr1 m) c).arrAt w cfg0.N
theorem mem2_arr (c : Dev nD) (w : Fin cfg0.W) :
    mem2 m c (Proc.devRef .tc (Pipeline.arrRef spec0 w)) = (dat0 (arr1 m) c).arrAt w cfg0.N := by
  unfold mem2; exact Pipeline.withArrays_arr spec0 launch0.win.arr_inj c _ _ w
theorem mem2_of_ne (c : Dev nD) (b : Ref sig .tc) (hb : ∀ w, Pipeline.arrRef spec0 w ≠ b) :
    mem2 m c (Proc.devRef .tc b) = Gen.V1 m c (Proc.devRef .tc b) := by
  unfold mem2; exact Pipeline.withArrays_of_ne spec0 c _ _ b hb
abbrev arr2 : (c : Dev nD) → (b : Ref sig .tc) → Buf (Elt F) ((c : Thread nD τ).loc b) := fun c b => mem2 m c b
theorem exitP_arr (c : Dev nD) (w : Fin cfg0.W) : (dat0 (arr1 m) c).arrAt w cfg0.N = arr2 m c (Pipeline.arrRef spec0 w) :=
  (mem2_arr m c w).symm
theorem exitP_rest (c : Dev nD) : ∀ b, b ∉ Finset.univ.image (Pipeline.arrRef spec0) → arr2 m c b = arr1 m c b :=
  fun b hb => mem2_of_ne m c b fun w e => hb (Finset.mem_image.mpr ⟨w, Finset.mem_univ _, e⟩)

/-- After the second region: the result array at what the pipeline leaves; the region's other arrays are inputs. -/
def mem3 (c : Dev nD) : Valuation τ sig (Elt F) :=
  Function.update (mem2 m c) (Proc.devRef .tc main_v0) ((dat1 (arr2 m) c).arrAt 3 cfg1.N)
theorem mem3_out (c : Dev nD) : mem3 m c (Proc.devRef .tc main_v0) = (dat1 (arr2 m) c).arrAt 3 cfg1.N := by
  unfold mem3; exact Function.update_self ..
theorem mem3_of_ne (c : Dev nD) (b : Ref sig .tc) (hb : b ≠ main_v0) :
    mem3 m c (Proc.devRef .tc b) = mem2 m c (Proc.devRef .tc b) := by
  unfold mem3; exact Function.update_of_ne (StableHlo.devRef_ne_of_ne hb) _ _
abbrev arr3 : (c : Dev nD) → (b : Ref sig .tc) → Buf (Elt F) ((c : Thread nD τ).loc b) := fun c b => mem3 m c b
theorem exitA_arr (c : Dev nD) (w : Fin cfg1.W) : (dat1 (arr2 m) c).arrAt w cfg1.N = arr3 m c (Pipeline.arrRef spec1 w) := by
  match w with
  | ⟨0, _⟩ => exact (((dat1 (arr2 m) c).arrAt_in 0 rfl _).trans (dat1_A (arr2 m) c 0)).trans (mem3_of_ne m c _ (by decide)).symm
  | ⟨1, _⟩ => exact (((dat1 (arr2 m) c).arrAt_in 1 rfl _).trans (dat1_A (arr2 m) c 1)).trans (mem3_of_ne m c _ (by decide)).symm
  | ⟨2, _⟩ => exact (((dat1 (arr2 m) c).arrAt_in 2 rfl _).trans (dat1_A (arr2 m) c 2)).trans (mem3_of_ne m c _ (by decide)).symm
  | ⟨3, _⟩ => exact (mem3_out m c).symm
theorem exitA_rest (c : Dev nD) : ∀ b, b ∉ Finset.univ.image (Pipeline.arrRef spec1) → arr3 m c b = arr2 m c b :=
  fun b hb => mem3_of_ne m c b fun e => hb (Finset.mem_image.mpr ⟨3, Finset.mem_univ _, e.symm⟩)

/-! ## No argument is written -/

theorem mem3_main_arg0 (c : Dev nD) : mem3 m c (Proc.devRef .tc main_arg0) = m ((c : Thread nD τ).loc main_arg0) :=
  calc mem3 m c (Proc.devRef .tc main_arg0)
    _ = mem2 m c (Proc.devRef .tc main_arg0) := mem3_of_ne m c main_arg0 (by decide)
    _ = Gen.V1 m c (Proc.devRef .tc main_arg0) := mem2_of_ne m c main_arg0 (by decide)
    _ = Gen.V0 m c (Proc.devRef .tc main_arg0) := Gen.V1_of m c main_arg0 (by decide)
    _ = m ((c : Thread nD τ).loc main_arg0) := rfl
theorem mem3_main_arg1 (c : Dev nD) : mem3 m c (Proc.devRef .tc main_arg1) = m ((c : Thread nD τ).loc main_arg1) :=
  calc mem3 m c (Proc.devRef .tc main_arg1)
    _ = mem2 m c (Proc.devRef .tc main_arg1) := mem3_of_ne m c main_arg1 (by decide)
    _ = Gen.V1 m c (Proc.devRef .tc main_arg1) := mem2_of_ne m c main_arg1 (by decide)
    _ = Gen.V0 m c (Proc.devRef .tc main_arg1) := Gen.V1_of m c main_arg1 (by decide)
    _ = m ((c : Thread nD τ).loc main_arg1) := rfl
theorem mem3_main_arg2 (c : Dev nD) : mem3 m c (Proc.devRef .tc main_arg2) = m ((c : Thread nD τ).loc main_arg2) :=
  calc mem3 m c (Proc.devRef .tc main_arg2)
    _ = mem2 m c (Proc.devRef .tc main_arg2) := mem3_of_ne m c main_arg2 (by decide)
    _ = Gen.V1 m c (Proc.devRef .tc main_arg2) := (mem2_arr m c 1).trans (((dat0 (arr1 m) c).arrAt_in 1 rfl _).trans (dat0_A (arr1 m) c 1))
    _ = Gen.V0 m c (Proc.devRef .tc main_arg2) := Gen.V1_of m c main_arg2 (by decide)
    _ = m ((c : Thread nD τ).loc main_arg2) := rfl
theorem mem3_main_arg3 (c : Dev nD) : mem3 m c (Proc.devRef .tc main_arg3) = m ((c : Thread nD τ).loc main_arg3) :=
  calc mem3 m c (Proc.devRef .tc main_arg3)
    _ = mem2 m c (Proc.devRef .tc main_arg3) := mem3_of_ne m c main_arg3 (by decide)
    _ = Gen.V1 m c (Proc.devRef .tc main_arg3) := mem2_of_ne m c main_arg3 (by decide)
    _ = Gen.V0 m c (Proc.devRef .tc main_arg3) := Gen.V1_of m c main_arg3 (by decide)
    _ = m ((c : Thread nD τ).loc main_arg3) := rfl
theorem mem3_main_arg4 (c : Dev nD) : mem3 m c (Proc.devRef .tc main_arg4) = m ((c : Thread nD τ).loc main_arg4) :=
  calc mem3 m c (Proc.devRef .tc main_arg4)
    _ = mem2 m c (Proc.devRef .tc main_arg4) := mem3_of_ne m c main_arg4 (by decide)
    _ = Gen.V1 m c (Proc.devRef .tc main_arg4) := (mem2_arr m c 0).trans (((dat0 (arr1 m) c).arrAt_in 0 rfl _).trans (dat0_A (arr1 m) c 0))
    _ = Gen.V0 m c (Proc.devRef .tc main_arg4) := Gen.V1_of m c main_arg4 (by decide)
    _ = m ((c : Thread nD τ).loc main_arg4) := rfl

/-! ## One array behind two windows: half a share each -/

/-- The buffers behind the second kernel's windows are three: the attention input, feat, the result. -/
theorem arrBufs1_eq {c : Dev nD} (Vv : (b : Ref sig .tc) → Buf (Elt F) ((c : Thread nD τ).loc b)) :
    (Pipeline.arrBufs spec1 c Vv : sProp 𝕄)
      = iprop((((c : Thread nD τ).loc main_call0_v35) ↦{fullShare} Vv main_call0_v35) ∗ (((c : Thread nD τ).loc main_call0_v36) ↦{fullShare} Vv main_call0_v36)
          ∗ (((c : Thread nD τ).loc main_v0) ↦{fullShare} Vv main_v0)) := by
  unfold Pipeline.arrBufs
  rw [show (Finset.univ.image (Pipeline.arrRef spec1)) = {main_call0_v35, main_call0_v36, main_v0} from by decide]
  rw [bigSep_insert (by decide), bigSep_insert (by decide), bigSep_singleton]
  rfl

section TwoWindows
variable {c : Dev nD} (dat : Dat τ (Elt F) Unit ℕ (UR sig nD τ) ℕ cfg1 c)
  (hs0 : dat.share 0 = fullShare) (hs1 : dat.share 1 = fullShare.left) (hs2 : dat.share 2 = fullShare.right) (hs3 : dat.share 3 = fullShare)
  (Vv : (b : Ref sig .tc) → Buf (Elt F) ((c : Thread nD τ).loc b))
  (G : (w : Fin cfg1.W) → Buf (Elt F) ((cfg1.win w).arr.view.loc (c : Thread nD τ)))
  (hG : ∀ w, G w = Vv (Pipeline.arrRef spec1 w))

include hs0 hs1 hs2 hs3 hG in
/-- The three buffers behind the second kernel's four windows, each whole, are its windows' arrays: feat's buffer is
    split into the halves its two windows hold. -/
theorem arrays1_of_bufs : (Pipeline.arrBufs spec1 c Vv : sProp 𝕄) ⊢ dat.arrays G := by
  rw [arrBufs1_eq]
  unfold Dat.arrays
  rw [bigSep_W1]
  rw [(arr_whole1 0).set_eq_univ, (arr_whole1 1).set_eq_univ, (arr_whole1 3).set_eq_univ, hs0, hs1, hs2, hs3, hG 0, hG 1, hG 2, hG 3]
  iintro ⟨Ha, Hf, Ho⟩
  ihave Hf' := (pointsTo_share (PosShare.mem_left_op_right fullShare)).1 $$ Hf
  icases Hf' with ⟨Hl, Hr⟩
  isplitl [Ha]; · iexact Ha
  isplitl [Hl]; · iexact Hl
  isplitl [Hr]; · iexact Hr
  iexact Ho

include hs0 hs1 hs2 hs3 hG in
/-- And back: the two halves of feat's buffer join. -/
theorem bufs_of_arrays1 : dat.arrays G ⊢ (Pipeline.arrBufs spec1 c Vv : sProp 𝕄) := by
  rw [arrBufs1_eq]
  unfold Dat.arrays
  rw [bigSep_W1]
  rw [(arr_whole1 0).set_eq_univ, (arr_whole1 1).set_eq_univ, (arr_whole1 3).set_eq_univ, hs0, hs1, hs2, hs3, hG 0, hG 1, hG 2, hG 3]
  iintro ⟨Ha, Hl, Hr, Ho⟩
  isplitl [Ha]; · iexact Ha
  isplitl [Hl Hr]
  · iapply (pointsTo_share (PosShare.mem_left_op_right fullShare)).2
    isplitl [Hl]; · iexact Hl
    iexact Hr
  iexact Ho

end TwoWindows

theorem share1_0 (V) (c : Dev nD) : (dat1 (F := F) V c).share 0 = fullShare := rfl
theorem share1_1 (V) (c : Dev nD) : (dat1 (F := F) V c).share 1 = fullShare.left := rfl
theorem share1_2 (V) (c : Dev nD) : (dat1 (F := F) V c).share 2 = fullShare.right := rfl
theorem share1_3 (V) (c : Dev nD) : (dat1 (F := F) V c).share 3 = fullShare := rfl

/-! ## The proof data family and the thread state -/

def pdats : (p : Fin 2) → (c : Dev nD) → Dat τ (Elt F) Unit ℕ (UR sig nD τ) ℕ (Pipeline.pin (pcfgs (F := F)) Gen.adm p) c
  | ⟨0, _⟩ => fun c => dat0 (arr1 m) c
  | ⟨1, _⟩ => fun c => dat1 (arr2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (mem3 m c) ∗ ∃ r, prngReg c r)

/-! ## The regions as segments -/

set_option backward.isDefEq.respectTransparency.types false in
/-- The first region: entered from every unscoped buffer as the host operations leave it, left with feat written. -/
def regP : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (arr1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (mem2 m c) ∗ R c)
  X c := iprop(∃ r, prngReg c r)
  Y c := iprop(∃ r, prngReg c r)
  Z c := Pipeline.unscopedRest (Ix := Unit) (Name := ℕ) (U := UR sig nD τ) (Lvl := ℕ) spec0 c (arr1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (arr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (inv0_in (arr1 m) c)
    unfold Pipeline.ΦA
    iintro ⟨Hp, -, Hr⟩
    isplitl [Hr]; · iexact Hr
    iexact Hp
  hout c := by
    rw [Pipeline.ownSems0_none]
    refine BIBase.Entails.trans (inv0_out (arr1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (arr1 m c) (arr2 m c) ((pdats m 0 c).arrAt · cfg0.N) (exitP_arr m c) (exitP_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The second region's entry: every unscoped buffer at the first region's exit contents is the second kernel's
    arrays (feat's buffer halved between its two windows) and the rest. -/
theorem entryA (c : Dev nD) :
    (StableHlo.held (c : Thread nD τ) (Pipeline.ucRefs τ sig) (mem2 m c) : sProp 𝕄)
      ⊢ iprop((dat1 (arr2 m) c).arrays (dat1 (arr2 m) c).A ∗ Pipeline.unscopedRest spec1 c (arr2 m c)) := by
  rw [← Pipeline.unscopedBufs_held c (mem2 m c), Pipeline.unscopedBufs_split₀ cfgs 1 winFacts₀1.arr_unscoped c (arr2 m c)]
  exact sep_mono (arrays1_of_bufs (dat1 (arr2 m) c) (share1_0 _ c) (share1_1 _ c) (share1_2 _ c) (share1_3 _ c) (arr2 m c) _ (dat1_A (arr2 m) c)) .rfl

/-- Its exit: the arrays at their final contents and the rest are every unscoped buffer at the last boundary's contents. -/
theorem exitA (c : Dev nD) :
    iprop((dat1 (arr2 m) c).arrays ((dat1 (arr2 m) c).arrAt · cfg1.N) ∗ Pipeline.unscopedRest spec1 c (arr2 m c))
      ⊢ (StableHlo.held (c : Thread nD τ) (Pipeline.ucRefs τ sig) (mem3 m c) : sProp 𝕄) := by
  rw [← Pipeline.unscopedBufs_held c (mem3 m c), Pipeline.unscopedBufs_split₀ cfgs 1 winFacts₀1.arr_unscoped c (arr3 m c)]
  refine sep_mono (bufs_of_arrays1 (dat1 (arr2 m) c) (share1_0 _ c) (share1_1 _ c) (share1_2 _ c) (share1_3 _ c) (arr3 m c) _ (exitA_arr m c)) (Entails.of_eq ?_)
  unfold Pipeline.unscopedRest
  exact bigSep_congr fun b hb => by rw [exitA_rest m c b (Finset.mem_sdiff.mp hb).2]

set_option backward.isDefEq.respectTransparency.types false in
/-- The second region: entered from the first region's exit contents, left with the result written. -/
def regA : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (arr2 m) c).loose
  hwaits := Pipeline.hwaits_of_owed_zero _ _ _ _ L lv 1 fun _ _ => rfl
  pre c := iprop(StableHlo.held (c : Thread nD τ) (Pipeline.ucRefs τ sig) (mem2 m c) ∗ R c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (arr2 m c)
  hentry c := by
    rw [Pipeline.ownSems0_none]
    iintro ⟨⟨Hub, Hp, HO⟩, -, -⟩
    ihave H := (entryA m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (inv1_in (arr2 m) c)
    unfold Pipeline.ΦA
    iintro ⟨Hp, -, Hr⟩
    isplitl [Hr]; · iexact Hr
    iexact Hp
  hout c := by
    rw [Pipeline.ownSems0_none]
    refine BIBase.Entails.trans (inv1_out (arr2 m) c) ?_
    unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest (Ix := Unit) (Name := ℕ) (U := UR sig nD τ) (Lvl := ℕ) spec1 c (arr2 m c))
        ⊢ (StableHlo.held (c : Thread nD τ) (Pipeline.ucRefs τ sig) (mem3 m c) : sProp 𝕄) := exitA m c
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev parts : List (Pipeline.Seg (pcfgs (F := F)) Gen.adm (pdats m) () defs₀ 𝒱₀ L lv) :=
  [ .host (hseg hostOps0 hostOps0_sub Gen.hostOps0_fresh (Gen.V0 m)),
    .region (regP m),
    .region (regA m) ]
theorem main_parts (c : Dev nD) : main (F := F) c = Pipeline.Seg.run (parts m) := (main_chain c).trans (by chain_rfl)

set_option backward.isDefEq.respectTransparency.types false in
/-- Every weakly fair execution of the program from memory `m` with zero counters terminates, faulting nowhere, with
    every unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = mem3 m c b) :=
  Pipeline.θ_run_regions_kit (pcfgs (F := F)) Gen.adm (pdats m) () cellOf_inj emb₁ defs₀ 𝒱₀ L lv m ρ main (parts m)
    (fun c Q => by rw [main_parts m c])
    (by simp only [parts, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tend m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = mem3 m c b)
    (hfin := fun c s' => by
      iintro ⟨⟨Hh, -⟩, HSI⟩
      unfold StableHlo.held
      imodintro
      iapply (pointsTo_read_all (Pipeline.ucRefs τ sig) (fun b => (((c : Thread nD τ)).1, b)) (mem3 m c) s')
      isplitl [Hh] <;> iassumption)
    (hQ := fun s h c => h c)

/-- The run read at the program's arguments and result: the arguments end as launched, and the result array holds
    what the second region's write-backs leave. -/
theorem run_result (ρ : Dev nD → PrngReg) : θ_run defs (onTc (τ := τ) (main (F := F))) ⟨m, fun _ => 0, ρ⟩ (fun r => ∀ c : Dev nD,
      r.2.mem ((c.tc : Thread nD τ).loc main_v0) = (dat1 (arr2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v0 (by decide))).trans (mem3_out m c),
     (h c _ (mem_uc main_arg0 (by decide))).trans (mem3_main_arg0 m c),
     (h c _ (mem_uc main_arg1 (by decide))).trans (mem3_main_arg1 m c),
     (h c _ (mem_uc main_arg2 (by decide))).trans (mem3_main_arg2 m c),
     (h c _ (mem_uc main_arg3 (by decide))).trans (mem3_main_arg3 m c),
     (h c _ (mem_uc main_arg4 (by decide))).trans (mem3_main_arg4 m c)⟩) (run_all m ρ)

/-- The frame: the arguments end as launched. -/
theorem frame_all (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_result m ρ)

end Cert.Kernel.Frm

end
-- ==== Proof.Ideal.Shared.lean ====
/-
  What the two kernel regions' runs are stated over. Both kernels walk a 4 × 4 grid (row block i, reduction block k,
  the point number being 4·i + k): at k = 0 they clear their accumulators, at every k they add one block product
  (the second kernel also one block of row sums), at k = 3 they write the finished row block out. Here: each window's
  block at a point as read off the arrays the region is entered with; the two branch conditions of each kernel in
  closed form over the point number; where the output window is idle; the staging and accumulator memrefs at a point;
  and the scoped buffers a region does not stage, with its accumulators singled out.
-/
import proofs.«157057_j38895223832723_2_alg».proof.Proof.Gen.KernelIdeal.Launch
import proofs.«157057_j38895223832723_2_alg».proof.Proof.Gen.KernelIdeal.Skeleton
import proofs.«157057_j38895223832723_2_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

/-- The first kernel's window `w` at point `t`: that block of the window's array, the arrays being `V`'s. -/
def blkP (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window the body only reads holds its block when the body runs, whether the pipeline fetched it at this
    point or the block index stayed where it was. -/
theorem foundP_0 {c : Dev nD} (dat : Dat τ (Elt F) Unit ℕ (UR sig nD τ) ℕ cfg0 c) (hA : dat.A 0 = V c (Pipeline.arrRef spec0 0))
    (hafter : ∀ t, dat.after 0 t = blkP V c 0 t) (t : Fin cfg0.N) (d) : dat.before 0 t d = blkP V c 0 t :=
  (dat.before_in_eq_fetched 0 rfl (fun _ => rfl) (fun _ _ _ => rfl) (fun t => by rw [hafter]; unfold Dat.blockOf blkP; rw [hA]; try rfl) t d).trans
    (by unfold Dat.fetched Dat.blockOf blkP; rw [hA]; try rfl)
theorem foundP_1 {c : Dev nD} (dat : Dat τ (Elt F) Unit ℕ (UR sig nD τ) ℕ cfg0 c) (hA : dat.A 1 = V c (Pipeline.arrRef spec0 1))
    (hafter : ∀ t, dat.after 1 t = blkP V c 1 t) (t : Fin cfg0.N) (d) : dat.before 1 t d = blkP V c 1 t :=
  (dat.before_in_eq_fetched 1 rfl (fun _ => rfl) (fun _ _ _ => rfl) (fun t => by rw [hafter]; unfold Dat.blockOf blkP; rw [hA]; try rfl) t d).trans
    (by unfold Dat.fetched Dat.blockOf blkP; rw [hA]; try rfl)

/-- The second kernel's window `w` at point `t`. -/
def blkA (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem foundA_0 {c : Dev nD} (dat : Dat τ (Elt F) Unit ℕ (UR sig nD τ) ℕ cfg1 c) (hA : dat.A 0 = V c (Pipeline.arrRef spec1 0))
    (hafter : ∀ t, dat.after 0 t = blkA V c 0 t) (t : Fin cfg1.N) (d) : dat.before 0 t d = blkA V c 0 t :=
  (dat.before_in_eq_fetched 0 rfl (fun _ => rfl) (fun _ _ _ => rfl) (fun t => by rw [hafter]; unfold Dat.blockOf blkA; rw [hA]; try rfl) t d).trans
    (by unfold Dat.fetched Dat.blockOf blkA; rw [hA]; try rfl)
theorem foundA_1 {c : Dev nD} (dat : Dat τ (Elt F) Unit ℕ (UR sig nD τ) ℕ cfg1 c) (hA : dat.A 1 = V c (Pipeline.arrRef spec1 1))
    (hafter : ∀ t, dat.after 1 t = blkA V c 1 t) (t : Fin cfg1.N) (d) : dat.before 1 t d = blkA V c 1 t :=
  (dat.before_in_eq_fetched 1 rfl (fun _ => rfl) (fun _ _ _ => rfl) (fun t => by rw [hafter]; unfold Dat.blockOf blkA; rw [hA]; try rfl) t d).trans
    (by unfold Dat.fetched Dat.blockOf blkA; rw [hA]; try rfl)
theorem foundA_2 {c : Dev nD} (dat : Dat τ (Elt F) Unit ℕ (UR sig nD τ) ℕ cfg1 c) (hA : dat.A 2 = V c (Pipeline.arrRef spec1 2))
    (hafter : ∀ t, dat.after 2 t = blkA V c 2 t) (t : Fin cfg1.N) (d) : dat.before 2 t d = blkA V c 2 t :=
  (dat.before_in_eq_fetched 2 rfl (fun _ => rfl) (fun _ _ _ => rfl) (fun t => by rw [hafter]; unfold Dat.blockOf blkA; rw [hA]; try rfl) t d).trans
    (by unfold Dat.fetched Dat.blockOf blkA; rw [hA]; try rfl)

end Blocks

/-! ## The branch conditions: k = 0 and k = 3, where k is the point number modulo 4 -/

abbrev firstK0 (i : grid0.Coords) : Prop := (Scalar.cmpi .ne (Scalar.extui (Scalar.cmpi .eq (BitVec.ofNat 32 (i 1).val) 0#32)) 0#32) = 1#1
theorem firstK0_iff : ∀ t : Fin cfg0.N, firstK0 (grid0.coords t) ↔ t.val % 4 = 0 :=
  (by decide +kernel : ∀ t : Fin grid0.N, firstK0 (grid0.coords t) ↔ t.val % 4 = 0)
abbrev lastK0 (i : grid0.Coords) : Prop := k0_cond2 i = 1#1
theorem lastK0_iff : ∀ t : Fin cfg0.N, lastK0 (grid0.coords t) ↔ t.val % 4 = 3 :=
  (by decide +kernel : ∀ t : Fin grid0.N, lastK0 (grid0.coords t) ↔ t.val % 4 = 3)
abbrev firstK1 (i : grid1.Coords) : Prop := (Scalar.cmpi .ne (Scalar.extui (Scalar.cmpi .eq (BitVec.ofNat 32 (i 1).val) 0#32)) 0#32) = 1#1
theorem firstK1_iff : ∀ t : Fin cfg1.N, firstK1 (grid1.coords t) ↔ t.val % 4 = 0 :=
  (by decide +kernel : ∀ t : Fin grid1.N, firstK1 (grid1.coords t) ↔ t.val % 4 = 0)
abbrev lastK1 (i : grid1.Coords) : Prop := k1_cond2 i = 1#1
theorem lastK1_iff : ∀ t : Fin cfg1.N, lastK1 (grid1.coords t) ↔ t.val % 4 = 3 :=
  (by decide +kernel : ∀ t : Fin grid1.N, lastK1 (grid1.coords t) ↔ t.val % 4 = 3)

/-! ## The output window is written only at k = 3 and is idle elsewhere; the inputs are never idle -/

theorem live0_0 : ∀ t : Fin cfg0.N, cfg0.idle 0 (grid0.coords t) = false := by decide +kernel
theorem live0_1 : ∀ t : Fin cfg0.N, cfg0.idle 1 (grid0.coords t) = false := by decide +kernel
theorem idle0_out : ∀ t : Fin cfg0.N, ¬lastK0 (grid0.coords t) → cfg0.idle 2 (grid0.coords t) = true := by decide +kernel
theorem keep0_out : ∀ t : Fin cfg0.N, ¬lastK0 (grid0.coords t) → (cfg0.win 2).flush t = false := by decide +kernel
theorem live0_out : ∀ t : Fin cfg0.N, lastK0 (grid0.coords t) → cfg0.idle 2 (grid0.coords t) = false := by decide +kernel
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem idle1_out : ∀ t : Fin cfg1.N, ¬lastK1 (grid1.coords t) → cfg1.idle 3 (grid1.coords t) = true := by decide +kernel
theorem keep1_out : ∀ t : Fin cfg1.N, ¬lastK1 (grid1.coords t) → (cfg1.win 3).flush t = false := by decide +kernel
theorem live1_out : ∀ t : Fin cfg1.N, lastK1 (grid1.coords t) → cfg1.idle 3 (grid1.coords t) = false := by decide +kernel

/-! ## The memrefs a body is called with at a point -/

abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .f32 := win0_2.stage (cfg0.slots t 2)
abbrev hs0_2 (t : Fin cfg0.N) : (ms0_2 t).IsWhole := hstage0_2 ((cfg0.slots t 2).cast nbuf0_2)
/-- The first kernel's accumulator (a scratch buffer of its own, kept from point to point), -/
abbrev accM0 : Memref sig .tc .vmem S1024x128 .f32 := Memref.whole cc0_scratch0
/-- as a view: its contents are stated through it. -/
abbrev accV0 : View sig .tc .vmem S1024x128 .f32 := accM0.view
/-- One staging buffer of the first kernel's output window, through which its contents are stated. -/
abbrev outV0 : View sig .tc .vmem S1024x128 .f32 := (Memref.whole cc0_stg2_0 : Memref sig .tc .vmem S1024x128 .f32).view

abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x128 .f32 := win1_3.stage (cfg1.slots t 3)
abbrev hs1_3 (t : Fin cfg1.N) : (ms1_3 t).IsWhole := hstage1_3 ((cfg1.slots t 3).cast nbuf1_3)
/-- The second kernel's two accumulators: the running products and the running row sums. -/
abbrev accM1 : Memref sig .tc .vmem S1024x128 .f32 := Memref.whole cc1_scratch0
abbrev accV1 : View sig .tc .vmem S1024x128 .f32 := accM1.view
abbrev sumM1 : Memref sig .tc .vmem S1024x1 .f32 := Memref.whole cc1_scratch1
abbrev sumV1 : View sig .tc .vmem S1024x1 .f32 := sumM1.view
abbrev outV1 : View sig .tc .vmem S1024x128 .f32 := (Memref.whole cc1_stg3_0 : Memref sig .tc .vmem S1024x128 .f32).view

/-! ## The scoped buffers a region does not stage: its accumulators, and the other region's buffers -/

/-- The scoped buffers that are neither the first kernel's staging buffers nor its accumulator (the second kernel's
    buffers), each whole at some contents: the first region never touches them. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

theorem restP_eq (c : Dev nD) :
    (Pipeline.ΦA spec0 c : sProp 𝕄) = iprop((∃ d, owns (c : Thread nD τ) accM0 fullShare d) ∗ others0 c ∗ (∃ r, prngReg c r)) := by
  unfold Pipeline.ΦA; rw [scopedRest0_eq]; unfold others0; simp only [accM0, owns_whole]
  refine Entails.antisymm (show (_ : sProp 𝕄) ⊢ _ from ?_) (show (_ : sProp 𝕄) ⊢ _ from ?_)
  · iintro ⟨⟨HA, HR⟩, Hg⟩
    isplitl [HA]; · iexact HA
    isplitl [HR]; · iexact HR
    iexact Hg
  · iintro ⟨HA, HR, Hg⟩
    isplitr [Hg]
    · isplitl [HA]; · iexact HA
      iexact HR
    iexact Hg

/-- The same for the second region: the first kernel's buffers. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

theorem restA_eq (c : Dev nD) :
    (Pipeline.ΦA spec1 c : sProp 𝕄) = iprop((∃ d, owns (c : Thread nD τ) accM1 fullShare d) ∗ (∃ d, owns (c : Thread nD τ) sumM1 fullShare d) ∗ others1 c ∗ (∃ r, prngReg c r)) := by
  unfold Pipeline.ΦA; rw [scopedRest1_eq]; unfold others1; simp only [accM1, sumM1, owns_whole]
  refine Entails.antisymm (show (_ : sProp 𝕄) ⊢ _ from ?_) (show (_ : sProp 𝕄) ⊢ _ from ?_)
  · iintro ⟨⟨H1, H2, H3, H4, H5, H6, H7, HA, HS⟩, Hg⟩
    isplitl [HA]; · iexact HA
    isplitl [HS]; · iexact HS
    isplitr [Hg]
    · isplitl [H1]; · iexact H1
      isplitl [H2]; · iexact H2
      isplitl [H3]; · iexact H3
      isplitl [H4]; · iexact H4
      isplitl [H5]; · iexact H5
      isplitl [H6]; · iexact H6
      iexact H7
    iexact Hg
  · iintro ⟨HA, HS, ⟨H1, H2, H3, H4, H5, H6, H7⟩, Hg⟩
    isplitr [Hg]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HA]; · iexact HA
      iexact HS
    iexact Hg

end Cert.KernelIdeal.Frm

end
-- ==== Proof.Ideal.Run0First.lean ====
/-
  The first kernel's body at a point with k = 0: the accumulators are cleared first. On whole staging memrefs holding the input
  blocks, the output window's buffer handed back as found, the accumulators at anything: the body runs to its end
  and leaves in each buffer it stores into a list of stored pieces, found by running the body symbolically.
-/
import proofs.«157057_j38895223832723_2_alg».proof.Proof.Ideal.Shared

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def run0First (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : firstK0 i) (hc1 : ¬lastK0 i)
    (x0 : Vec F S1024x1024 .f32) (x1 : Vec F S1024x128 .f32)  :
    { LA0 : List (View.Piece (Elt F) S1024x128 .f32) //
      ∀ (xo : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xo ∗ (∃ d, owns (c : Thread nD τ) arg5 fullShare d)
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LA0)) -∗ K ⟨⟩))
          ⊢ wp frame (wpE (defs₀ (F := F)) Variants.none c none) E (cc0__matmul_kernel i arg2 harg2 arg3 harg3 arg4 harg4 arg5 harg5) K } := by
  refine ⟨?_, fun xo E K => ?run⟩
  case run =>
    simp only [cc0__matmul_kernel_eq_skeleton]; unfold cc0__matmul_kernel_skel
    unfold owns
    iintro ⟨⟨%f0, %hf0, H0⟩, ⟨%f1, %hf1, H1⟩, ⟨%fO, %hfO, HO⟩, ⟨%dA0, %fA0, -, HA0⟩, Hk⟩
    obtain rfl := harg2.eq_unread hf0; obtain rfl := harg3.eq_unread hf1; obtain rfl := harg4.eq_unread hfO
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HO]
    · iexists _; isplitr; · ipureintro; exact harg4.read_unread _
      iexact HO
    iexists _; iexact HA0

end Cert.KernelIdeal.Frm

end
-- ==== Proof.Ideal.Run0Mid.lean ====
/-
  The first kernel's body at a point with k = 1, 2: accumulation only. On whole staging memrefs holding the input
  blocks, the output window's buffer handed back as found, the accumulators at what the point before left: the body runs to its end
  and leaves in each buffer it stores into a list of stored pieces, found by running the body symbolically.
-/
import proofs.«157057_j38895223832723_2_alg».proof.Proof.Ideal.Run0First

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def run0Mid (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬firstK0 i) (hc1 : ¬lastK0 i)
    (x0 : Vec F S1024x1024 .f32) (x1 : Vec F S1024x128 .f32) (xa0 : Vec F S1024x128 .f32) :
    { LA0 : List (View.Piece (Elt F) S1024x128 .f32) //
      ∀ (xo : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xo ∗ owns (c : Thread nD τ) arg5 fullShare xa0
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LA0)) -∗ K ⟨⟩))
          ⊢ wp frame (wpE (defs₀ (F := F)) Variants.none c none) E (cc0__matmul_kernel i arg2 harg2 arg3 harg3 arg4 harg4 arg5 harg5) K } := by
  refine ⟨?_, fun xo E K => ?run⟩
  case run =>
    simp only [cc0__matmul_kernel_eq_skeleton]; unfold cc0__matmul_kernel_skel
    unfold owns
    iintro ⟨⟨%f0, %hf0, H0⟩, ⟨%f1, %hf1, H1⟩, ⟨%fO, %hfO, HO⟩, ⟨%fA0, %hfA0, HA0⟩, Hk⟩
    obtain rfl := harg2.eq_unread hf0; obtain rfl := harg3.eq_unread hf1; obtain rfl := harg4.eq_unread hfO; obtain rfl := harg5.eq_unread hfA0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HO]
    · iexists _; isplitr; · ipureintro; exact harg4.read_unread _
      iexact HO
    iexists _; iexact HA0

end Cert.KernelIdeal.Frm

end
-- ==== Proof.Ideal.Run0Last.lean ====
/-
  The first kernel's body at a point with k = 3: after the accumulation the finished block is stored into the output window. On whole staging memrefs holding the input
  blocks, the accumulators at what the point before left: the body runs to its end
  and leaves in each buffer it stores into a list of stored pieces, found by running the body symbolically.
-/
import proofs.«157057_j38895223832723_2_alg».proof.Proof.Ideal.Run0Mid

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def run0Last (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬firstK0 i) (hc1 : lastK0 i)
    (x0 : Vec F S1024x1024 .f32) (x1 : Vec F S1024x128 .f32) (xa0 : Vec F S1024x128 .f32) :
    Σ' (LO : List (View.Piece (Elt F) S1024x128 .f32)), { LA0 : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xa0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LA0)) -∗ K ⟨⟩))
          ⊢ wp frame (wpE (defs₀ (F := F)) Variants.none c none) E (cc0__matmul_kernel i arg2 harg2 arg3 harg3 arg4 harg4 arg5 harg5) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%dO, %fO, -, HO⟩, ⟨%fA0, %hfA0, HA0⟩, Hk⟩
    obtain rfl := harg2.eq_unread hf0; obtain rfl := harg3.eq_unread hf1; obtain rfl := harg5.eq_unread hfA0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HO]; · iexists _; iexact HO
    iexists _; iexact HA0

end Cert.KernelIdeal.Frm

end
-- ==== Proof.Ideal.Region0.lean ====
/-
  The first kernel region, feat = W · af, block by block. At point 4·i + k the body adds the product of block (i, k)
  of W with block k of af to an accumulator it keeps between points (cleared at k = 0) and, at k = 3, copies the
  accumulator into the output window, which the pipeline then writes back as row block i of feat. Here: what the
  accumulator and the output window hold after every point (a recursion over the points, each step one of the three
  symbolic runs of the body), the region's invariant (the accumulator at that content), the pipeline's proof data and
  the body obligation at every point.
-/
import proofs.«157057_j38895223832723_2_alg».proof.Proof.Ideal.Run0Last

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The three runs at a grid point's own memrefs -/

abbrev rFirst0 (c : Dev nD) (t : Fin cfg0.N) (h0 : firstK0 (grid0.coords t)) (h1 : ¬lastK0 (grid0.coords t)) (x0 : Vec F S1024x1024 .f32) (x1 : Vec F S1024x128 .f32) :=
  run0First (F := F) c (grid0.coords t) (ms0_0 t) (hs0_0 t) (ms0_1 t) (hs0_1 t) (ms0_2 t) (hs0_2 t) accM0 (Memref.isWhole_whole _) h0 h1 x0 x1
abbrev rMid0 (c : Dev nD) (t : Fin cfg0.N) (h0 : ¬firstK0 (grid0.coords t)) (h1 : ¬lastK0 (grid0.coords t)) (x0 : Vec F S1024x1024 .f32) (x1 : Vec F S1024x128 .f32) (xa : Vec F S1024x128 .f32) :=
  run0Mid (F := F) c (grid0.coords t) (ms0_0 t) (hs0_0 t) (ms0_1 t) (hs0_1 t) (ms0_2 t) (hs0_2 t) accM0 (Memref.isWhole_whole _) h0 h1 x0 x1 xa
abbrev rLast0 (c : Dev nD) (t : Fin cfg0.N) (h0 : ¬firstK0 (grid0.coords t)) (h1 : lastK0 (grid0.coords t)) (x0 : Vec F S1024x1024 .f32) (x1 : Vec F S1024x128 .f32) (xa : Vec F S1024x128 .f32) :=
  run0Last (F := F) c (grid0.coords t) (ms0_0 t) (hs0_0 t) (ms0_1 t) (hs0_1 t) (ms0_2 t) (hs0_2 t) accM0 (Memref.isWhole_whole _) h0 h1 x0 x1 xa

/-- A run's stored pieces for the accumulator tile it: every index is covered. -/
theorem accCover0First (c : Dev nD) (t : Fin cfg0.N) (h0 : firstK0 (grid0.coords t)) (h1 : ¬lastK0 (grid0.coords t)) (x0 : Vec F S1024x1024 .f32) (x1 : Vec F S1024x128 .f32) (y : S1024x128.Idx) :
    ∃ pc ∈ (rFirst0 c t h0 h1 x0 x1).1, y ∈ pc.1.set :=
  View.cover_of_tiledL (rFirst0 c t h0 h1 x0 x1).1 S1024x128.size (by sl_kernel_rfl) y
theorem accCover0Mid (c : Dev nD) (t : Fin cfg0.N) (h0 : ¬firstK0 (grid0.coords t)) (h1 : ¬lastK0 (grid0.coords t)) (x0 : Vec F S1024x1024 .f32) (x1 : Vec F S1024x128 .f32) (xa : Vec F S1024x128 .f32) (y : S1024x128.Idx) :
    ∃ pc ∈ (rMid0 c t h0 h1 x0 x1 xa).1, y ∈ pc.1.set :=
  View.cover_of_tiledL (rMid0 c t h0 h1 x0 x1 xa).1 S1024x128.size (by sl_kernel_rfl) y
theorem accCover0Last (c : Dev nD) (t : Fin cfg0.N) (h0 : ¬firstK0 (grid0.coords t)) (h1 : lastK0 (grid0.coords t)) (x0 : Vec F S1024x1024 .f32) (x1 : Vec F S1024x128 .f32) (xa : Vec F S1024x128 .f32) (y : S1024x128.Idx) :
    ∃ pc ∈ (rLast0 c t h0 h1 x0 x1 xa).2.1, y ∈ pc.1.set :=
  View.cover_of_tiledL (rLast0 c t h0 h1 x0 x1 xa).2.1 S1024x128.size (by sl_kernel_rfl) y
theorem outCover0Last (c : Dev nD) (t : Fin cfg0.N) (h0 : ¬firstK0 (grid0.coords t)) (h1 : lastK0 (grid0.coords t)) (x0 : Vec F S1024x1024 .f32) (x1 : Vec F S1024x128 .f32) (xa : Vec F S1024x128 .f32) (y : S1024x128.Idx) :
    ∃ pc ∈ (rLast0 c t h0 h1 x0 x1 xa).1, y ∈ pc.1.set :=
  View.cover_of_tiledL (rLast0 c t h0 h1 x0 x1 xa).1 S1024x128.size (by sl_kernel_rfl) y

/-- What a run leaves in the accumulator: its pieces read back. -/
def accFirst0 (c : Dev nD) (t : Fin cfg0.N) (h0 : firstK0 (grid0.coords t)) (h1 : ¬lastK0 (grid0.coords t)) (x0 : Vec F S1024x1024 .f32) (x1 : Vec F S1024x128 .f32) : Vec F S1024x128 .f32 :=
  accV0.read (Elt F) (accV0.writes (Elt F) accV0.junk (rFirst0 c t h0 h1 x0 x1).1)
def accMid0 (c : Dev nD) (t : Fin cfg0.N) (h0 : ¬firstK0 (grid0.coords t)) (h1 : ¬lastK0 (grid0.coords t)) (x0 : Vec F S1024x1024 .f32) (x1 : Vec F S1024x128 .f32) (xa : Vec F S1024x128 .f32) : Vec F S1024x128 .f32 :=
  accV0.read (Elt F) (accV0.writes (Elt F) accV0.junk (rMid0 c t h0 h1 x0 x1 xa).1)
def accLast0 (c : Dev nD) (t : Fin cfg0.N) (h0 : ¬firstK0 (grid0.coords t)) (h1 : lastK0 (grid0.coords t)) (x0 : Vec F S1024x1024 .f32) (x1 : Vec F S1024x128 .f32) (xa : Vec F S1024x128 .f32) : Vec F S1024x128 .f32 :=
  accV0.read (Elt F) (accV0.writes (Elt F) accV0.junk (rLast0 c t h0 h1 x0 x1 xa).2.1)
/-- What the run at k = 3 leaves in the output window's buffer. -/
def outLast0 (c : Dev nD) (t : Fin cfg0.N) (h0 : ¬firstK0 (grid0.coords t)) (h1 : lastK0 (grid0.coords t)) (x0 : Vec F S1024x1024 .f32) (x1 : Vec F S1024x128 .f32) (xa : Vec F S1024x128 .f32) : Vec F S1024x128 .f32 :=
  outV0.read (Elt F) (outV0.writes (Elt F) outV0.junk (rLast0 c t h0 h1 x0 x1 xa).1)
/-- At k ≠ 3 the body stores nothing into the output window: a stand-in nothing reads (the window is idle there). -/
def outIdle0 : Vec F S1024x128 .f32 := outV0.read (Elt F) outV0.junk

/-! ## The contents point by point -/

/-- After point `n`: (the output window's buffer, the accumulator). The accumulator after a point with k ≠ 0 is the
    run's result over what the point before left. -/
def traj0 (c : Dev nD) : (n : ℕ) → n < cfg0.N → Vec F S1024x128 .f32 × Vec F S1024x128 .f32
  | 0, hn => (outIdle0, accFirst0 c ⟨0, hn⟩ ((firstK0_iff ⟨0, hn⟩).mpr (Nat.zero_mod _)) (fun h => (fun h => by (try dsimp only at h); omega) ((lastK0_iff ⟨0, hn⟩).mp h)) (blkP V c 0 ⟨0, hn⟩) (blkP V c 1 ⟨0, hn⟩))
  | n + 1, hn =>
    if h0 : (n + 1) % 4 = 0 then
      (outIdle0, accFirst0 c ⟨n + 1, hn⟩ ((firstK0_iff ⟨n + 1, hn⟩).mpr h0) (fun h => (fun h => by (try dsimp only at h); omega) ((lastK0_iff ⟨n + 1, hn⟩).mp h)) (blkP V c 0 ⟨n + 1, hn⟩) (blkP V c 1 ⟨n + 1, hn⟩))
    else
      if h1 : (n + 1) % 4 = 3 then
        (outLast0 c ⟨n + 1, hn⟩ (fun h => h0 ((firstK0_iff ⟨n + 1, hn⟩).mp h)) ((lastK0_iff ⟨n + 1, hn⟩).mpr h1) (blkP V c 0 ⟨n + 1, hn⟩) (blkP V c 1 ⟨n + 1, hn⟩) (traj0 c n (Nat.lt_of_succ_lt hn)).2,
         accLast0 c ⟨n + 1, hn⟩ (fun h => h0 ((firstK0_iff ⟨n + 1, hn⟩).mp h)) ((lastK0_iff ⟨n + 1, hn⟩).mpr h1) (blkP V c 0 ⟨n + 1, hn⟩) (blkP V c 1 ⟨n + 1, hn⟩) (traj0 c n (Nat.lt_of_succ_lt hn)).2)
      else
        (outIdle0, accMid0 c ⟨n + 1, hn⟩ (fun h => h0 ((firstK0_iff ⟨n + 1, hn⟩).mp h)) (fun h => h1 ((lastK0_iff ⟨n + 1, hn⟩).mp h)) (blkP V c 0 ⟨n + 1, hn⟩) (blkP V c 1 ⟨n + 1, hn⟩) (traj0 c n (Nat.lt_of_succ_lt hn)).2)

theorem traj0_first (c : Dev nD) (t : Fin cfg0.N) (h0 : t.val % 4 = 0) (h1 : ¬t.val % 4 = 3) :
    traj0 V c t.val t.isLt = (outIdle0, accFirst0 c t ((firstK0_iff t).mpr h0) (fun h => h1 ((lastK0_iff t).mp h)) (blkP V c 0 t) (blkP V c 1 t)) := by
  obtain ⟨n, hn⟩ := t
  cases n with
  | zero => exact rfl
  | succ n => exact (dif_pos h0).trans rfl

theorem traj0_mid (c : Dev nD) (t : Fin cfg0.N) (h0 : ¬t.val % 4 = 0) (h1 : ¬t.val % 4 = 3) :
    traj0 V c t.val t.isLt = (outIdle0, accMid0 c t (fun h => h0 ((firstK0_iff t).mp h)) (fun h => h1 ((lastK0_iff t).mp h)) (blkP V c 0 t) (blkP V c 1 t)
      (traj0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem traj0_last (c : Dev nD) (t : Fin cfg0.N) (h0 : ¬t.val % 4 = 0) (h1 : t.val % 4 = 3) :
    traj0 V c t.val t.isLt = (outLast0 c t (fun h => h0 ((firstK0_iff t).mp h)) ((lastK0_iff t).mpr h1) (blkP V c 0 t) (blkP V c 1 t)
        (traj0 V c (t.val - 1) (Nat.lt_of_le_of_lt (Nat.sub_le _ _) t.isLt)).2,
      accLast0 c t (fun h => h0 ((firstK0_iff t).mp h)) ((lastK0_iff t).mpr h1) (blkP V c 0 t) (blkP V c 1 t)
        (traj0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant: before the first point every scoped buffer it does not stage at anything; afterwards
    the accumulator at what the point before left -/

def inv0 (c : Dev nD) : (n : ℕ) → n ≤ cfg0.N → sProp 𝕄
  | 0, _ => Pipeline.ΦA spec0 c
  | n + 1, hn => iprop(owns (c : Thread nD τ) accM0 fullShare ((traj0 V c n hn).2) ∗ others0 c ∗ (∃ r, prngReg c r))

theorem inv0_zero (c : Dev nD) (n : ℕ) (h : n ≤ cfg0.N) (hz : n = 0) : inv0 V c n h = Pipeline.ΦA spec0 c := by
  subst hz; rfl
theorem inv0_succ (c : Dev nD) (n : ℕ) (hn : n < cfg0.N) :
    inv0 V c (n + 1) hn = iprop(owns (c : Thread nD τ) accM0 fullShare ((traj0 V c n hn).2) ∗ others0 c ∗ (∃ r, prngReg c r)) := rfl
theorem inv0_pos (c : Dev nD) (n : ℕ) (h : n ≤ cfg0.N) (hz : n ≠ 0) :
    inv0 V c n h = iprop(owns (c : Thread nD τ) accM0 fullShare ((traj0 V c (n - 1) (by omega)).2) ∗ others0 c ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => blkP V c 0 t
    | ⟨1, _⟩ => blkP V c 1 t
    | ⟨2, _⟩ => (traj0 V c t.val t.isLt).1
  Φ t := inv0 V c t.val (Nat.le_of_lt_succ t.isLt)
  q _ := fullShare
  owed _ := 0

theorem dat0_A (c : Dev nD) (w : Fin cfg0.W) : (dat0 V c).A w = V c (Pipeline.arrRef spec0 w) := by
  dsimp only [dat0]
theorem inv0_castSucc (c : Dev nD) (t : Fin cfg0.N) :
    (dat0 V c).Φ t.castSucc = inv0 V c t.val (Nat.le_of_lt t.isLt) := by
  dsimp only [dat0]; simp only [Fin.coe_castSucc]
theorem after0_0 (c : Dev nD) (t : Fin cfg0.N) : (dat0 V c).after 0 t = blkP V c 0 t := by dsimp only [dat0]
theorem after0_1 (c : Dev nD) (t : Fin cfg0.N) : (dat0 V c).after 1 t = blkP V c 1 t := by dsimp only [dat0]
theorem after0_2 (c : Dev nD) (t : Fin cfg0.N) : (dat0 V c).after 2 t = (traj0 V c t.val t.isLt).1 := by dsimp only [dat0]
theorem found0_0 (c : Dev nD) (t : Fin cfg0.N) (d) : (dat0 V c).before 0 t d = blkP V c 0 t :=
  foundP_0 V (dat0 V c) (dat0_A V c 0) (after0_0 V c) t d
theorem found0_1 (c : Dev nD) (t : Fin cfg0.N) (d) : (dat0 V c).before 1 t d = blkP V c 1 t :=
  foundP_1 V (dat0 V c) (dat0_A V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the input memrefs hold their blocks; the point number modulo 4 says which run applies; the
    invariant hands the body the accumulator (at anything before the first point) and takes it back at this point's
    content; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [found0_0, found0_1]
  rw [show (dat0 V c).owesAt () t.succ = (dat0 V c).owesAt () t.castSucc from rfl]
  rw [show (dat0 V c).Φ t.succ = inv0 V c (t.val + 1) t.isLt from rfl, inv0_succ]
  have hN : t.val < 16 := lt_of_lt_of_eq t.isLt (show cfg0.N = 16 from N_0)
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  by_cases h0 : t.val % 4 = 0
  · have h1 : ¬t.val % 4 = 3 := by omega
    rw [Dat.leavesExact_idle (dat0 V c) 2 t (idle0_out t (fun h => h1 ((lastK0_iff t).mp h))) (keep0_out t (fun h => h1 ((lastK0_iff t).mp h)))]
    rw [traj0_first V c t h0 h1]
    unfold accFirst0; (try dsimp only)
    by_cases hz : t.val = 0
    · rw [inv0_castSucc V c t, inv0_zero V c _ _ hz, restP_eq]
      iintro ⟨⟨HA, HR, Hg⟩, Ho, ⟨%d0, H0⟩, ⟨%d1, H1⟩, ⟨%d2, H2⟩⟩
      iapply ((rFirst0 c t ((firstK0_iff t).mpr h0) (fun h => h1 ((lastK0_iff t).mp h)) (blkP V c 0 t) (blkP V c 1 t)).2 _ Set.univ _)
      isplitl [H0]; · iexact H0
      isplitl [H1]; · iexact H1
      isplitl [H2]; · iexact H2
      isplitl [HA]; · iexact HA
      iintro ⟨H0, H1, H2, ⟨%ea, HA⟩⟩
      isplitl [HA HR Hg]
      · isplitl [HA]
        · unfold owns; iexists _; isplitr
          swap; · iexact HA
          ipureintro; exact View.read_writes_of_cover _ _ _ _ _ (accCover0First c t _ _ _ _)
        isplitl [HR]; · iexact HR
        iexact Hg
      isplitl [Ho]; · iexact Ho
      isplitl [H0]; · iexact H0
      isplitl [H1]; · iexact H1
      iexists _; iexact H2
    · rw [inv0_castSucc V c t, inv0_pos V c _ _ hz]
      iintro ⟨⟨HA, HR, Hg⟩, Ho, ⟨%d0, H0⟩, ⟨%d1, H1⟩, ⟨%d2, H2⟩⟩
      iapply ((rFirst0 c t ((firstK0_iff t).mpr h0) (fun h => h1 ((lastK0_iff t).mp h)) (blkP V c 0 t) (blkP V c 1 t)).2 _ Set.univ _)
      isplitl [H0]; · iexact H0
      isplitl [H1]; · iexact H1
      isplitl [H2]; · iexact H2
      isplitl [HA]; · iexists _; iexact HA
      iintro ⟨H0, H1, H2, ⟨%ea, HA⟩⟩
      isplitl [HA HR Hg]
      · isplitl [HA]
        · unfold owns; iexists _; isplitr
          swap; · iexact HA
          ipureintro; exact View.read_writes_of_cover _ _ _ _ _ (accCover0First c t _ _ _ _)
        isplitl [HR]; · iexact HR
        iexact Hg
      isplitl [Ho]; · iexact Ho
      isplitl [H0]; · iexact H0
      isplitl [H1]; · iexact H1
      iexists _; iexact H2
  · have hz : t.val ≠ 0 := fun e => h0 (by rw [e])
    by_cases h1 : t.val % 4 = 3
    · rw [show (dat0 V c).leavesExact 2 t = owns (c : Thread nD τ) (ms0_2 t) fullShare ((dat0 V c).after 2 t) from by
        unfold Dat.leavesExact; rw [live0_out t ((lastK0_iff t).mpr h1)], after0_2]
      rw [traj0_last V c t h0 h1]
      unfold outLast0 accLast0; (try dsimp only)
      rw [inv0_castSucc V c t, inv0_pos V c _ _ hz]
      iintro ⟨⟨HA, HR, Hg⟩, Ho, ⟨%d0, H0⟩, ⟨%d1, H1⟩, ⟨%d2, H2⟩⟩
      iapply ((rLast0 c t (fun h => h0 ((firstK0_iff t).mp h)) ((lastK0_iff t).mpr h1) (blkP V c 0 t) (blkP V c 1 t) _).2.2 Set.univ _)
      isplitl [H0]; · iexact H0
      isplitl [H1]; · iexact H1
      isplitl [H2]; · iexists _; iexact H2
      isplitl [HA]; · iexact HA
      iintro ⟨H0, H1, ⟨%eo, H2⟩, ⟨%ea, HA⟩⟩
      isplitl [HA HR Hg]
      · isplitl [HA]
        · unfold owns; iexists _; isplitr
          swap; · iexact HA
          ipureintro; exact View.read_writes_of_cover _ _ _ _ _ (accCover0Last c t _ _ _ _ _)
        isplitl [HR]; · iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (outCover0Last c t _ _ _ _ _)
    · rw [Dat.leavesExact_idle (dat0 V c) 2 t (idle0_out t (fun h => h1 ((lastK0_iff t).mp h))) (keep0_out t (fun h => h1 ((lastK0_iff t).mp h)))]
      rw [traj0_mid V c t h0 h1]
      unfold accMid0; (try dsimp only)
      rw [inv0_castSucc V c t, inv0_pos V c _ _ hz]
      iintro ⟨⟨HA, HR, Hg⟩, Ho, ⟨%d0, H0⟩, ⟨%d1, H1⟩, ⟨%d2, H2⟩⟩
      iapply ((rMid0 c t (fun h => h0 ((firstK0_iff t).mp h)) (fun h => h1 ((lastK0_iff t).mp h)) (blkP V c 0 t) (blkP V c 1 t) _).2 _ Set.univ _)
      isplitl [H0]; · iexact H0
      isplitl [H1]; · iexact H1
      isplitl [H2]; · iexact H2
      isplitl [HA]; · iexact HA
      iintro ⟨H0, H1, H2, ⟨%ea, HA⟩⟩
      isplitl [HA HR Hg]
      · isplitl [HA]
        · unfold owns; iexists _; isplitr
          swap; · iexact HA
          ipureintro; exact View.read_writes_of_cover _ _ _ _ _ (accCover0Mid c t _ _ _ _ _)
        isplitl [HR]; · iexact HR
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem inv0_in (c : Dev nD) : Pipeline.ΦA spec0 c ⊢ (dat0 V c).Φ 0 := by
  rw [show (dat0 V c).Φ 0 = inv0 V c 0 (Nat.zero_le _) from rfl, inv0_zero V c 0 _ rfl]
  try exact Idealize.SL.BI.Entails.refl _

/-- and after the last point the invariant gives it back, the accumulator's content forgotten. -/
theorem inv0_out (c : Dev nD) : (dat0 V c).Φ (Fin.last cfg0.N) ⊢ Pipeline.ΦA spec0 c := by
  rw [show (dat0 V c).Φ (Fin.last cfg0.N) = inv0 V c (Fin.last cfg0.N).val (Nat.le_of_lt_succ (Fin.last cfg0.N).isLt) from rfl,
    inv0_pos V c _ _ (by rw [Fin.val_last]; have : cfg0.N = 16 := N_0; omega), restP_eq]
  iintro ⟨HA, HR, Hg⟩
  isplitl [HA]; · iexists _; iexact HA
  isplitl [HR]; · iexact HR
  iexact Hg

end

end Cert.KernelIdeal.Frm

end
-- ==== Proof.Ideal.Run1First.lean ====
/-
  The second kernel's body at a point with k = 0: the accumulators are cleared first. On whole staging memrefs holding the input
  blocks, the output window's buffer handed back as found, the accumulators at anything: the body runs to its end
  and leaves in each buffer it stores into a list of stored pieces, found by running the body symbolically.
-/
import proofs.«157057_j38895223832723_2_alg».proof.Proof.Ideal.Shared

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def run1First (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (hc0 : firstK1 i) (hc1 : ¬lastK1 i)
    (x0 : Vec F S1024x1024 .f32) (x1 : Vec F S1024x128 .f32) (x2 : Vec F S1024x128 .f32)  :
    Σ' (LA0 : List (View.Piece (Elt F) S1024x128 .f32)), { LA1 : List (View.Piece (Elt F) S1024x1 .f32) //
      ∀ (xo : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xo ∗ (∃ f, arg6.view.loc (c : Thread nD τ) ↦[arg6.view.set]{fullShare} arg6.view.writes (Elt F) f LA0) ∗ (∃ f, arg7.view.loc (c : Thread nD τ) ↦[arg7.view.set]{fullShare} arg7.view.writes (Elt F) f LA1)) -∗ K ⟨⟩))
          ⊢ wp frame (wpE (defs₀ (F := F)) Variants.none c none) E (cc1__attn_kernel i arg2 harg2 arg3 harg3 arg4 harg4 arg5 harg5 arg6 harg6 arg7 harg7) K } := by
  refine ⟨?_, ?_, fun xo E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%fO, %hfO, HO⟩, ⟨%dA0, %fA0, -, HA0⟩, ⟨%dA1, %fA1, -, HA1⟩, Hk⟩
    obtain rfl := harg2.eq_unread hf0; obtain rfl := harg3.eq_unread hf1; obtain rfl := harg4.eq_unread hf2; obtain rfl := harg5.eq_unread hfO
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; · ipureintro; exact harg5.read_unread _
      iexact HO
    isplitl [HA0]; · iexists _; iexact HA0
    iexists _; iexact HA1

end Cert.KernelIdeal.Frm

end
-- ==== Proof.Ideal.Run1Mid.lean ====
/-
  The second kernel's body at a point with k = 1, 2: accumulation only. On whole staging memrefs holding the input
  blocks, the output window's buffer handed back as found, the accumulators at what the point before left: the body runs to its end
  and leaves in each buffer it stores into a list of stored pieces, found by running the body symbolically.
-/
import proofs.«157057_j38895223832723_2_alg».proof.Proof.Ideal.Run1First

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def run1Mid (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (hc0 : ¬firstK1 i) (hc1 : ¬lastK1 i)
    (x0 : Vec F S1024x1024 .f32) (x1 : Vec F S1024x128 .f32) (x2 : Vec F S1024x128 .f32) (xa0 : Vec F S1024x128 .f32) (xa1 : Vec F S1024x1 .f32) :
    Σ' (LA0 : List (View.Piece (Elt F) S1024x128 .f32)), { LA1 : List (View.Piece (Elt F) S1024x1 .f32) //
      ∀ (xo : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare xa0 ∗ owns (c : Thread nD τ) arg7 fullShare xa1
            ∗ (iprop(owns (c : Thread nD τ) arg2 fullShare x0 ∗ owns (c : Thread nD τ) arg3 fullShare x1 ∗ owns (c : Thread nD τ) arg4 fullShare x2 ∗ owns (c : Thread nD τ) arg5 fullShare xo ∗ (∃ f, arg6.view.loc (c : Thread nD τ) ↦[arg6.view.set]{fullShare} arg6.view.writes (Elt F) f LA0) ∗ (∃ f, arg7.view.loc (c : Thread nD τ) ↦[arg7.view.set]{fullShare} arg7.view.writes (Elt F) f LA1)) -∗ K ⟨⟩))
          ⊢ wp frame (wpE (defs₀ (F := F)) Variants.none c none) E (cc1__attn_kernel i arg2 harg2 arg3 harg3 arg4 harg4 arg5 harg5 arg6 harg6 arg7 harg7) K } := by
  refine ⟨?_, ?_, fun xo E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%fO, %hfO, HO⟩, ⟨%fA0, %hfA0, HA0⟩, ⟨%fA1, %hfA1, HA1⟩, Hk⟩
    obtain rfl := harg2.eq_unread hf0; obtain rfl := harg3.eq_unread hf1; obtain rfl := harg4.eq_unread hf2; obtain rfl := harg5.eq_unread hfO; obtain rfl := harg6.eq_unread hfA0; obtain rfl := harg7.eq_unread hfA1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; · ipureintro; exact harg5.read_unread _
      iexact HO
    isplitl [HA0]; · iexists _; iexact HA0
    iexists _; iexact HA1

end Cert.KernelIdeal.Frm

end
-- ==== Proof.Ideal.Run1Last.lean ====
/-
  The second kernel's body at a point with k = 3: after the accumulation the finished block is stored into the output window. On whole staging memrefs holding the input
  blocks, the accumulators at what the point before left: the body runs to its end
  and leaves in each buffer it stores into a list of stored pieces, found by running the body symbolically.
-/
import proofs.«157057_j38895223832723_2_alg».proof.Proof.Ideal.Run1Mid

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def run1Last (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (hc0 : ¬firstK1 i) (hc1 : lastK1 i)
    (x0 : Vec F S1024x1024 .f32) (x1 : Vec F S1024x128 .f32) (x2 : Vec F S1024x128 .f32) (xa0 : Vec F S1024x128 .f32) (xa1 : Vec F S1024x1 .f32) :
    Σ' (LO : List (View.Piece (Elt F) S1024x128 .f32)) (LA0 : List (View.Piece (Elt F) S1024x128 .f32)), { LA1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xa0 ∗ owns (c : Thread nD τ) arg7 fullShare xa1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LA0) ∗ (∃ f, arg7.view.loc (c : Thread nD τ) ↦[arg7.view.set]{fullShare} arg7.view.writes (Elt F) f LA1)) -∗ K ⟨⟩))
          ⊢ wp frame (wpE (defs₀ (F := F)) Variants.none c none) E (cc1__attn_kernel i arg2 harg2 arg3 harg3 arg4 harg4 arg5 harg5 arg6 harg6 arg7 harg7) K } := by
  refine ⟨?_, ?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%dO, %fO, -, HO⟩, ⟨%fA0, %hfA0, HA0⟩, ⟨%fA1, %hfA1, HA1⟩, Hk⟩
    obtain rfl := harg2.eq_unread hf0; obtain rfl := harg3.eq_unread hf1; obtain rfl := harg4.eq_unread hf2; obtain rfl := harg6.eq_unread hfA0; obtain rfl := harg7.eq_unread hfA1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]; · iexists _; iexact HO
    isplitl [HA0]; · iexists _; iexact HA0
    iexists _; iexact HA1

end Cert.KernelIdeal.Frm

end
-- ==== Proof.Ideal.Region1.lean ====
/-
  The second kernel region, h = (att · feat) / (rowsum att + ε) + feat, block by block. At point 4·i + k the body adds
  the product of block (i, k) of att with block k of feat to one accumulator and the row sums of block (i, k) of att to
  another (both cleared at k = 0) and, at k = 3, divides the first by the second plus ε row by row, adds row block i of
  feat, and stores the result into the output window. Here: what the two accumulators and the output window hold after
  every point, the region's invariant, the pipeline's proof data and the body obligation at every point. The windows on
  feat read one array twice; each holds half of the share.
-/
import proofs.«157057_j38895223832723_2_alg».proof.Proof.Ideal.Run1Last

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

abbrev rFirst1 (c : Dev nD) (t : Fin cfg1.N) (h0 : firstK1 (grid1.coords t)) (h1 : ¬lastK1 (grid1.coords t)) (x0 : Vec F S1024x1024 .f32) (x1 : Vec F S1024x128 .f32) (x2 : Vec F S1024x128 .f32) :=
  run1First (F := F) c (grid1.coords t) (ms1_0 t) (hs1_0 t) (ms1_1 t) (hs1_1 t) (ms1_2 t) (hs1_2 t) (ms1_3 t) (hs1_3 t) accM1 (Memref.isWhole_whole _) sumM1 (Memref.isWhole_whole _) h0 h1 x0 x1 x2
abbrev rMid1 (c : Dev nD) (t : Fin cfg1.N) (h0 : ¬firstK1 (grid1.coords t)) (h1 : ¬lastK1 (grid1.coords t)) (x0 : Vec F S1024x1024 .f32) (x1 : Vec F S1024x128 .f32) (x2 : Vec F S1024x128 .f32) (xa : Vec F S1024x128 .f32) (xs : Vec F S1024x1 .f32) :=
  run1Mid (F := F) c (grid1.coords t) (ms1_0 t) (hs1_0 t) (ms1_1 t) (hs1_1 t) (ms1_2 t) (hs1_2 t) (ms1_3 t) (hs1_3 t) accM1 (Memref.isWhole_whole _) sumM1 (Memref.isWhole_whole _) h0 h1 x0 x1 x2 xa xs
abbrev rLast1 (c : Dev nD) (t : Fin cfg1.N) (h0 : ¬firstK1 (grid1.coords t)) (h1 : lastK1 (grid1.coords t)) (x0 : Vec F S1024x1024 .f32) (x1 : Vec F S1024x128 .f32) (x2 : Vec F S1024x128 .f32) (xa : Vec F S1024x128 .f32) (xs : Vec F S1024x1 .f32) :=
  run1Last (F := F) c (grid1.coords t) (ms1_0 t) (hs1_0 t) (ms1_1 t) (hs1_1 t) (ms1_2 t) (hs1_2 t) (ms1_3 t) (hs1_3 t) accM1 (Memref.isWhole_whole _) sumM1 (Memref.isWhole_whole _) h0 h1 x0 x1 x2 xa xs

theorem accCover1First (c : Dev nD) (t : Fin cfg1.N) (h0 : firstK1 (grid1.coords t)) (h1 : ¬lastK1 (grid1.coords t)) (x0 : Vec F S1024x1024 .f32) (x1 : Vec F S1024x128 .f32) (x2 : Vec F S1024x128 .f32) (y : S1024x128.Idx) :
    ∃ pc ∈ (rFirst1 c t h0 h1 x0 x1 x2).1, y ∈ pc.1.set :=
  View.cover_of_tiledL (rFirst1 c t h0 h1 x0 x1 x2).1 S1024x128.size (by sl_kernel_rfl) y
theorem sumCover1First (c : Dev nD) (t : Fin cfg1.N) (h0 : firstK1 (grid1.coords t)) (h1 : ¬lastK1 (grid1.coords t)) (x0 : Vec F S1024x1024 .f32) (x1 : Vec F S1024x128 .f32) (x2 : Vec F S1024x128 .f32) (y : S1024x1.Idx) :
    ∃ pc ∈ (rFirst1 c t h0 h1 x0 x1 x2).2.1, y ∈ pc.1.set :=
  View.cover_of_tiledL (rFirst1 c t h0 h1 x0 x1 x2).2.1 S1024x1.size (by sl_kernel_rfl) y
theorem accCover1Mid (c : Dev nD) (t : Fin cfg1.N) (h0 : ¬firstK1 (grid1.coords t)) (h1 : ¬lastK1 (grid1.coords t)) (x0 : Vec F S1024x1024 .f32) (x1 : Vec F S1024x128 .f32) (x2 : Vec F S1024x128 .f32) (xa : Vec F S1024x128 .f32) (xs : Vec F S1024x1 .f32) (y : S1024x128.Idx) :
    ∃ pc ∈ (rMid1 c t h0 h1 x0 x1 x2 xa xs).1, y ∈ pc.1.set :=
  View.cover_of_tiledL (rMid1 c t h0 h1 x0 x1 x2 xa xs).1 S1024x128.size (by sl_kernel_rfl) y
theorem sumCover1Mid (c : Dev nD) (t : Fin cfg1.N) (h0 : ¬firstK1 (grid1.coords t)) (h1 : ¬lastK1 (grid1.coords t)) (x0 : Vec F S1024x1024 .f32) (x1 : Vec F S1024x128 .f32) (x2 : Vec F S1024x128 .f32) (xa : Vec F S1024x128 .f32) (xs : Vec F S1024x1 .f32) (y : S1024x1.Idx) :
    ∃ pc ∈ (rMid1 c t h0 h1 x0 x1 x2 xa xs).2.1, y ∈ pc.1.set :=
  View.cover_of_tiledL (rMid1 c t h0 h1 x0 x1 x2 xa xs).2.1 S1024x1.size (by sl_kernel_rfl) y
theorem outCover1Last (c : Dev nD) (t : Fin cfg1.N) (h0 : ¬firstK1 (grid1.coords t)) (h1 : lastK1 (grid1.coords t)) (x0 : Vec F S1024x1024 .f32) (x1 : Vec F S1024x128 .f32) (x2 : Vec F S1024x128 .f32) (xa : Vec F S1024x128 .f32) (xs : Vec F S1024x1 .f32) (y : S1024x128.Idx) :
    ∃ pc ∈ (rLast1 c t h0 h1 x0 x1 x2 xa xs).1, y ∈ pc.1.set :=
  View.cover_of_tiledL (rLast1 c t h0 h1 x0 x1 x2 xa xs).1 S1024x128.size (by sl_kernel_rfl) y
theorem accCover1Last (c : Dev nD) (t : Fin cfg1.N) (h0 : ¬firstK1 (grid1.coords t)) (h1 : lastK1 (grid1.coords t)) (x0 : Vec F S1024x1024 .f32) (x1 : Vec F S1024x128 .f32) (x2 : Vec F S1024x128 .f32) (xa : Vec F S1024x128 .f32) (xs : Vec F S1024x1 .f32) (y : S1024x128.Idx) :
    ∃ pc ∈ (rLast1 c t h0 h1 x0 x1 x2 xa xs).2.1, y ∈ pc.1.set :=
  View.cover_of_tiledL (rLast1 c t h0 h1 x0 x1 x2 xa xs).2.1 S1024x128.size (by sl_kernel_rfl) y
theorem sumCover1Last (c : Dev nD) (t : Fin cfg1.N) (h0 : ¬firstK1 (grid1.coords t)) (h1 : lastK1 (grid1.coords t)) (x0 : Vec F S1024x1024 .f32) (x1 : Vec F S1024x128 .f32) (x2 : Vec F S1024x128 .f32) (xa : Vec F S1024x128 .f32) (xs : Vec F S1024x1 .f32) (y : S1024x1.Idx) :
    ∃ pc ∈ (rLast1 c t h0 h1 x0 x1 x2 xa xs).2.2.1, y ∈ pc.1.set :=
  View.cover_of_tiledL (rLast1 c t h0 h1 x0 x1 x2 xa xs).2.2.1 S1024x1.size (by sl_kernel_rfl) y

def accFirst1 (c : Dev nD) (t : Fin cfg1.N) (h0 : firstK1 (grid1.coords t)) (h1 : ¬lastK1 (grid1.coords t)) (x0 : Vec F S1024x1024 .f32) (x1 : Vec F S1024x128 .f32) (x2 : Vec F S1024x128 .f32) : Vec F S1024x128 .f32 :=
  accV1.read (Elt F) (accV1.writes (Elt F) accV1.junk (rFirst1 c t h0 h1 x0 x1 x2).1)
def sumFirst1 (c : Dev nD) (t : Fin cfg1.N) (h0 : firstK1 (grid1.coords t)) (h1 : ¬lastK1 (grid1.coords t)) (x0 : Vec F S1024x1024 .f32) (x1 : Vec F S1024x128 .f32) (x2 : Vec F S1024x128 .f32) : Vec F S1024x1 .f32 :=
  sumV1.read (Elt F) (sumV1.writes (Elt F) sumV1.junk (rFirst1 c t h0 h1 x0 x1 x2).2.1)
def accMid1 (c : Dev nD) (t : Fin cfg1.N) (h0 : ¬firstK1 (grid1.coords t)) (h1 : ¬lastK1 (grid1.coords t)) (x0 : Vec F S1024x1024 .f32) (x1 : Vec F S1024x128 .f32) (x2 : Vec F S1024x128 .f32) (xa : Vec F S1024x128 .f32) (xs : Vec F S1024x1 .f32) : Vec F S1024x128 .f32 :=
  accV1.read (Elt F) (accV1.writes (Elt F) accV1.junk (rMid1 c t h0 h1 x0 x1 x2 xa xs).1)
def sumMid1 (c : Dev nD) (t : Fin cfg1.N) (h0 : ¬firstK1 (grid1.coords t)) (h1 : ¬lastK1 (grid1.coords t)) (x0 : Vec F S1024x1024 .f32) (x1 : Vec F S1024x128 .f32) (x2 : Vec F S1024x128 .f32) (xa : Vec F S1024x128 .f32) (xs : Vec F S1024x1 .f32) : Vec F S1024x1 .f32 :=
  sumV1.read (Elt F) (sumV1.writes (Elt F) sumV1.junk (rMid1 c t h0 h1 x0 x1 x2 xa xs).2.1)
def outLast1 (c : Dev nD) (t : Fin cfg1.N) (h0 : ¬firstK1 (grid1.coords t)) (h1 : lastK1 (grid1.coords t)) (x0 : Vec F S1024x1024 .f32) (x1 : Vec F S1024x128 .f32) (x2 : Vec F S1024x128 .f32) (xa : Vec F S1024x128 .f32) (xs : Vec F S1024x1 .f32) : Vec F S1024x128 .f32 :=
  outV1.read (Elt F) (outV1.writes (Elt F) outV1.junk (rLast1 c t h0 h1 x0 x1 x2 xa xs).1)
def accLast1 (c : Dev nD) (t : Fin cfg1.N) (h0 : ¬firstK1 (grid1.coords t)) (h1 : lastK1 (grid1.coords t)) (x0 : Vec F S1024x1024 .f32) (x1 : Vec F S1024x128 .f32) (x2 : Vec F S1024x128 .f32) (xa : Vec F S1024x128 .f32) (xs : Vec F S1024x1 .f32) : Vec F S1024x128 .f32 :=
  accV1.read (Elt F) (accV1.writes (Elt F) accV1.junk (rLast1 c t h0 h1 x0 x1 x2 xa xs).2.1)
def sumLast1 (c : Dev nD) (t : Fin cfg1.N) (h0 : ¬firstK1 (grid1.coords t)) (h1 : lastK1 (grid1.coords t)) (x0 : Vec F S1024x1024 .f32) (x1 : Vec F S1024x128 .f32) (x2 : Vec F S1024x128 .f32) (xa : Vec F S1024x128 .f32) (xs : Vec F S1024x1 .f32) : Vec F S1024x1 .f32 :=
  sumV1.read (Elt F) (sumV1.writes (Elt F) sumV1.junk (rLast1 c t h0 h1 x0 x1 x2 xa xs).2.2.1)
def outIdle1 : Vec F S1024x128 .f32 := outV1.read (Elt F) outV1.junk

/-- After point `n`: (the output window's buffer, the product accumulator, the row-sum accumulator). -/
def traj1 (c : Dev nD) : (n : ℕ) → n < cfg1.N → Vec F S1024x128 .f32 × Vec F S1024x128 .f32 × Vec F S1024x1 .f32
  | 0, hn => (outIdle1, accFirst1 c ⟨0, hn⟩ ((firstK1_iff ⟨0, hn⟩).mpr (Nat.zero_mod _)) (fun h => (fun h => by (try dsimp only at h); omega) ((lastK1_iff ⟨0, hn⟩).mp h)) (blkA V c 0 ⟨0, hn⟩) (blkA V c 1 ⟨0, hn⟩) (blkA V c 2 ⟨0, hn⟩),
      sumFirst1 c ⟨0, hn⟩ ((firstK1_iff ⟨0, hn⟩).mpr (Nat.zero_mod _)) (fun h => (fun h => by (try dsimp only at h); omega) ((lastK1_iff ⟨0, hn⟩).mp h)) (blkA V c 0 ⟨0, hn⟩) (blkA V c 1 ⟨0, hn⟩) (blkA V c 2 ⟨0, hn⟩))
  | n + 1, hn =>
    if h0 : (n + 1) % 4 = 0 then
      (outIdle1, accFirst1 c ⟨n + 1, hn⟩ ((firstK1_iff ⟨n + 1, hn⟩).mpr h0) (fun h => (fun h => by (try dsimp only at h); omega) ((lastK1_iff ⟨n + 1, hn⟩).mp h)) (blkA V c 0 ⟨n + 1, hn⟩) (blkA V c 1 ⟨n + 1, hn⟩) (blkA V c 2 ⟨n + 1, hn⟩),
        sumFirst1 c ⟨n + 1, hn⟩ ((firstK1_iff ⟨n + 1, hn⟩).mpr h0) (fun h => (fun h => by (try dsimp only at h); omega) ((lastK1_iff ⟨n + 1, hn⟩).mp h)) (blkA V c 0 ⟨n + 1, hn⟩) (blkA V c 1 ⟨n + 1, hn⟩) (blkA V c 2 ⟨n + 1, hn⟩))
    else
      if h1 : (n + 1) % 4 = 3 then
        (outLast1 c ⟨n + 1, hn⟩ (fun h => h0 ((firstK1_iff ⟨n + 1, hn⟩).mp h)) ((lastK1_iff ⟨n + 1, hn⟩).mpr h1) (blkA V c 0 ⟨n + 1, hn⟩) (blkA V c 1 ⟨n + 1, hn⟩) (blkA V c 2 ⟨n + 1, hn⟩) (traj1 c n (Nat.lt_of_succ_lt hn)).2.1 (traj1 c n (Nat.lt_of_succ_lt hn)).2.2,
         accLast1 c ⟨n + 1, hn⟩ (fun h => h0 ((firstK1_iff ⟨n + 1, hn⟩).mp h)) ((lastK1_iff ⟨n + 1, hn⟩).mpr h1) (blkA V c 0 ⟨n + 1, hn⟩) (blkA V c 1 ⟨n + 1, hn⟩) (blkA V c 2 ⟨n + 1, hn⟩) (traj1 c n (Nat.lt_of_succ_lt hn)).2.1 (traj1 c n (Nat.lt_of_succ_lt hn)).2.2,
         sumLast1 c ⟨n + 1, hn⟩ (fun h => h0 ((firstK1_iff ⟨n + 1, hn⟩).mp h)) ((lastK1_iff ⟨n + 1, hn⟩).mpr h1) (blkA V c 0 ⟨n + 1, hn⟩) (blkA V c 1 ⟨n + 1, hn⟩) (blkA V c 2 ⟨n + 1, hn⟩) (traj1 c n (Nat.lt_of_succ_lt hn)).2.1 (traj1 c n (Nat.lt_of_succ_lt hn)).2.2)
      else
        (outIdle1, accMid1 c ⟨n + 1, hn⟩ (fun h => h0 ((firstK1_iff ⟨n + 1, hn⟩).mp h)) (fun h => h1 ((lastK1_iff ⟨n + 1, hn⟩).mp h)) (blkA V c 0 ⟨n + 1, hn⟩) (blkA V c 1 ⟨n + 1, hn⟩) (blkA V c 2 ⟨n + 1, hn⟩) (traj1 c n (Nat.lt_of_succ_lt hn)).2.1 (traj1 c n (Nat.lt_of_succ_lt hn)).2.2,
         sumMid1 c ⟨n + 1, hn⟩ (fun h => h0 ((firstK1_iff ⟨n + 1, hn⟩).mp h)) (fun h => h1 ((lastK1_iff ⟨n + 1, hn⟩).mp h)) (blkA V c 0 ⟨n + 1, hn⟩) (blkA V c 1 ⟨n + 1, hn⟩) (blkA V c 2 ⟨n + 1, hn⟩) (traj1 c n (Nat.lt_of_succ_lt hn)).2.1 (traj1 c n (Nat.lt_of_succ_lt hn)).2.2)

theorem traj1_first (c : Dev nD) (t : Fin cfg1.N) (h0 : t.val % 4 = 0) (h1 : ¬t.val % 4 = 3) :
    traj1 V c t.val t.isLt = (outIdle1, accFirst1 c t ((firstK1_iff t).mpr h0) (fun h => h1 ((lastK1_iff t).mp h)) (blkA V c 0 t) (blkA V c 1 t) (blkA V c 2 t), sumFirst1 c t ((firstK1_iff t).mpr h0) (fun h => h1 ((lastK1_iff t).mp h)) (blkA V c 0 t) (blkA V c 1 t) (blkA V c 2 t)) := by
  obtain ⟨n, hn⟩ := t
  cases n with
  | zero => exact rfl
  | succ n => exact (dif_pos h0).trans rfl

theorem traj1_mid (c : Dev nD) (t : Fin cfg1.N) (h0 : ¬t.val % 4 = 0) (h1 : ¬t.val % 4 = 3) :
    traj1 V c t.val t.isLt = (outIdle1, accMid1 c t (fun h => h0 ((firstK1_iff t).mp h)) (fun h => h1 ((lastK1_iff t).mp h)) (blkA V c 0 t) (blkA V c 1 t) (blkA V c 2 t) (traj1 V c (t.val - 1) (Nat.lt_of_le_of_lt (Nat.sub_le _ _) t.isLt)).2.1 (traj1 V c (t.val - 1) (Nat.lt_of_le_of_lt (Nat.sub_le _ _) t.isLt)).2.2,
      sumMid1 c t (fun h => h0 ((firstK1_iff t).mp h)) (fun h => h1 ((lastK1_iff t).mp h)) (blkA V c 0 t) (blkA V c 1 t) (blkA V c 2 t) (traj1 V c (t.val - 1) (Nat.lt_of_le_of_lt (Nat.sub_le _ _) t.isLt)).2.1 (traj1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem traj1_last (c : Dev nD) (t : Fin cfg1.N) (h0 : ¬t.val % 4 = 0) (h1 : t.val % 4 = 3) :
    traj1 V c t.val t.isLt = (outLast1 c t (fun h => h0 ((firstK1_iff t).mp h)) ((lastK1_iff t).mpr h1) (blkA V c 0 t) (blkA V c 1 t) (blkA V c 2 t) (traj1 V c (t.val - 1) (Nat.lt_of_le_of_lt (Nat.sub_le _ _) t.isLt)).2.1 (traj1 V c (t.val - 1) (Nat.lt_of_le_of_lt (Nat.sub_le _ _) t.isLt)).2.2,
      accLast1 c t (fun h => h0 ((firstK1_iff t).mp h)) ((lastK1_iff t).mpr h1) (blkA V c 0 t) (blkA V c 1 t) (blkA V c 2 t) (traj1 V c (t.val - 1) (Nat.lt_of_le_of_lt (Nat.sub_le _ _) t.isLt)).2.1 (traj1 V c (t.val - 1) (Nat.lt_of_le_of_lt (Nat.sub_le _ _) t.isLt)).2.2,
      sumLast1 c t (fun h => h0 ((firstK1_iff t).mp h)) ((lastK1_iff t).mpr h1) (blkA V c 0 t) (blkA V c 1 t) (blkA V c 2 t) (traj1 V c (t.val - 1) (Nat.lt_of_le_of_lt (Nat.sub_le _ _) t.isLt)).2.1 (traj1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

def inv1 (c : Dev nD) : (n : ℕ) → n ≤ cfg1.N → sProp 𝕄
  | 0, _ => Pipeline.ΦA spec1 c
  | n + 1, hn => iprop(owns (c : Thread nD τ) accM1 fullShare ((traj1 V c n hn).2.1) ∗ owns (c : Thread nD τ) sumM1 fullShare ((traj1 V c n hn).2.2) ∗ others1 c ∗ (∃ r, prngReg c r))

theorem inv1_zero (c : Dev nD) (n : ℕ) (h : n ≤ cfg1.N) (hz : n = 0) : inv1 V c n h = Pipeline.ΦA spec1 c := by
  subst hz; rfl
theorem inv1_succ (c : Dev nD) (n : ℕ) (hn : n < cfg1.N) :
    inv1 V c (n + 1) hn = iprop(owns (c : Thread nD τ) accM1 fullShare ((traj1 V c n hn).2.1) ∗ owns (c : Thread nD τ) sumM1 fullShare ((traj1 V c n hn).2.2) ∗ others1 c ∗ (∃ r, prngReg c r)) := rfl
theorem inv1_pos (c : Dev nD) (n : ℕ) (h : n ≤ cfg1.N) (hz : n ≠ 0) :
    inv1 V c n h = iprop(owns (c : Thread nD τ) accM1 fullShare ((traj1 V c (n - 1) (by omega)).2.1) ∗ owns (c : Thread nD τ) sumM1 fullShare ((traj1 V c (n - 1) (by omega)).2.2) ∗ others1 c ∗ (∃ r, prngReg c r)) := by
  cases n with
  | zero => exact absurd rfl hz
  | succ n => rfl

/-- The proof data: the two windows on feat each hold half of the array's share. -/
def dat1 (c : Dev nD) : Dat τ (Elt F) Unit ℕ (UR sig nD τ) ℕ cfg1 c where
  A w := V c (Pipeline.arrRef spec1 w)
  after w t := match w with
    | ⟨0, _⟩ => blkA V c 0 t
    | ⟨1, _⟩ => blkA V c 1 t
    | ⟨2, _⟩ => blkA V c 2 t
    | ⟨3, _⟩ => (traj1 V c t.val t.isLt).1
  Φ t := inv1 V c t.val (Nat.le_of_lt_succ t.isLt)
  q w := match w with
    | ⟨1, _⟩ => fullShare.left
    | ⟨2, _⟩ => fullShare.right
    | _ => fullShare
  owed _ := 0

theorem dat1_A (c : Dev nD) (w : Fin cfg1.W) : (dat1 V c).A w = V c (Pipeline.arrRef spec1 w) := by
  dsimp only [dat1]
theorem inv1_castSucc (c : Dev nD) (t : Fin cfg1.N) :
    (dat1 V c).Φ t.castSucc = inv1 V c t.val (Nat.le_of_lt t.isLt) := by
  dsimp only [dat1]; simp only [Fin.coe_castSucc]
theorem after1_0 (c : Dev nD) (t : Fin cfg1.N) : (dat1 V c).after 0 t = blkA V c 0 t := by dsimp only [dat1]
theorem after1_1 (c : Dev nD) (t : Fin cfg1.N) : (dat1 V c).after 1 t = blkA V c 1 t := by dsimp only [dat1]
theorem after1_2 (c : Dev nD) (t : Fin cfg1.N) : (dat1 V c).after 2 t = blkA V c 2 t := by dsimp only [dat1]
theorem after1_3 (c : Dev nD) (t : Fin cfg1.N) : (dat1 V c).after 3 t = (traj1 V c t.val t.isLt).1 := by dsimp only [dat1]
theorem found1_0 (c : Dev nD) (t : Fin cfg1.N) (d) : (dat1 V c).before 0 t d = blkA V c 0 t :=
  foundA_0 V (dat1 V c) (dat1_A V c 0) (after1_0 V c) t d
theorem found1_1 (c : Dev nD) (t : Fin cfg1.N) (d) : (dat1 V c).before 1 t d = blkA V c 1 t :=
  foundA_1 V (dat1 V c) (dat1_A V c 1) (after1_1 V c) t d
theorem found1_2 (c : Dev nD) (t : Fin cfg1.N) (d) : (dat1 V c).before 2 t d = blkA V c 2 t :=
  foundA_2 V (dat1 V c) (dat1_A V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [found1_0, found1_1, found1_2]
  rw [show (dat1 V c).owesAt () t.succ = (dat1 V c).owesAt () t.castSucc from rfl]
  rw [show (dat1 V c).Φ t.succ = inv1 V c (t.val + 1) t.isLt from rfl, inv1_succ]
  have hN : t.val < 16 := lt_of_lt_of_eq t.isLt (show cfg1.N = 16 from N_1)
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  by_cases h0 : t.val % 4 = 0
  · have h1 : ¬t.val % 4 = 3 := by omega
    rw [Dat.leavesExact_idle (dat1 V c) 3 t (idle1_out t (fun h => h1 ((lastK1_iff t).mp h))) (keep1_out t (fun h => h1 ((lastK1_iff t).mp h)))]
    rw [traj1_first V c t h0 h1]
    unfold accFirst1 sumFirst1; (try dsimp only)
    by_cases hz : t.val = 0
    · rw [inv1_castSucc V c t, inv1_zero V c _ _ hz, restA_eq]
      iintro ⟨⟨HA, HS, HR, Hg⟩, Ho, ⟨%d0, H0⟩, ⟨%d1, H1⟩, ⟨%d2, H2⟩, ⟨%d3, H3⟩⟩
      iapply ((rFirst1 c t ((firstK1_iff t).mpr h0) (fun h => h1 ((lastK1_iff t).mp h)) (blkA V c 0 t) (blkA V c 1 t) (blkA V c 2 t)).2.2 _ Set.univ _)
      isplitl [H0]; · iexact H0
      isplitl [H1]; · iexact H1
      isplitl [H2]; · iexact H2
      isplitl [H3]; · iexact H3
      isplitl [HA]; · iexact HA
      isplitl [HS]; · iexact HS
      iintro ⟨H0, H1, H2, H3, ⟨%ea, HA⟩, ⟨%es, HS⟩⟩
      isplitl [HA HS HR Hg]
      · isplitl [HA]
        · unfold owns; iexists _; isplitr
          swap; · iexact HA
          ipureintro; exact View.read_writes_of_cover _ _ _ _ _ (accCover1First c t _ _ _ _ _ )
        isplitl [HS]
        · unfold owns; iexists _; isplitr
          swap; · iexact HS
          ipureintro; exact View.read_writes_of_cover _ _ _ _ _ (sumCover1First c t _ _ _ _ _ )
        isplitl [HR]; · iexact HR
        iexact Hg
      isplitl [Ho]; · iexact Ho
      isplitl [H0]; · iexact H0
      isplitl [H1]; · iexact H1
      isplitl [H2]; · iexact H2
      iexists _; iexact H3
    · rw [inv1_castSucc V c t, inv1_pos V c _ _ hz]
      iintro ⟨⟨HA, HS, HR, Hg⟩, Ho, ⟨%d0, H0⟩, ⟨%d1, H1⟩, ⟨%d2, H2⟩, ⟨%d3, H3⟩⟩
      iapply ((rFirst1 c t ((firstK1_iff t).mpr h0) (fun h => h1 ((lastK1_iff t).mp h)) (blkA V c 0 t) (blkA V c 1 t) (blkA V c 2 t)).2.2 _ Set.univ _)
      isplitl [H0]; · iexact H0
      isplitl [H1]; · iexact H1
      isplitl [H2]; · iexact H2
      isplitl [H3]; · iexact H3
      isplitl [HA]; · iexists _; iexact HA
      isplitl [HS]; · iexists _; iexact HS
      iintro ⟨H0, H1, H2, H3, ⟨%ea, HA⟩, ⟨%es, HS⟩⟩
      isplitl [HA HS HR Hg]
      · isplitl [HA]
        · unfold owns; iexists _; isplitr
          swap; · iexact HA
          ipureintro; exact View.read_writes_of_cover _ _ _ _ _ (accCover1First c t _ _ _ _ _ )
        isplitl [HS]
        · unfold owns; iexists _; isplitr
          swap; · iexact HS
          ipureintro; exact View.read_writes_of_cover _ _ _ _ _ (sumCover1First c t _ _ _ _ _ )
        isplitl [HR]; · iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 = 3
    · rw [show (dat1 V c).leavesExact 3 t = owns (c : Thread nD τ) (ms1_3 t) fullShare ((dat1 V c).after 3 t) from by
        unfold Dat.leavesExact; rw [live1_out t ((lastK1_iff t).mpr h1)], after1_3]
      rw [traj1_last V c t h0 h1]
      unfold outLast1 accLast1 sumLast1; (try dsimp only)
      rw [inv1_castSucc V c t, inv1_pos V c _ _ hz]
      iintro ⟨⟨HA, HS, HR, Hg⟩, Ho, ⟨%d0, H0⟩, ⟨%d1, H1⟩, ⟨%d2, H2⟩, ⟨%d3, H3⟩⟩
      iapply ((rLast1 c t (fun h => h0 ((firstK1_iff t).mp h)) ((lastK1_iff t).mpr h1) (blkA V c 0 t) (blkA V c 1 t) (blkA V c 2 t) _ _).2.2.2 Set.univ _)
      isplitl [H0]; · iexact H0
      isplitl [H1]; · iexact H1
      isplitl [H2]; · iexact H2
      isplitl [H3]; · iexists _; iexact H3
      isplitl [HA]; · iexact HA
      isplitl [HS]; · iexact HS
      iintro ⟨H0, H1, H2, ⟨%eo, H3⟩, ⟨%ea, HA⟩, ⟨%es, HS⟩⟩
      isplitl [HA HS HR Hg]
      · isplitl [HA]
        · unfold owns; iexists _; isplitr
          swap; · iexact HA
          ipureintro; exact View.read_writes_of_cover _ _ _ _ _ (accCover1Last c t _ _ _ _ _ _ _ )
        isplitl [HS]
        · unfold owns; iexists _; isplitr
          swap; · iexact HS
          ipureintro; exact View.read_writes_of_cover _ _ _ _ _ (sumCover1Last c t _ _ _ _ _ _ _ )
        isplitl [HR]; · iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outCover1Last c t _ _ _ _ _ _ _)
    · rw [Dat.leavesExact_idle (dat1 V c) 3 t (idle1_out t (fun h => h1 ((lastK1_iff t).mp h))) (keep1_out t (fun h => h1 ((lastK1_iff t).mp h)))]
      rw [traj1_mid V c t h0 h1]
      unfold accMid1 sumMid1; (try dsimp only)
      rw [inv1_castSucc V c t, inv1_pos V c _ _ hz]
      iintro ⟨⟨HA, HS, HR, Hg⟩, Ho, ⟨%d0, H0⟩, ⟨%d1, H1⟩, ⟨%d2, H2⟩, ⟨%d3, H3⟩⟩
      iapply ((rMid1 c t (fun h => h0 ((firstK1_iff t).mp h)) (fun h => h1 ((lastK1_iff t).mp h)) (blkA V c 0 t) (blkA V c 1 t) (blkA V c 2 t) _ _).2.2 _ Set.univ _)
      isplitl [H0]; · iexact H0
      isplitl [H1]; · iexact H1
      isplitl [H2]; · iexact H2
      isplitl [H3]; · iexact H3
      isplitl [HA]; · iexact HA
      isplitl [HS]; · iexact HS
      iintro ⟨H0, H1, H2, H3, ⟨%ea, HA⟩, ⟨%es, HS⟩⟩
      isplitl [HA HS HR Hg]
      · isplitl [HA]
        · unfold owns; iexists _; isplitr
          swap; · iexact HA
          ipureintro; exact View.read_writes_of_cover _ _ _ _ _ (accCover1Mid c t _ _ _ _ _ _ _ )
        isplitl [HS]
        · unfold owns; iexists _; isplitr
          swap; · iexact HS
          ipureintro; exact View.read_writes_of_cover _ _ _ _ _ (sumCover1Mid c t _ _ _ _ _ _ _ )
        isplitl [HR]; · iexact HR
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

theorem inv1_in (c : Dev nD) : Pipeline.ΦA spec1 c ⊢ (dat1 V c).Φ 0 := by
  rw [show (dat1 V c).Φ 0 = inv1 V c 0 (Nat.zero_le _) from rfl, inv1_zero V c 0 _ rfl]
  try exact Idealize.SL.BI.Entails.refl _

theorem inv1_out (c : Dev nD) : (dat1 V c).Φ (Fin.last cfg1.N) ⊢ Pipeline.ΦA spec1 c := by
  rw [show (dat1 V c).Φ (Fin.last cfg1.N) = inv1 V c (Fin.last cfg1.N).val (Nat.le_of_lt_succ (Fin.last cfg1.N).isLt) from rfl,
    inv1_pos V c _ _ (by rw [Fin.val_last]; have : cfg1.N = 16 := N_1; omega), restA_eq]
  iintro ⟨HA, HS, HR, Hg⟩
  isplitl [HA]; · iexists _; iexact HA
  isplitl [HS]; · iexists _; iexact HS
  isplitl [HR]; · iexact HR
  iexact Hg

end

end Cert.KernelIdeal.Frm

end
-- ==== Proof.Ideal.Whole.lean ====
/-
  The whole program: the host operations that build the attention input, then the two kernel regions. The contents
  of every unscoped buffer at each boundary — the launch memory, after the host operations, after the first region
  (feat written), after the second (the result written) —, the two regions' proof data at their entry contents, each
  region as a segment of the run between those boundaries, and the run: every weakly fair execution terminates with
  every unscoped buffer at the last boundary's contents. The second region reads feat through two windows; the array
  is split into two half shares at its entry and joined again at its exit.
-/
import proofs.«157057_j38895223832723_2_alg».proof.Proof.Ideal.Region0
import proofs.«157057_j38895223832723_2_alg».proof.Proof.Ideal.Region1
import proofs.«157057_j38895223832723_2_alg».proof.Proof.Gen.KernelIdeal.Regions

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents at the boundaries -/

/-- After the host operations (the first region's entry), read at the TensorCore's references. -/
abbrev arr1 : (c : Dev nD) → (b : Ref sig .tc) → Buf (Elt F) ((c : Thread nD τ).loc b) := fun c b => Gen.V1 m c b
/-- After the first region: its arrays at what the pipeline leaves, every other buffer as entered. -/
def mem2 (c : Dev nD) : Valuation τ sig (Elt F) :=
  Pipeline.withArrays spec0 c (Gen.V1 m c) fun w => (dat0 (arr1 m) c).arrAt w cfg0.N
theorem mem2_arr (c : Dev nD) (w : Fin cfg0.W) :
    mem2 m c (Proc.devRef .tc (Pipeline.arrRef spec0 w)) = (dat0 (arr1 m) c).arrAt w cfg0.N := by
  unfold mem2; exact Pipeline.withArrays_arr spec0 launch0.win.arr_inj c _ _ w
theorem mem2_of_ne (c : Dev nD) (b : Ref sig .tc) (hb : ∀ w, Pipeline.arrRef spec0 w ≠ b) :
    mem2 m c (Proc.devRef .tc b) = Gen.V1 m c (Proc.devRef .tc b) := by
  unfold mem2; exact Pipeline.withArrays_of_ne spec0 c _ _ b hb
abbrev arr2 : (c : Dev nD) → (b : Ref sig .tc) → Buf (Elt F) ((c : Thread nD τ).loc b) := fun c b => mem2 m c b
theorem exitP_arr (c : Dev nD) (w : Fin cfg0.W) : (dat0 (arr1 m) c).arrAt w cfg0.N = arr2 m c (Pipeline.arrRef spec0 w) :=
  (mem2_arr m c w).symm
theorem exitP_rest (c : Dev nD) : ∀ b, b ∉ Finset.univ.image (Pipeline.arrRef spec0) → arr2 m c b = arr1 m c b :=
  fun b hb => mem2_of_ne m c b fun w e => hb (Finset.mem_image.mpr ⟨w, Finset.mem_univ _, e⟩)

/-- After the second region: the result array at what the pipeline leaves; the region's other arrays are inputs. -/
def mem3 (c : Dev nD) : Valuation τ sig (Elt F) :=
  Function.update (mem2 m c) (Proc.devRef .tc main_v0) ((dat1 (arr2 m) c).arrAt 3 cfg1.N)
theorem mem3_out (c : Dev nD) : mem3 m c (Proc.devRef .tc main_v0) = (dat1 (arr2 m) c).arrAt 3 cfg1.N := by
  unfold mem3; exact Function.update_self ..
theorem mem3_of_ne (c : Dev nD) (b : Ref sig .tc) (hb : b ≠ main_v0) :
    mem3 m c (Proc.devRef .tc b) = mem2 m c (Proc.devRef .tc b) := by
  unfold mem3; exact Function.update_of_ne (StableHlo.devRef_ne_of_ne hb) _ _
abbrev arr3 : (c : Dev nD) → (b : Ref sig .tc) → Buf (Elt F) ((c : Thread nD τ).loc b) := fun c b => mem3 m c b
theorem exitA_arr (c : Dev nD) (w : Fin cfg1.W) : (dat1 (arr2 m) c).arrAt w cfg1.N = arr3 m c (Pipeline.arrRef spec1 w) := by
  match w with
  | ⟨0, _⟩ => exact (((dat1 (arr2 m) c).arrAt_in 0 rfl _).trans (dat1_A (arr2 m) c 0)).trans (mem3_of_ne m c _ (by decide)).symm
  | ⟨1, _⟩ => exact (((dat1 (arr2 m) c).arrAt_in 1 rfl _).trans (dat1_A (arr2 m) c 1)).trans (mem3_of_ne m c _ (by decide)).symm
  | ⟨2, _⟩ => exact (((dat1 (arr2 m) c).arrAt_in 2 rfl _).trans (dat1_A (arr2 m) c 2)).trans (mem3_of_ne m c _ (by decide)).symm
  | ⟨3, _⟩ => exact (mem3_out m c).symm
theorem exitA_rest (c : Dev nD) : ∀ b, b ∉ Finset.univ.image (Pipeline.arrRef spec1) → arr3 m c b = arr2 m c b :=
  fun b hb => mem3_of_ne m c b fun e => hb (Finset.mem_image.mpr ⟨3, Finset.mem_univ _, e.symm⟩)

/-! ## No argument is written -/

theorem mem3_main_arg0 (c : Dev nD) : mem3 m c (Proc.devRef .tc main_arg0) = m ((c : Thread nD τ).loc main_arg0) :=
  calc mem3 m c (Proc.devRef .tc main_arg0)
    _ = mem2 m c (Proc.devRef .tc main_arg0) := mem3_of_ne m c main_arg0 (by decide)
    _ = Gen.V1 m c (Proc.devRef .tc main_arg0) := mem2_of_ne m c main_arg0 (by decide)
    _ = Gen.V0 m c (Proc.devRef .tc main_arg0) := Gen.V1_of m c main_arg0 (by decide)
    _ = m ((c : Thread nD τ).loc main_arg0) := rfl
theorem mem3_main_arg1 (c : Dev nD) : mem3 m c (Proc.devRef .tc main_arg1) = m ((c : Thread nD τ).loc main_arg1) :=
  calc mem3 m c (Proc.devRef .tc main_arg1)
    _ = mem2 m c (Proc.devRef .tc main_arg1) := mem3_of_ne m c main_arg1 (by decide)
    _ = Gen.V1 m c (Proc.devRef .tc main_arg1) := mem2_of_ne m c main_arg1 (by decide)
    _ = Gen.V0 m c (Proc.devRef .tc main_arg1) := Gen.V1_of m c main_arg1 (by decide)
    _ = m ((c : Thread nD τ).loc main_arg1) := rfl
theorem mem3_main_arg2 (c : Dev nD) : mem3 m c (Proc.devRef .tc main_arg2) = m ((c : Thread nD τ).loc main_arg2) :=
  calc mem3 m c (Proc.devRef .tc main_arg2)
    _ = mem2 m c (Proc.devRef .tc main_arg2) := mem3_of_ne m c main_arg2 (by decide)
    _ = Gen.V1 m c (Proc.devRef .tc main_arg2) := (mem2_arr m c 1).trans (((dat0 (arr1 m) c).arrAt_in 1 rfl _).trans (dat0_A (arr1 m) c 1))
    _ = Gen.V0 m c (Proc.devRef .tc main_arg2) := Gen.V1_of m c main_arg2 (by decide)
    _ = m ((c : Thread nD τ).loc main_arg2) := rfl
theorem mem3_main_arg3 (c : Dev nD) : mem3 m c (Proc.devRef .tc main_arg3) = m ((c : Thread nD τ).loc main_arg3) :=
  calc mem3 m c (Proc.devRef .tc main_arg3)
    _ = mem2 m c (Proc.devRef .tc main_arg3) := mem3_of_ne m c main_arg3 (by decide)
    _ = Gen.V1 m c (Proc.devRef .tc main_arg3) := mem2_of_ne m c main_arg3 (by decide)
    _ = Gen.V0 m c (Proc.devRef .tc main_arg3) := Gen.V1_of m c main_arg3 (by decide)
    _ = m ((c : Thread nD τ).loc main_arg3) := rfl
theorem mem3_main_arg4 (c : Dev nD) : mem3 m c (Proc.devRef .tc main_arg4) = m ((c : Thread nD τ).loc main_arg4) :=
  calc mem3 m c (Proc.devRef .tc main_arg4)
    _ = mem2 m c (Proc.devRef .tc main_arg4) := mem3_of_ne m c main_arg4 (by decide)
    _ = Gen.V1 m c (Proc.devRef .tc main_arg4) := (mem2_arr m c 0).trans (((dat0 (arr1 m) c).arrAt_in 0 rfl _).trans (dat0_A (arr1 m) c 0))
    _ = Gen.V0 m c (Proc.devRef .tc main_arg4) := Gen.V1_of m c main_arg4 (by decide)
    _ = m ((c : Thread nD τ).loc main_arg4) := rfl

/-! ## One array behind two windows: half a share each -/

/-- The buffers behind the second kernel's windows are three: the attention input, feat, the result. -/
theorem arrBufs1_eq {c : Dev nD} (Vv : (b : Ref sig .tc) → Buf (Elt F) ((c : Thread nD τ).loc b)) :
    (Pipeline.arrBufs spec1 c Vv : sProp 𝕄)
      = iprop((((c : Thread nD τ).loc main_call0_v35) ↦{fullShare} Vv main_call0_v35) ∗ (((c : Thread nD τ).loc main_call0_v36) ↦{fullShare} Vv main_call0_v36)
          ∗ (((c : Thread nD τ).loc main_v0) ↦{fullShare} Vv main_v0)) := by
  unfold Pipeline.arrBufs
  rw [show (Finset.univ.image (Pipeline.arrRef spec1)) = {main_call0_v35, main_call0_v36, main_v0} from by decide]
  rw [bigSep_insert (by decide), bigSep_insert (by decide), bigSep_singleton]
  rfl

section TwoWindows
variable {c : Dev nD} (dat : Dat τ (Elt F) Unit ℕ (UR sig nD τ) ℕ cfg1 c)
  (hs0 : dat.share 0 = fullShare) (hs1 : dat.share 1 = fullShare.left) (hs2 : dat.share 2 = fullShare.right) (hs3 : dat.share 3 = fullShare)
  (Vv : (b : Ref sig .tc) → Buf (Elt F) ((c : Thread nD τ).loc b))
  (G : (w : Fin cfg1.W) → Buf (Elt F) ((cfg1.win w).arr.view.loc (c : Thread nD τ)))
  (hG : ∀ w, G w = Vv (Pipeline.arrRef spec1 w))

include hs0 hs1 hs2 hs3 hG in
/-- The three buffers behind the second kernel's four windows, each whole, are its windows' arrays: feat's buffer is
    split into the halves its two windows hold. -/
theorem arrays1_of_bufs : (Pipeline.arrBufs spec1 c Vv : sProp 𝕄) ⊢ dat.arrays G := by
  rw [arrBufs1_eq]
  unfold Dat.arrays
  rw [bigSep_W1]
  rw [(arr_whole1 0).set_eq_univ, (arr_whole1 1).set_eq_univ, (arr_whole1 3).set_eq_univ, hs0, hs1, hs2, hs3, hG 0, hG 1, hG 2, hG 3]
  iintro ⟨Ha, Hf, Ho⟩
  ihave Hf' := (pointsTo_share (PosShare.mem_left_op_right fullShare)).1 $$ Hf
  icases Hf' with ⟨Hl, Hr⟩
  isplitl [Ha]; · iexact Ha
  isplitl [Hl]; · iexact Hl
  isplitl [Hr]; · iexact Hr
  iexact Ho

include hs0 hs1 hs2 hs3 hG in
/-- And back: the two halves of feat's buffer join. -/
theorem bufs_of_arrays1 : dat.arrays G ⊢ (Pipeline.arrBufs spec1 c Vv : sProp 𝕄) := by
  rw [arrBufs1_eq]
  unfold Dat.arrays
  rw [bigSep_W1]
  rw [(arr_whole1 0).set_eq_univ, (arr_whole1 1).set_eq_univ, (arr_whole1 3).set_eq_univ, hs0, hs1, hs2, hs3, hG 0, hG 1, hG 2, hG 3]
  iintro ⟨Ha, Hl, Hr, Ho⟩
  isplitl [Ha]; · iexact Ha
  isplitl [Hl Hr]
  · iapply (pointsTo_share (PosShare.mem_left_op_right fullShare)).2
    isplitl [Hl]; · iexact Hl
    iexact Hr
  iexact Ho

end TwoWindows

theorem share1_0 (V) (c : Dev nD) : (dat1 (F := F) V c).share 0 = fullShare := rfl
theorem share1_1 (V) (c : Dev nD) : (dat1 (F := F) V c).share 1 = fullShare.left := rfl
theorem share1_2 (V) (c : Dev nD) : (dat1 (F := F) V c).share 2 = fullShare.right := rfl
theorem share1_3 (V) (c : Dev nD) : (dat1 (F := F) V c).share 3 = fullShare := rfl

/-! ## The proof data family and the thread state -/

def pdats : (p : Fin 2) → (c : Dev nD) → Dat τ (Elt F) Unit ℕ (UR sig nD τ) ℕ (Pipeline.pin (pcfgs (F := F)) Gen.adm p) c
  | ⟨0, _⟩ => fun c => dat0 (arr1 m) c
  | ⟨1, _⟩ => fun c => dat1 (arr2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (mem3 m c) ∗ ∃ r, prngReg c r)

/-! ## The regions as segments -/

set_option backward.isDefEq.respectTransparency.types false in
/-- The first region: entered from every unscoped buffer as the host operations leave it, left with feat written. -/
def regP : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (arr1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (mem2 m c) ∗ R c)
  X c := iprop(∃ r, prngReg c r)
  Y c := iprop(∃ r, prngReg c r)
  Z c := Pipeline.unscopedRest (Ix := Unit) (Name := ℕ) (U := UR sig nD τ) (Lvl := ℕ) spec0 c (arr1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (arr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (inv0_in (arr1 m) c)
    unfold Pipeline.ΦA
    iintro ⟨Hp, -, Hr⟩
    isplitl [Hr]; · iexact Hr
    iexact Hp
  hout c := by
    rw [Pipeline.ownSems0_none]
    refine BIBase.Entails.trans (inv0_out (arr1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (arr1 m c) (arr2 m c) ((pdats m 0 c).arrAt · cfg0.N) (exitP_arr m c) (exitP_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The second region's entry: every unscoped buffer at the first region's exit contents is the second kernel's
    arrays (feat's buffer halved between its two windows) and the rest. -/
theorem entryA (c : Dev nD) :
    (StableHlo.held (c : Thread nD τ) (Pipeline.ucRefs τ sig) (mem2 m c) : sProp 𝕄)
      ⊢ iprop((dat1 (arr2 m) c).arrays (dat1 (arr2 m) c).A ∗ Pipeline.unscopedRest spec1 c (arr2 m c)) := by
  rw [← Pipeline.unscopedBufs_held c (mem2 m c), Pipeline.unscopedBufs_split₀ cfgs 1 winFacts₀1.arr_unscoped c (arr2 m c)]
  exact sep_mono (arrays1_of_bufs (dat1 (arr2 m) c) (share1_0 _ c) (share1_1 _ c) (share1_2 _ c) (share1_3 _ c) (arr2 m c) _ (dat1_A (arr2 m) c)) .rfl

/-- Its exit: the arrays at their final contents and the rest are every unscoped buffer at the last boundary's contents. -/
theorem exitA (c : Dev nD) :
    iprop((dat1 (arr2 m) c).arrays ((dat1 (arr2 m) c).arrAt · cfg1.N) ∗ Pipeline.unscopedRest spec1 c (arr2 m c))
      ⊢ (StableHlo.held (c : Thread nD τ) (Pipeline.ucRefs τ sig) (mem3 m c) : sProp 𝕄) := by
  rw [← Pipeline.unscopedBufs_held c (mem3 m c), Pipeline.unscopedBufs_split₀ cfgs 1 winFacts₀1.arr_unscoped c (arr3 m c)]
  refine sep_mono (bufs_of_arrays1 (dat1 (arr2 m) c) (share1_0 _ c) (share1_1 _ c) (share1_2 _ c) (share1_3 _ c) (arr3 m c) _ (exitA_arr m c)) (Entails.of_eq ?_)
  unfold Pipeline.unscopedRest
  exact bigSep_congr fun b hb => by rw [exitA_rest m c b (Finset.mem_sdiff.mp hb).2]

set_option backward.isDefEq.respectTransparency.types false in
/-- The second region: entered from the first region's exit contents, left with the result written. -/
def regA : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (arr2 m) c).loose
  hwaits := Pipeline.hwaits_of_owed_zero _ _ _ _ L lv 1 fun _ _ => rfl
  pre c := iprop(StableHlo.held (c : Thread nD τ) (Pipeline.ucRefs τ sig) (mem2 m c) ∗ R c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (arr2 m c)
  hentry c := by
    rw [Pipeline.ownSems0_none]
    iintro ⟨⟨Hub, Hp, HO⟩, -, -⟩
    ihave H := (entryA m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (inv1_in (arr2 m) c)
    unfold Pipeline.ΦA
    iintro ⟨Hp, -, Hr⟩
    isplitl [Hr]; · iexact Hr
    iexact Hp
  hout c := by
    rw [Pipeline.ownSems0_none]
    refine BIBase.Entails.trans (inv1_out (arr2 m) c) ?_
    unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest (Ix := Unit) (Name := ℕ) (U := UR sig nD τ) (Lvl := ℕ) spec1 c (arr2 m c))
        ⊢ (StableHlo.held (c : Thread nD τ) (Pipeline.ucRefs τ sig) (mem3 m c) : sProp 𝕄) := exitA m c
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev parts : List (Pipeline.Seg (pcfgs (F := F)) Gen.adm (pdats m) () defs₀ 𝒱₀ L lv) :=
  [ .host (hseg hostOps0 hostOps0_sub Gen.hostOps0_fresh (Gen.V0 m)),
    .region (regP m),
    .region (regA m) ]
theorem main_parts (c : Dev nD) : main (F := F) c = Pipeline.Seg.run (parts m) := (main_chain c).trans (by chain_rfl)

set_option backward.isDefEq.respectTransparency.types false in
/-- Every weakly fair execution of the program from memory `m` with zero counters terminates, faulting nowhere, with
    every unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = mem3 m c b) :=
  Pipeline.θ_run_regions_kit (pcfgs (F := F)) Gen.adm (pdats m) () cellOf_inj emb₁ defs₀ 𝒱₀ L lv m ρ main (parts m)
    (fun c Q => by rw [main_parts m c])
    (by simp only [parts, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tend m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = mem3 m c b)
    (hfin := fun c s' => by
      iintro ⟨⟨Hh, -⟩, HSI⟩
      unfold StableHlo.held
      imodintro
      iapply (pointsTo_read_all (Pipeline.ucRefs τ sig) (fun b => (((c : Thread nD τ)).1, b)) (mem3 m c) s')
      isplitl [Hh] <;> iassumption)
    (hQ := fun s h c => h c)

/-- The run read at the program's arguments and result: the arguments end as launched, and the result array holds
    what the second region's write-backs leave. -/
theorem run_result (ρ : Dev nD → PrngReg) : θ_run defs (onTc (τ := τ) (main (F := F))) ⟨m, fun _ => 0, ρ⟩ (fun r => ∀ c : Dev nD,
      r.2.mem ((c.tc : Thread nD τ).loc main_v0) = (dat1 (arr2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v0 (by decide))).trans (mem3_out m c),
     (h c _ (mem_uc main_arg0 (by decide))).trans (mem3_main_arg0 m c),
     (h c _ (mem_uc main_arg1 (by decide))).trans (mem3_main_arg1 m c),
     (h c _ (mem_uc main_arg2 (by decide))).trans (mem3_main_arg2 m c),
     (h c _ (mem_uc main_arg3 (by decide))).trans (mem3_main_arg3 m c),
     (h c _ (mem_uc main_arg4 (by decide))).trans (mem3_main_arg4 m c)⟩) (run_all m ρ)

/-- The frame: the arguments end as launched. -/
theorem frame_all (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_result m ρ)

end Cert.KernelIdeal.Frm

end
-- ==== Proof.Ideal.Vals0.lean ====
/-
  What the first kernel's three runs leave, read back as values: at k = 0 the accumulator is cleared and one block
  product added; at k = 1, 2 one block product is added to what the point before left; at k = 3 the same, and the
  output window receives the accumulator's new content.
-/
import proofs.«157057_j38895223832723_2_alg».proof.Proof.Ideal.Region0
import Idealize.ShloMosaic.Lib.Pipeline.Value

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz : (![0, 0] : Fin 2 → Nat) = fun _ => 0 := funext fun a => by fin_cases a <;> rfl

theorem accMid0_eq (c : Dev nD) (t : Fin cfg0.N) (h0 : ¬firstK0 (grid0.coords t)) (h1 : ¬lastK0 (grid0.coords t))
    (x0 : Vec F S1024x1024 .f32) (x1 : Vec F S1024x128 .f32) (xa : Vec F S1024x128 .f32) :
    accMid0 c t h0 h1 x0 x1 xa = k0_pay2 xa x0 x1 := by
  unfold accMid0
  rw [View.read_writes_eq_canon _ _ _ (accCover0Mid c t h0 h1 x0 x1 xa)]
  unfold rMid0 run0Mid
  dsimp only
  rw [View.canon_unit_zero (S := S1024x128) hz]
  simp only [View.readAt_eq_ld, (hs0_0 t).read_unread, (hs0_1 t).read_unread, (Memref.isWhole_whole cc0_scratch0).read_unread, View.ld_unit_zero (S := S1024x128) hz, View.ld_unit_zero (S := S1024x1024) hz]

theorem accFirst0_eq (c : Dev nD) (t : Fin cfg0.N) (h0 : firstK0 (grid0.coords t)) (h1 : ¬lastK0 (grid0.coords t))
    (x0 : Vec F S1024x1024 .f32) (x1 : Vec F S1024x128 .f32) :
    accFirst0 c t h0 h1 x0 x1 = k0_pay2 k0_pay1 x0 x1 := by
  unfold accFirst0
  rw [View.read_writes_eq_canon _ _ _ (accCover0First c t h0 h1 x0 x1)]
  unfold rFirst0 run0First
  dsimp only
  sl_unfold_words
  rw [View.canon_cons_unit_zero (S := S1024x128) hz, View.readCov_unit_zero (S := S1024x128) _ hz]
  simp only [View.readAt_eq_ld, (hs0_0 t).read_unread, (hs0_1 t).read_unread, (Memref.isWhole_whole cc0_scratch0).read_unread, View.ld_unit_zero (S := S1024x128) hz, View.ld_unit_zero (S := S1024x1024) hz]

theorem accLast0_eq (c : Dev nD) (t : Fin cfg0.N) (h0 : ¬firstK0 (grid0.coords t)) (h1 : lastK0 (grid0.coords t))
    (x0 : Vec F S1024x1024 .f32) (x1 : Vec F S1024x128 .f32) (xa : Vec F S1024x128 .f32) :
    accLast0 c t h0 h1 x0 x1 xa = k0_pay2 xa x0 x1 := by
  unfold accLast0
  rw [View.read_writes_eq_canon _ _ _ (accCover0Last c t h0 h1 x0 x1 xa)]
  unfold rLast0 run0Last
  dsimp only
  sl_unfold_words
  rw [View.canon_unit_zero (S := S1024x128) hz]
  simp only [View.readAt_eq_ld, (hs0_0 t).read_unread, (hs0_1 t).read_unread, (Memref.isWhole_whole cc0_scratch0).read_unread, View.ld_unit_zero (S := S1024x128) hz, View.ld_unit_zero (S := S1024x1024) hz]

theorem outLast0_eq (c : Dev nD) (t : Fin cfg0.N) (h0 : ¬firstK0 (grid0.coords t)) (h1 : lastK0 (grid0.coords t))
    (x0 : Vec F S1024x1024 .f32) (x1 : Vec F S1024x128 .f32) (xa : Vec F S1024x128 .f32) :
    outLast0 c t h0 h1 x0 x1 xa = k0_pay2 xa x0 x1 := by
  unfold outLast0
  rw [View.read_writes_eq_canon _ _ _ (outCover0Last c t h0 h1 x0 x1 xa)]
  unfold rLast0 run0Last
  dsimp only
  sl_unfold_words
  rw [View.canon_unit_zero (S := S1024x128) hz, View.readCov_unit_zero (S := S1024x128) _ hz]
  simp only [View.readAt_eq_ld, (hs0_0 t).read_unread, (hs0_1 t).read_unread, (Memref.isWhole_whole cc0_scratch0).read_unread, View.ld_unit_zero (S := S1024x128) hz, View.ld_unit_zero (S := S1024x1024) hz]

end Cert.KernelIdeal.Frm

end
-- ==== Proof.LibPlainDot.lean ====
/-
  A general lemma file: the plain matrix product M×K by K×N read at an entry, at the ideal values.

  A `tpu.matmul` into the zero accumulator, and the host's `dot_general`, whose dimension numbers contract the left
  operand's second axis with the right operand's first (no batch axis) are, at entry `(i, j)`, the sum over
  `k : Fin K` of `L (i, k) * R (k, j)`. Stated for any dimension record EQUAL to `DotDims.plain M K N` (a printed
  program's record with these dimension numbers is, by `rfl`), for any extents and operand formats.
-/
import Idealize.ShloMosaic.Lib.ValueIdx
import Idealize.ShloMosaic.PureOps.Ideal.Laws

noncomputable section

open scoped BigOperators

namespace Cert.PlainDot

open Idealize.ShloMosaic Idealize.ShloMosaic.ValueIdx

variable (M K N : ℕ)

/-- The left operand's index at result index `j` and contraction index `q` has `j`'s row … -/
theorem lhs0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- … and the contraction coordinate as its column. -/
theorem lhs1 (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's index has the contraction coordinate as its row … -/
theorem rhs0 (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- … and `j`'s column. -/
theorem rhs1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

variable {M K N}

/-- The contraction's sum over its index type is the sum over `k : Fin K` of the operands at `(i, k)` and `(k, j)`. -/
theorem sum_contr {φ₁ φ₂ : FTy} (L : FVec Ideal ⟨2, ![M, K]⟩ φ₁) (R : FVec Ideal ⟨2, ![K, N]⟩ φ₂) (i : Fin M) (j : Fin N) :
    ∑ q : (DotDims.plain M K N).contr.Idx,
        L ((DotDims.plain M K N).lhsIdx (ix2 i j) q) * R ((DotDims.plain M K N).rhsIdx (ix2 i j) q)
      = ∑ k : Fin K, L (ix2 i k) * R (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs0 M K N _ _
      | ⟨1, _⟩ => exact (lhs1 M K N _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs0 M K N _ _).trans hk
      | ⟨1, _⟩ => exact rhs1 M K N _ _)
  rw [el, er]

/-- A `tpu.matmul` with these dimension numbers into the zero splat, read at `(i, j)`. -/
theorem matmul_zero_apply {φ₁ φ₂ : FTy} (d : DotDims ⟨2, ![M, K]⟩ ⟨2, ![K, N]⟩ ⟨2, ![M, N]⟩) (hd : d = DotDims.plain M K N)
    (prec : Option ContractPrecision) (L : FVec Ideal ⟨2, ![M, K]⟩ φ₁) (R : FVec Ideal ⟨2, ![K, N]⟩ φ₂) (i : Fin M) (j : Fin N) :
    matmul d prec L R (constant (F := Ideal) ⟨2, ![M, N]⟩ .f32 0x00000000#32) (ix2 i j) = ∑ k : Fin K, L (ix2 i k) * R (ix2 k j) := by
  subst hd
  show FloatOps.matmul (DotDims.plain M K N) prec L R (constant ⟨2, ![M, N]⟩ .f32 0x00000000#32) (ix2 i j) = _
  rw [Ideal.matmul_constant_zero_apply]
  exact sum_contr L R i j

/-- The host's `dot_general` with these dimension numbers, read at `(i, j)`. -/
theorem hostDot_apply {φ₁ φ₂ : FTy} (d : DotDims ⟨2, ![M, K]⟩ ⟨2, ![K, N]⟩ ⟨2, ![M, N]⟩) (hd : d = DotDims.plain M K N)
    (prec : Option ContractPrecision) (L : FVec Ideal ⟨2, ![M, K]⟩ φ₁) (R : FVec Ideal ⟨2, ![K, N]⟩ φ₂) (i : Fin M) (j : Fin N) :
    Host.dotGeneral (F := Ideal) d prec L R (ix2 i j) = ∑ k : Fin K, L (ix2 i k) * R (ix2 k j) := by
  subst hd
  simp only [Host.dotGeneral]
  rw [Ideal.dotGeneral_apply]
  exact sum_contr L R i j

end Cert.PlainDot

end
-- ==== Proof.LibRowSums.lean ====
/-
  A sum along the rows of a matrix, read at a row.

  A kernel that reduces a `[a, b]` block along its second axis (a per-row sum: the numerator of a row mean, of a row
  variance, of a row norm) gets an `[a]` vector whose entry `p` is the sum over `k` of the block at `(p, k)`. The lemma
  says so for any extents, with the indices written by coordinates, for a single-precision sum started from the zero
  word.
-/
import Idealize.ShloMosaic.PureOps.Ideal.Laws
import Idealize.ShloMosaic.Lib.ValueIdx

noncomputable section

open scoped BigOperators

namespace Cert.RowSums

open Idealize.ShloMosaic Idealize.ShloMosaic.ValueIdx

/-- An `[a, b]` array of single-precision values summed along its second axis into `[a]`, starting from the zero word,
    reads at `p` the sum over `k : Fin b` of the array at `(p, k)`. The hypothesis on the start word is typed as a printed
    program spells its proof (the word equal to itself). -/
theorem multiReduction_add_rows_apply {a b : ℕ} (v : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (p : Fin a) :
    multiReduction .add [1] ⟨1, ![a]⟩ v 0x00000000#32 h hφ hacc (ix1 p) = ∑ k : Fin b, v (ix2 p k) := by
  refine (Ideal.multiReduction_add_single v 0x00000000#32 h hφ hacc (ix1 p)).trans ?_
  exact Finset.sum_congr rfl fun k _ => congrArg v (funext fun c => Fin.ext (by
    match c with
    | ⟨0, _⟩ => rfl
    | ⟨1, _⟩ => rfl))

end Cert.RowSums

end
-- ==== Proof.LibColumnLayouts.lean ====
/-
  Casts and broadcasts through a TRAILING unit axis, read at an index written by coordinates.

  A reduction that keeps its dimension, or a per-row scalar spread along a row, goes through shapes with a unit axis
  at the END: `[a] → [a, 1] → [a, b]` and `[a, b] → [a, b, 1] → [a, b, c]`. Each lemma below says which entry of the
  operand a cast or broadcast of that family reads, for any extents; the last one is a `[1, 1, c]` row spread over
  both leading axes. All are instances of the library's general reading of a shape cast (same row-major position)
  and of a broadcast (the operand at the trailing coordinates, `0` on its unit axes).
-/
import Idealize.ShloMosaic.Lib.Pipeline.Value
import Idealize.ShloMosaic.Lib.ValueIdx

noncomputable section

namespace Cert.ColumnLayouts

open Idealize.ShloMosaic Idealize.ShloMosaic.ValueIdx

variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(p, s, k)`, the operand at `(p, s, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (s : Fin b) (k : Fin c) :
    broadcastTo ⟨3, ![a, b, c]⟩ v h (ix3 p s k) = v (ix3 p s (0 : Fin 1)) := by
  refine broadcastTo_apply v h (ix3 p s k) (ix3 p s (0 : Fin 1)) fun ax => ?_
  match ax with
  | ⟨0, _⟩ =>
    show p.val = if a = 1 then 0 else p.val
    split
    · have := p.isLt; omega
    · rfl
  | ⟨1, _⟩ =>
    show s.val = if b = 1 then 0 else s.val
    split
    · have := s.isLt; omega
    · rfl
  | ⟨2, _⟩ => rfl

/-- A `[1, 1, c]` row broadcast to `[a, b, c]` reads, at `(p, s, k)`, the row's entry `k`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (s : Fin b) (k : Fin c) :
    broadcastTo ⟨3, ![a, b, c]⟩ v h (ix3 p s k) = v (ix3 (0 : Fin 1) (0 : Fin 1) k) := by
  refine broadcastTo_apply v h (ix3 p s k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.ColumnLayouts

end
-- ==== Proof.PayReads.lean ====
/-
  The kernel bodies' arithmetic at the ideal values, read entry by entry. The first kernel's accumulation step is
  acc + (block of W) · (block of af); the second kernel's are acc + (block of att) · (block of feat) and
  rowsum + (row sums of the block of att); its last step divides the accumulated products by the accumulated row sum
  plus ε and adds the row block of feat. A change of float format is the identity here, the matrix unit's product into
  a zero accumulator is the plain sum of products, a lane reduction from zero the plain sum.
-/
import proofs.«157057_j38895223832723_2_alg».proof.Proof.Gen.KernelIdeal.Skeleton
import proofs.«157057_j38895223832723_2_alg».proof.Proof.LibPlainDot
import proofs.«157057_j38895223832723_2_alg».proof.Proof.LibRowSums
import proofs.«157057_j38895223832723_2_alg».proof.Proof.LibColumnLayouts
import Idealize.ShloMosaic.Lib.ValueIdx
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- The ε both programs add to the row sums: single precision's nearest value to 10⁻¹². -/
abbrev eps : EReal := Ideal.ofBits .f32 0x2B8CBCCC#32

/-- The cleared accumulator holds zeros. -/
theorem zeros128_apply (r : Fin 1024) (j : Fin 128) : k0_pay1 (F := Ideal) (ix2 r j) = 0 := by
  unfold k0_pay1
  rw [shapeCast_self]
  exact Ideal.ofBits_zero_f32

theorem zeros128'_apply (r : Fin 1024) (j : Fin 128) : k1_pay1 (F := Ideal) (ix2 r j) = 0 := by
  unfold k1_pay1
  rw [shapeCast_self]
  exact Ideal.ofBits_zero_f32

theorem zeros1_apply (r : Fin 1024) (u : Fin 1) : k1_pay2 (F := Ideal) (ix2 r u) = 0 := by
  unfold k1_pay2
  rw [shapeCast_self]
  exact Ideal.ofBits_zero_f32

/-- The first kernel's step: the accumulator plus the block product. -/
theorem step0_apply (acc : Vec Ideal S1024x128 .f32) (w : Vec Ideal S1024x1024 .f32) (a : Vec Ideal S1024x128 .f32) (r : Fin 1024) (j : Fin 128) :
    k0_pay2 acc w a (ix2 r j) = acc (ix2 r j) + ∑ l : Fin 1024, w (ix2 r l) * a (ix2 l j) := by
  unfold k0_pay2
  rw [shapeCast_self]
  refine (addf_apply _ _ _).trans ?_
  refine congrArg (acc (ix2 r j) + ·) ?_
  exact Cert.PlainDot.matmul_zero_apply (M := 1024) (K := 1024) (N := 128) dot_S1024x1024_S1024x128_S1024x128_1_0_0_1_n_n rfl none _ _ r j

/-- The second kernel's product step. -/
theorem step1_apply (att : Vec Ideal S1024x1024 .f32) (acc : Vec Ideal S1024x128 .f32) (f : Vec Ideal S1024x128 .f32) (r : Fin 1024) (j : Fin 128) :
    k1_pay4 att acc f (ix2 r j) = acc (ix2 r j) + ∑ l : Fin 1024, att (ix2 r l) * f (ix2 l j) := by
  unfold k1_pay4 k1_pay3
  rw [shapeCast_self]
  refine (addf_apply _ _ _).trans ?_
  refine congrArg (acc (ix2 r j) + ·) ?_
  refine (Cert.PlainDot.matmul_zero_apply (M := 1024) (K := 1024) (N := 128) dot_S1024x1024_S1024x128_S1024x128_1_0_0_1_n_n rfl none _ _ r j).trans ?_
  refine Finset.sum_congr rfl fun l _ => ?_
  rw [truncf_apply, truncf_apply, shapeCast_self, shapeCast_self]

/-- Its row-sum step. -/
theorem rows1_apply (att : Vec Ideal S1024x1024 .f32) (s : Vec Ideal S1024x1 .f32) (r : Fin 1024) (u : Fin 1) :
    k1_pay5 att s (ix2 r u) = s (ix2 r u) + ∑ l : Fin 1024, att (ix2 r l) := by
  unfold k1_pay5 k1_pay3
  rw [shapeCast_self]
  refine (addf_apply _ _ _).trans ?_
  refine congrArg (s (ix2 r u) + ·) ?_
  rw [Cert.ColumnLayouts.shapeCast_a_a1_apply]
  refine (Cert.RowSums.multiReduction_add_rows_apply (a := 1024) (b := 1024) _ reduces_S1024x1024_S1024 (.inl rfl) rfl r).trans ?_
  refine Finset.sum_congr rfl fun l _ => ?_
  rw [shapeCast_self]

/-- Its last step: the quotient by the row sum plus ε, plus the row block of feat. -/
theorem final1_apply (s : Vec Ideal S1024x1 .f32) (acc : Vec Ideal S1024x128 .f32) (f : Vec Ideal S1024x128 .f32) (r : Fin 1024) (j : Fin 128) :
    k1_pay6 s acc f (ix2 r j) = Ideal.div (acc (ix2 r j)) (s (ix2 r (0 : Fin 1)) + eps) + f (ix2 r j) := by
  unfold k1_pay6
  refine (addf_apply _ _ _).trans ?_
  rw [shapeCast_self]
  refine congrArg (· + f (ix2 r j)) ?_
  refine (divf_apply _ _ _).trans ?_
  refine congrArg (Ideal.div (acc (ix2 r j))) ?_
  rw [Cert.ColumnLayouts.broadcastTo_a1_ab_apply]
  rfl

end Cert.KernelIdeal.Pay

end
-- ==== Proof.LibSumBlocks.lean ====
/-
  A general lemma file (Mathlib only): sums over a range cut into equal consecutive blocks. The sum over all
  indices of `Fin (n * b)` is the sum over the `n` blocks of the sums inside each block of `b` consecutive
  indices, for any commutative additive monoid; with the instances 4096 = 4 × 1024 and 4096 = 16 × 256. Used where a
  contraction or a reduction is computed block by block (a matrix product accumulated over blocks of the contracted
  axis, column sums formed per row block and added up afterwards).
-/
import Mathlib.Algebra.BigOperators.Fin
import Mathlib.Logic.Equiv.Fin.Basic

namespace Cert.SumBlocks

open scoped BigOperators

/-- A sum over `Fin (n * b)` is the sum over `n` consecutive blocks of `b` indices. -/
theorem sum_blocks {M : Type*} [AddCommMonoid M] (n b : ℕ) (f : Fin (n * b) → M) :
    ∑ u, f u = ∑ k : Fin n, ∑ r : Fin b, f ⟨b * k.val + r.val, by
      have hk := k.isLt; have hr := r.isLt
      have h1 : b * k.val + r.val < b * (k.val + 1) := by rw [Nat.mul_succ]; omega
      have h2 : b * (k.val + 1) ≤ b * n := Nat.mul_le_mul_left b hk
      rw [Nat.mul_comm n b]; exact lt_of_lt_of_le h1 h2⟩ := by
  rw [← Equiv.sum_comp (finProdFinEquiv (m := n) (n := b)) f, Fintype.sum_prod_type]
  refine Finset.sum_congr rfl fun k _ => Finset.sum_congr rfl fun r _ => congrArg f (Fin.ext ?_)
  simp [finProdFinEquiv, Nat.add_comm]

/-- 4096 indices as 4 blocks of 1024. -/
theorem sum_4x1024 {M : Type*} [AddCommMonoid M] (f : Fin 4096 → M) :
    ∑ u, f u = ∑ k : Fin 4, ∑ r : Fin 1024, f ⟨1024 * k.val + r.val, by have := k.isLt; have := r.isLt; omega⟩ :=
  sum_blocks 4 1024 f

/-- 4096 indices as 16 blocks of 256. -/
theorem sum_16x256 {M : Type*} [AddCommMonoid M] (f : Fin 4096 → M) :
    ∑ u, f u = ∑ k : Fin 16, ∑ r : Fin 256, f ⟨256 * k.val + r.val, by have := k.isLt; have := r.isLt; omega⟩ :=
  sum_blocks 16 256 f

end Cert.SumBlocks
-- ==== Proof.LibFiniteReals.lean ====
/-
  A general lemma file: extended reals that are real numbers, and the mean and variance of finitely many of them.

  Over the extended reals sums and products have corners at the infinities, and laws such as distributivity hold only
  away from them. This file keeps track of the entries that ARE real numbers: they are closed under the arithmetic
  operations, finite sums, maxima, quotients by a nonzero real and the reciprocal square root of a positive real, and
  on them every identity of real arithmetic may be used. The identity needed for a batch normalisation is the two ways
  of writing a variance: for `n` real numbers with mean `μ`, the mean of the squared deviations `(y − μ)²` is the mean
  of the squares minus `μ²`.
-/
import Idealize.ShloMosaic.PureOps.Ideal

noncomputable section

namespace Cert.FiniteReals

open Idealize.ShloMosaic

/-- An extended real that is a real number. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.add {x y : EReal} (hx : IsReal x) (hy : IsReal y) : IsReal (x + y) := by
  obtain ⟨r, rfl⟩ := hx; obtain ⟨s, rfl⟩ := hy; exact ⟨r + s, (EReal.coe_add r s).symm⟩

theorem IsReal.sub {x y : EReal} (hx : IsReal x) (hy : IsReal y) : IsReal (x - y) := by
  obtain ⟨r, rfl⟩ := hx; obtain ⟨s, rfl⟩ := hy; exact ⟨r - s, (EReal.coe_sub r s).symm⟩

theorem IsReal.mul {x y : EReal} (hx : IsReal x) (hy : IsReal y) : IsReal (x * y) := by
  obtain ⟨r, rfl⟩ := hx; obtain ⟨s, rfl⟩ := hy; exact ⟨r * s, (EReal.coe_mul r s).symm⟩

theorem IsReal.max {x y : EReal} (hx : IsReal x) (hy : IsReal y) : IsReal (max x y) := by
  rcases max_cases x y with ⟨h, _⟩ | ⟨h, _⟩ <;> rw [h] <;> assumption

/-- A finite sum of reals, taken in the extended reals, is the real sum. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem IsReal.sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The quotient of a real by a nonzero real, in the extended reals' division, is the real quotient. -/
theorem div_coe_coe (x : ℝ) {y : ℝ} (hy : y ≠ 0) : Ideal.div (x : EReal) (y : EReal) = ((x / y : ℝ) : EReal) := by
  rw [Ideal.div_coe hy, ← EReal.coe_mul]
  congr 1
  field_simp

theorem IsReal.div_coe {x : EReal} (hx : IsReal x) {y : ℝ} (hy : y ≠ 0) : IsReal (Ideal.div x (y : EReal)) := by
  obtain ⟨r, rfl⟩ := hx; exact ⟨r / y, div_coe_coe r hy⟩

/-- The reciprocal square root of a positive real is a positive real. -/
theorem rsqrt_coe_pos {r : ℝ} (h : 0 < r) : Ideal.rsqrt (r : EReal) = (((Real.sqrt r)⁻¹ : ℝ) : EReal) := by
  rw [Ideal.rsqrt_coe, if_neg (not_lt.mpr h.le), if_neg h.ne']

theorem isReal_rsqrt_of_pos {r : ℝ} (h : 0 < r) : IsReal (Ideal.rsqrt (r : EReal)) :=
  ⟨_, rsqrt_coe_pos h⟩

/-! ## Mean and variance of `n` reals -/

/-- For `n` real numbers with sum `S`: the mean of the squared deviations from `S / n` is the mean of the squares minus
    the square of the mean. -/
theorem real_variance (n : ℕ) (hn : (n : ℝ) ≠ 0) (y : Fin n → ℝ) :
    (∑ a, (y a - (∑ a, y a) / n) * (y a - (∑ a, y a) / n)) / n
      = (∑ a, y a * y a) / n - ((∑ a, y a) / n) * ((∑ a, y a) / n) := by
  set S := ∑ a, y a with hS
  have h1 : ∑ a, (y a - S / n) * (y a - S / n) = (∑ a, y a * y a) - 2 * (S / n) * S + n * ((S / n) * (S / n)) := by
    have : ∀ a, (y a - S / n) * (y a - S / n) = y a * y a - 2 * (S / n) * y a + (S / n) * (S / n) := fun a => by ring
    simp only [this, Finset.sum_add_distrib, Finset.sum_sub_distrib, ← Finset.mul_sum, Finset.sum_const, Finset.card_univ,
      Fintype.card_fin, nsmul_eq_mul, ← hS]
    ring
  rw [h1]
  field_simp
  ring

/-- The mean of the squared deviations of real numbers is a nonnegative real. -/
theorem real_variance_nonneg (n : ℕ) (μ : ℝ) (y : Fin n → ℝ) : 0 ≤ (∑ a, (y a - μ) * (y a - μ)) / n :=
  div_nonneg (Finset.sum_nonneg fun a _ => mul_self_nonneg _) (Nat.cast_nonneg n)

variable {n : ℕ}

/-- THE MEAN of `n` real entries, computed in the extended reals: the real mean. -/
theorem mean_coe (hn : (n : ℝ) ≠ 0) (y : Fin n → ℝ) :
    Ideal.div (∑ a, ((y a : ℝ) : EReal)) ((n : ℝ) : EReal) = (((∑ a, y a) / n : ℝ) : EReal) := by
  rw [coe_sum, div_coe_coe _ hn]

/-- THE TWO VARIANCES AGREE on real entries: the mean of `(Y − μ)²` (`μ` the mean) is the mean of `Y²` minus `μ²`, all
    computed in the extended reals with the quotient by `n`. -/
theorem variance_eq (hn : (n : ℝ) ≠ 0) (Y : Fin n → EReal) (hY : ∀ a, IsReal (Y a)) :
    Ideal.div (∑ a, (Y a - Ideal.div (∑ a, Y a) ((n : ℝ) : EReal)) * (Y a - Ideal.div (∑ a, Y a) ((n : ℝ) : EReal))) ((n : ℝ) : EReal)
      = Ideal.div (∑ a, Y a * Y a) ((n : ℝ) : EReal)
        - Ideal.div (∑ a, Y a) ((n : ℝ) : EReal) * Ideal.div (∑ a, Y a) ((n : ℝ) : EReal) := by
  choose y hy using hY
  obtain rfl : Y = fun a => ((y a : ℝ) : EReal) := funext hy
  simp only [mean_coe hn, ← EReal.coe_sub, ← EReal.coe_mul, coe_sum, div_coe_coe _ hn]
  exact congrArg _ (real_variance n hn y)

/-- On real entries the mean is real, -/
theorem isReal_mean (hn : (n : ℝ) ≠ 0) (Y : Fin n → EReal) (hY : ∀ a, IsReal (Y a)) :
    IsReal (Ideal.div (∑ a, Y a) ((n : ℝ) : EReal)) :=
  (IsReal.sum _ _ fun a _ => hY a).div_coe hn

/-- and the variance is a nonnegative real. -/
theorem variance_nonneg (hn : (n : ℝ) ≠ 0) (Y : Fin n → EReal) (hY : ∀ a, IsReal (Y a)) (μ : EReal) (hμ : IsReal μ) :
    ∃ v : ℝ, 0 ≤ v ∧ Ideal.div (∑ a, (Y a - μ) * (Y a - μ)) ((n : ℝ) : EReal) = (v : EReal) := by
  choose y hy using hY
  obtain rfl : Y = fun a => ((y a : ℝ) : EReal) := funext hy
  obtain ⟨m, rfl⟩ := hμ
  refine ⟨(∑ a, (y a - m) * (y a - m)) / n, real_variance_nonneg n m y, ?_⟩
  simp only [← EReal.coe_sub, ← EReal.coe_mul, coe_sum, div_coe_coe _ hn]

end Cert.FiniteReals

end
-- ==== Proof.Spec.lean ====
/-
  The mathematics of the two programs, on the extended reals, free of either program's text.

  feat = W · af, a plain matrix product. The kernel normalises after the second product,
  h = (att · feat) / (rowsum att + ε) + feat, row by row; the reference normalises before it,
  h = (att / (rowsum att + ε)) · feat + feat. The two agree whenever every entry of att is a nonnegative real and ε is a
  positive real: the divisor is then a positive real d, dividing by it is multiplying by the nonnegative real 1/d, and
  a product with a nonnegative real distributes over any finite sum of extended reals, infinite terms included — so
  nothing is asked of feat. A sum over 4096 indices taken as four blocks of 1024 added one after the other onto zero
  is the plain sum.
-/
import proofs.«157057_j38895223832723_2_alg».proof.Proof.LibSumBlocks
import proofs.«157057_j38895223832723_2_alg».proof.Proof.LibFiniteReals
import Idealize.ShloMosaic.PureOps.Ideal
import Idealize.ShloMosaic.Lib.ValueIdx
import Mathlib.Data.EReal.Operations

noncomputable section

open scoped BigOperators

namespace Cert.AttnSpec

open Idealize.ShloMosaic Idealize.ShloMosaic.ValueIdx Cert.FiniteReals

abbrev S44 : Shape := ⟨2, ![4096, 4096]⟩
abbrev S41 : Shape := ⟨2, ![4096, 128]⟩

/-- feat = W · af. -/
def feat (W : S44.Idx → EReal) (A : S41.Idx → EReal) (p : Fin 4096) (q : Fin 128) : EReal :=
  ∑ K : Fin 4096, W (ix2 p K) * A (ix2 K q)

/-- The kernel's result: the product first, the row's normalisation after. -/
def outKernel (att : S44.Idx → EReal) (f : S41.Idx → EReal) (e : EReal) (p : Fin 4096) (q : Fin 128) : EReal :=
  Ideal.div (∑ K : Fin 4096, att (ix2 p K) * f (ix2 K q)) ((∑ K : Fin 4096, att (ix2 p K)) + e) + f (ix2 p q)

/-- The reference's result: the rows normalised first (the host's sum starts from zero), the product after. -/
def outRef (att : S44.Idx → EReal) (f : S41.Idx → EReal) (e : EReal) (p : Fin 4096) (q : Fin 128) : EReal :=
  (∑ K : Fin 4096, Ideal.div (att (ix2 p K)) ((0 + ∑ K' : Fin 4096, att (ix2 p K')) + e) * f (ix2 K q)) + f (ix2 p q)

/-- A product with a nonnegative real distributes over a finite sum of extended reals. -/
theorem coe_mul_sum {ι : Type*} (s : Finset ι) {c : ℝ} (hc : 0 ≤ c) (x : ι → EReal) :
    (c : EReal) * ∑ k ∈ s, x k = ∑ k ∈ s, (c : EReal) * x k := by
  classical
  induction s using Finset.induction_on with
  | empty => simp
  | insert a s ha ih =>
    rw [Finset.sum_insert ha, Finset.sum_insert ha,
      EReal.left_distrib_of_nonneg_of_ne_top (EReal.coe_nonneg.mpr hc) (EReal.coe_ne_top c), ih]

/-- THE TWO NORMALISATIONS AGREE when the attention input's entries are nonnegative reals and ε a positive real. -/
theorem outKernel_eq_outRef (att : S44.Idx → EReal) (f : S41.Idx → EReal) (e : EReal)
    (hatt : ∀ i, ∃ r : ℝ, 0 ≤ r ∧ att i = (r : EReal)) (he : ∃ r : ℝ, 0 < r ∧ e = (r : EReal)) (p : Fin 4096) (q : Fin 128) :
    outKernel att f e p q = outRef att f e p q := by
  unfold outKernel outRef
  congr 1
  choose a ha0 ha using hatt
  obtain ⟨ε, hε, rfl⟩ := he
  have hsum : (∑ K : Fin 4096, att (ix2 p K)) = ((∑ K : Fin 4096, a (ix2 p K) : ℝ) : EReal) := by
    rw [← coe_sum]; exact Finset.sum_congr rfl fun K _ => ha _
  have hpos : 0 < (∑ K : Fin 4096, a (ix2 p K)) + ε :=
    add_pos_of_nonneg_of_pos (Finset.sum_nonneg fun K _ => ha0 _) hε
  have hd : (∑ K : Fin 4096, att (ix2 p K)) + (ε : EReal) = (((∑ K : Fin 4096, a (ix2 p K)) + ε : ℝ) : EReal) := by
    rw [hsum, EReal.coe_add]
  rw [zero_add, hd]
  simp only [Ideal.div_coe hpos.ne']
  have hc : 0 ≤ 1 / ((∑ K : Fin 4096, a (ix2 p K)) + ε) := by positivity
  rw [mul_comm, coe_mul_sum _ hc]
  refine Finset.sum_congr rfl fun K _ => ?_
  rw [← mul_assoc, mul_comm _ (att (ix2 p K))]

/-- Four terms added one after the other onto zero are their sum. -/
theorem four_onto_zero (g : Fin 4 → EReal) : (((0 + g 0) + g 1) + g 2) + g 3 = ∑ k, g k := by
  rw [Fin.sum_univ_four, zero_add]

/-- A sum over 4096 indices is its four blocks of 1024 added one after the other onto zero. -/
theorem blocks4 (F : Fin 4096 → EReal) (s0 s1 s2 s3 : EReal)
    (h0 : s0 = ∑ l : Fin 1024, F ⟨l.val, by have := l.isLt; omega⟩)
    (h1 : s1 = ∑ l : Fin 1024, F ⟨1024 + l.val, by have := l.isLt; omega⟩)
    (h2 : s2 = ∑ l : Fin 1024, F ⟨2048 + l.val, by have := l.isLt; omega⟩)
    (h3 : s3 = ∑ l : Fin 1024, F ⟨3072 + l.val, by have := l.isLt; omega⟩) :
    (((0 + s0) + s1) + s2) + s3 = ∑ K, F K := by
  subst h0 h1 h2 h3
  rw [Cert.SumBlocks.sum_4x1024 F, Fin.sum_univ_four, zero_add]
  refine congrArg₂ (· + ·) (congrArg₂ (· + ·) (congrArg₂ (· + ·) ?_ ?_) ?_) ?_ <;>
    exact Finset.sum_congr rfl fun l _ => congrArg F (Fin.ext (by simp))

/-- A sum over 4096 indices is the sum of its four blocks of 1024 added one after the other onto zero. -/
theorem blocks_onto_zero (F : Fin 4096 → EReal) (g : Fin 4 → EReal)
    (hg : ∀ k : Fin 4, g k = ∑ l : Fin 1024, F ⟨1024 * k.val + l.val, by have := k.isLt; have := l.isLt; omega⟩) :
    (((0 + g 0) + g 1) + g 2) + g 3 = ∑ K, F K := by
  rw [four_onto_zero, Cert.SumBlocks.sum_4x1024 F]
  exact Finset.sum_congr rfl fun k _ => hg k

end Cert.AttnSpec

end
-- ==== Proof.Feat.lean ====
/-
  The first region's result, at the ideal values: feat = W · af. The output window is written back at the four points
  with k = 3; what it holds there is the accumulator after the four block products of row block i added onto zero, and
  the four blocks of the contracted axis make up the whole sum; row block i of feat is read where the block's
  rectangle says. The four written-back blocks tile the array.
-/
import proofs.«157057_j38895223832723_2_alg».proof.Proof.Ideal.Vals0
import proofs.«157057_j38895223832723_2_alg».proof.Proof.PayReads
import proofs.«157057_j38895223832723_2_alg».proof.Proof.Spec

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.KernelIdeal.Pay
open scoped BigOperators

section
variable (V : (c : Dev nD) → (b : Ref sig .tc) → Buf (Elt Ideal) ((c : Thread nD τ).loc b))

/-- W and af as the first region finds them. -/
abbrev wAt (c : Dev nD) : Cert.AttnSpec.S44.Idx → EReal := V c main_arg4
abbrev aAt (c : Dev nD) : Cert.AttnSpec.S41.Idx → EReal := V c main_arg2

/-- The windows' block indices at point 4·i + k: W's is (i, k), af's (k, 0), the output's (i, 0). -/
theorem idxP_0 : ∀ t : Fin cfg0.N, win0_0.index t 0 = t.val / 4 ∧ win0_0.index t 1 = t.val % 4 :=
  (by decide +kernel : ∀ t : Fin grid0.N, win0_0.index t 0 = t.val / 4 ∧ win0_0.index t 1 = t.val % 4)
theorem idxP_1 : ∀ t : Fin cfg0.N, win0_1.index t 0 = t.val % 4 ∧ win0_1.index t 1 = 0 :=
  (by decide +kernel : ∀ t : Fin grid0.N, win0_1.index t 0 = t.val % 4 ∧ win0_1.index t 1 = 0)
theorem idxP_2 : ∀ t : Fin cfg0.N, win0_2.index t 0 = t.val / 4 ∧ win0_2.index t 1 = 0 :=
  (by decide +kernel : ∀ t : Fin grid0.N, win0_2.index t 0 = t.val / 4 ∧ win0_2.index t 1 = 0)

/-- W's block at point 4·i + k is rows 1024·i … and columns 1024·k … of W. -/
theorem blkW_at (c : Dev nD) (s : Fin cfg0.N) (i k : ℕ) (hs : s.val = 4 * i + k) (hk : k < 4) (r l : Fin 1024) (R K : Fin 4096)
    (hR : R.val = 1024 * i + r.val) (hK : K.val = 1024 * k + l.val) :
    (blkP V c 0 s : Vec Ideal S1024x1024 .f32) (ix2 r l) = wAt V c (ix2 R K) := by
  have hi := idxP_0 s
  unfold blkP
  rw [View.read_apply]
  show V c main_arg4 _ = V c main_arg4 _
  congr 1
  funext a
  apply Fin.ext
  match a with
  | ⟨0, _⟩ => show win0_0.index s 0 * 1024 + 1 * r.val = R.val; rw [hi.1, hR]; omega
  | ⟨1, _⟩ => show win0_0.index s 1 * 1024 + 1 * l.val = K.val; rw [hi.2, hK]; omega

/-- af's block at point 4·i + k is rows 1024·k … of af. -/
theorem blkA_at (c : Dev nD) (s : Fin cfg0.N) (i k : ℕ) (hs : s.val = 4 * i + k) (hk : k < 4) (l : Fin 1024) (j : Fin 128) (K : Fin 4096)
    (hK : K.val = 1024 * k + l.val) :
    (blkP V c 1 s : Vec Ideal S1024x128 .f32) (ix2 l j) = aAt V c (ix2 K j) := by
  have hi := idxP_1 s
  unfold blkP
  rw [View.read_apply]
  show V c main_arg2 _ = V c main_arg2 _
  congr 1
  funext a
  apply Fin.ext
  match a with
  | ⟨0, _⟩ => show win0_1.index s 0 * 1024 + 1 * l.val = K.val; rw [hi.1, hK]; omega
  | ⟨1, _⟩ => show win0_1.index s 1 * 128 + 1 * j.val = j.val; rw [hi.2]; omega

/-- At a point with k = 3 the output window holds the four steps of its row block, from the cleared accumulator. -/
theorem outP_steps (c : Dev nD) (t : Fin cfg0.N) (h3 : t.val % 4 = 3) :
    (traj0 V c t.val t.isLt).1
      = k0_pay2 (k0_pay2 (k0_pay2 (k0_pay2 (k0_pay1 (F := Ideal))
            (blkP V c 0 ⟨t.val - 1 - 1 - 1, by have := t.isLt; omega⟩) (blkP V c 1 ⟨t.val - 1 - 1 - 1, by have := t.isLt; omega⟩))
            (blkP V c 0 ⟨t.val - 1 - 1, by have := t.isLt; omega⟩) (blkP V c 1 ⟨t.val - 1 - 1, by have := t.isLt; omega⟩))
            (blkP V c 0 ⟨t.val - 1, by have := t.isLt; omega⟩) (blkP V c 1 ⟨t.val - 1, by have := t.isLt; omega⟩))
          (blkP V c 0 t) (blkP V c 1 t) := by
  have hlt := t.isLt
  have e3 := traj0_last V c t (by omega) h3
  have e2 := traj0_mid V c ⟨t.val - 1, by omega⟩ (by dsimp only; omega) (by dsimp only; omega)
  have e1 := traj0_mid V c ⟨t.val - 1 - 1, by omega⟩ (by dsimp only; omega) (by dsimp only; omega)
  have e0 := traj0_first V c ⟨t.val - 1 - 1 - 1, by omega⟩ (by dsimp only; omega) (by dsimp only; omega)
  dsimp only at e2 e1 e0
  rw [e3]; dsimp only
  rw [outLast0_eq, e2]; dsimp only
  rw [accMid0_eq, e1]; dsimp only
  rw [accMid0_eq, e0]; dsimp only
  rw [accFirst0_eq]

/-- Entry (r, j) of that block is entry (1024·i + r, j) of W · af. -/
theorem outP_entry (c : Dev nD) (t : Fin cfg0.N) (h3 : t.val % 4 = 3) (r : Fin 1024) (j : Fin 128) (R : Fin 4096)
    (hR : R.val = 1024 * (t.val / 4) + r.val) :
    (traj0 V c t.val t.isLt).1 (ix2 r j) = Cert.AttnSpec.feat (wAt V c) (aAt V c) R j := by
  have hlt : t.val < 16 := lt_of_lt_of_eq t.isLt (show cfg0.N = 16 from N_0)
  rw [outP_steps V c t h3, step0_apply, step0_apply, step0_apply, step0_apply, zeros128_apply]
  unfold Cert.AttnSpec.feat
  refine Cert.AttnSpec.blocks4 (fun K => wAt V c (ix2 R K) * aAt V c (ix2 K j)) _ _ _ _ ?_ ?_ ?_ ?_
  · refine Finset.sum_congr rfl fun l _ => ?_
    rw [blkW_at V c _ (t.val / 4) 0 (by dsimp only; omega) (by omega) r l R ⟨l.val, by have := l.isLt; omega⟩ hR (by simp),
      blkA_at V c _ (t.val / 4) 0 (by dsimp only; omega) (by omega) l j ⟨l.val, by have := l.isLt; omega⟩ (by simp)]
  · refine Finset.sum_congr rfl fun l _ => ?_
    rw [blkW_at V c _ (t.val / 4) 1 (by dsimp only; omega) (by omega) r l R ⟨1024 + l.val, by have := l.isLt; omega⟩ hR (by simp),
      blkA_at V c _ (t.val / 4) 1 (by dsimp only; omega) (by omega) l j ⟨1024 + l.val, by have := l.isLt; omega⟩ (by simp)]
  · refine Finset.sum_congr rfl fun l _ => ?_
    rw [blkW_at V c _ (t.val / 4) 2 (by dsimp only; omega) (by omega) r l R ⟨2048 + l.val, by have := l.isLt; omega⟩ hR (by simp),
      blkA_at V c _ (t.val / 4) 2 (by dsimp only; omega) (by omega) l j ⟨2048 + l.val, by have := l.isLt; omega⟩ (by simp)]
  · refine Finset.sum_congr rfl fun l _ => ?_
    rw [blkW_at V c _ (t.val / 4) 3 (by omega) (by omega) r l R ⟨3072 + l.val, by have := l.isLt; omega⟩ hR (by simp),
      blkA_at V c _ (t.val / 4) 3 (by omega) (by omega) l j ⟨3072 + l.val, by have := l.isLt; omega⟩ (by simp)]

/-- feat, as contents of its array. -/
def featG (c : Dev nD) : Buf (Elt Ideal) ((c : Thread nD τ).loc main_call0_v36) :=
  fun i => Cert.AttnSpec.feat (wAt V c) (aAt V c) (i 0) (i 1)

/-- A write-back of the output window writes a row block of feat. -/
theorem flushedP (c : Dev nD) (t : Fin cfg0.N) (hf : (cfg0.win 2).flush t = true) :
    (dat0 V c).flushed 2 t = ((cfg0.win 2).blk t).view.read (Elt Ideal) (featG V c) := by
  have h3 : t.val % 4 = 3 := (flush0_2 t).mp hf
  have hi := idxP_2 t
  show (cfg0.win 2).cut (grid0.coords t) ((dat0 V c).after 2 t) = _
  rw [after0_2]
  funext y
  rw [View.read_apply]
  obtain ⟨r, j, rfl⟩ : ∃ (r : Fin 1024) (j : Fin 128), y = ix2 r j := ⟨y 0, y 1, eq_ix2 y⟩
  show (traj0 V c t.val t.isLt).1 (ix2 r j) = featG V c _
  unfold featG
  refine (outP_entry V c t h3 r j (((cfg0.win 2).blk t).view.emb (ix2 r j) 0) ?_).trans ?_
  · show win0_2.index t 0 * 1024 + 1 * r.val = 1024 * (t.val / 4) + r.val
    rw [hi.1]; omega
  · refine congrArg (Cert.AttnSpec.feat (wAt V c) (aAt V c) _) (Fin.ext ?_)
    show j.val = win0_2.index t 1 * 128 + 1 * j.val
    rw [hi.2]; omega

/-- So feat's array ends holding W · af. -/
theorem feat_final (c : Dev nD) : (dat0 V c).arrAt 2 cfg0.N = featG V c :=
  (dat0 V c).arrAt_eq_of_cover 2 (featG V c) (flushedP V c) fun i => by
    have h0 : (i 0 : Nat) < 4096 := (i 0).isLt
    have h1 : (i 1 : Nat) < 128 := (i 1).isLt
    have hN : cfg0.N = 16 := N_0
    have hpt : 4 * ((i 0 : Nat) / 1024) + 3 < cfg0.N := by omega
    refine ⟨⟨4 * ((i 0 : Nat) / 1024) + 3, hpt⟩, (flush0_2 _).mpr (by dsimp only; omega), ?_⟩
    have hi := idxP_2 ⟨4 * ((i 0 : Nat) / 1024) + 3, hpt⟩
    show i ∈ ((View.whole main_call0_v36).slice (win0_2.rect ⟨4 * ((i 0 : Nat) / 1024) + 3, hpt⟩)).set
    rw [View.set_slice_whole, Rect.mem_set_unit]
    intro a
    match a with
    | ⟨0, _⟩ =>
      show win0_2.index _ 0 * 1024 ≤ (i 0 : Nat) ∧ (i 0 : Nat) < win0_2.index _ 0 * 1024 + 1024
      rw [hi.1]; dsimp only; omega
    | ⟨1, _⟩ =>
      show win0_2.index _ 1 * 128 ≤ (i 1 : Nat) ∧ (i 1 : Nat) < win0_2.index _ 1 * 128 + 128
      rw [hi.2]; omega

end

end Cert.KernelIdeal.Frm

end
-- ==== Proof.Ideal.Vals1.lean ====
/-
  What the second kernel's three runs leave, read back as values: the product accumulator gains one block product, the
  row-sum accumulator the row sums of one block of the attention input (both from zero at k = 0), and at k = 3 the
  output window receives the quotient of the two, row by row, plus the row block of feat.
-/
import proofs.«157057_j38895223832723_2_alg».proof.Proof.Ideal.Region1
import proofs.«157057_j38895223832723_2_alg».proof.Proof.Ideal.Vals0
import Idealize.ShloMosaic.Lib.Pipeline.Value

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem accMid1_eq (c : Dev nD) (t : Fin cfg1.N) (h0 : ¬firstK1 (grid1.coords t)) (h1 : ¬lastK1 (grid1.coords t)) (x0 : Vec F S1024x1024 .f32) (x1 : Vec F S1024x128 .f32) (x2 : Vec F S1024x128 .f32) (xa : Vec F S1024x128 .f32) (xs : Vec F S1024x1 .f32) :
    accMid1 c t h0 h1 x0 x1 x2 xa xs = k1_pay4 x0 xa x1 := by
  unfold accMid1
  rw [View.read_writes_eq_canon _ _ _ (accCover1Mid c t h0 h1 x0 x1 x2 xa xs)]
  unfold rMid1 run1Mid
  dsimp only
  sl_unfold_words
  rw [View.canon_unit_zero (S := S1024x128) hz]
  simp only [View.readAt_eq_ld, (hs1_0 t).read_unread, (hs1_1 t).read_unread, (hs1_2 t).read_unread, (Memref.isWhole_whole cc1_scratch0).read_unread, (Memref.isWhole_whole cc1_scratch1).read_unread, View.ld_unit_zero (S := S1024x128) hz, View.ld_unit_zero (S := S1024x1024) hz, View.ld_unit_zero (S := S1024x1) hz]

theorem sumMid1_eq (c : Dev nD) (t : Fin cfg1.N) (h0 : ¬firstK1 (grid1.coords t)) (h1 : ¬lastK1 (grid1.coords t)) (x0 : Vec F S1024x1024 .f32) (x1 : Vec F S1024x128 .f32) (x2 : Vec F S1024x128 .f32) (xa : Vec F S1024x128 .f32) (xs : Vec F S1024x1 .f32) :
    sumMid1 c t h0 h1 x0 x1 x2 xa xs = k1_pay5 x0 xs := by
  unfold sumMid1
  rw [View.read_writes_eq_canon _ _ _ (sumCover1Mid c t h0 h1 x0 x1 x2 xa xs)]
  unfold rMid1 run1Mid
  dsimp only
  sl_unfold_words
  rw [View.canon_unit_zero (S := S1024x1) hz]
  simp only [View.readAt_eq_ld, (hs1_0 t).read_unread, (hs1_1 t).read_unread, (hs1_2 t).read_unread, (Memref.isWhole_whole cc1_scratch0).read_unread, (Memref.isWhole_whole cc1_scratch1).read_unread, View.ld_unit_zero (S := S1024x128) hz, View.ld_unit_zero (S := S1024x1024) hz, View.ld_unit_zero (S := S1024x1) hz]

theorem accFirst1_eq (c : Dev nD) (t : Fin cfg1.N) (h0 : firstK1 (grid1.coords t)) (h1 : ¬lastK1 (grid1.coords t)) (x0 : Vec F S1024x1024 .f32) (x1 : Vec F S1024x128 .f32) (x2 : Vec F S1024x128 .f32) :
    accFirst1 c t h0 h1 x0 x1 x2 = k1_pay4 x0 k1_pay1 x1 := by
  unfold accFirst1
  rw [View.read_writes_eq_canon _ _ _ (accCover1First c t h0 h1 x0 x1 x2)]
  unfold rFirst1 run1First
  dsimp only
  sl_unfold_words
  rw [View.canon_cons_unit_zero (S := S1024x128) hz, View.readCov_unit_zero (S := S1024x128) _ hz]
  simp only [View.readAt_eq_ld, (hs1_0 t).read_unread, (hs1_1 t).read_unread, (hs1_2 t).read_unread, (Memref.isWhole_whole cc1_scratch0).read_unread, (Memref.isWhole_whole cc1_scratch1).read_unread, View.ld_unit_zero (S := S1024x128) hz, View.ld_unit_zero (S := S1024x1024) hz, View.ld_unit_zero (S := S1024x1) hz]

theorem sumFirst1_eq (c : Dev nD) (t : Fin cfg1.N) (h0 : firstK1 (grid1.coords t)) (h1 : ¬lastK1 (grid1.coords t)) (x0 : Vec F S1024x1024 .f32) (x1 : Vec F S1024x128 .f32) (x2 : Vec F S1024x128 .f32) :
    sumFirst1 c t h0 h1 x0 x1 x2 = k1_pay5 x0 k1_pay2 := by
  unfold sumFirst1
  rw [View.read_writes_eq_canon _ _ _ (sumCover1First c t h0 h1 x0 x1 x2)]
  unfold rFirst1 run1First
  dsimp only
  sl_unfold_words
  rw [View.canon_cons_unit_zero (S := S1024x1) hz, View.readCov_unit_zero (S := S1024x1) _ hz]
  simp only [View.readAt_eq_ld, (hs1_0 t).read_unread, (hs1_1 t).read_unread, (hs1_2 t).read_unread, (Memref.isWhole_whole cc1_scratch0).read_unread, (Memref.isWhole_whole cc1_scratch1).read_unread, View.ld_unit_zero (S := S1024x128) hz, View.ld_unit_zero (S := S1024x1024) hz, View.ld_unit_zero (S := S1024x1) hz]

theorem accLast1_eq (c : Dev nD) (t : Fin cfg1.N) (h0 : ¬firstK1 (grid1.coords t)) (h1 : lastK1 (grid1.coords t)) (x0 : Vec F S1024x1024 .f32) (x1 : Vec F S1024x128 .f32) (x2 : Vec F S1024x128 .f32) (xa : Vec F S1024x128 .f32) (xs : Vec F S1024x1 .f32) :
    accLast1 c t h0 h1 x0 x1 x2 xa xs = k1_pay4 x0 xa x1 := by
  unfold accLast1
  rw [View.read_writes_eq_canon _ _ _ (accCover1Last c t h0 h1 x0 x1 x2 xa xs)]
  unfold rLast1 run1Last
  dsimp only
  sl_unfold_words
  rw [View.canon_unit_zero (S := S1024x128) hz]
  simp only [View.readAt_eq_ld, (hs1_0 t).read_unread, (hs1_1 t).read_unread, (hs1_2 t).read_unread, (Memref.isWhole_whole cc1_scratch0).read_unread, (Memref.isWhole_whole cc1_scratch1).read_unread, View.ld_unit_zero (S := S1024x128) hz, View.ld_unit_zero (S := S1024x1024) hz, View.ld_unit_zero (S := S1024x1) hz]

theorem sumLast1_eq (c : Dev nD) (t : Fin cfg1.N) (h0 : ¬firstK1 (grid1.coords t)) (h1 : lastK1 (grid1.coords t)) (x0 : Vec F S1024x1024 .f32) (x1 : Vec F S1024x128 .f32) (x2 : Vec F S1024x128 .f32) (xa : Vec F S1024x128 .f32) (xs : Vec F S1024x1 .f32) :
    sumLast1 c t h0 h1 x0 x1 x2 xa xs = k1_pay5 x0 xs := by
  unfold sumLast1
  rw [View.read_writes_eq_canon _ _ _ (sumCover1Last c t h0 h1 x0 x1 x2 xa xs)]
  unfold rLast1 run1Last
  dsimp only
  sl_unfold_words
  rw [View.canon_unit_zero (S := S1024x1) hz]
  simp only [View.readAt_eq_ld, (hs1_0 t).read_unread, (hs1_1 t).read_unread, (hs1_2 t).read_unread, (Memref.isWhole_whole cc1_scratch0).read_unread, (Memref.isWhole_whole cc1_scratch1).read_unread, View.ld_unit_zero (S := S1024x128) hz, View.ld_unit_zero (S := S1024x1024) hz, View.ld_unit_zero (S := S1024x1) hz]

theorem outLast1_eq (c : Dev nD) (t : Fin cfg1.N) (h0 : ¬firstK1 (grid1.coords t)) (h1 : lastK1 (grid1.coords t)) (x0 : Vec F S1024x1024 .f32) (x1 : Vec F S1024x128 .f32) (x2 : Vec F S1024x128 .f32) (xa : Vec F S1024x128 .f32) (xs : Vec F S1024x1 .f32) :
    outLast1 c t h0 h1 x0 x1 x2 xa xs = k1_pay6 (k1_pay5 x0 xs) (k1_pay4 x0 xa x1) x2 := by
  unfold outLast1
  rw [View.read_writes_eq_canon _ _ _ (outCover1Last c t h0 h1 x0 x1 x2 xa xs)]
  unfold rLast1 run1Last
  dsimp only
  sl_unfold_words
  rw [View.canon_unit_zero (S := S1024x128) hz, View.readCov_unit_zero (S := S1024x1) _ hz, View.readCov_unit_zero (S := S1024x128) _ hz]
  simp only [View.readAt_eq_ld, (hs1_0 t).read_unread, (hs1_1 t).read_unread, (hs1_2 t).read_unread, (Memref.isWhole_whole cc1_scratch0).read_unread, (Memref.isWhole_whole cc1_scratch1).read_unread, View.ld_unit_zero (S := S1024x128) hz, View.ld_unit_zero (S := S1024x1024) hz, View.ld_unit_zero (S := S1024x1) hz]

end Cert.KernelIdeal.Frm

end
-- ==== Proof.Attn.lean ====
/-
  The second region's result, at the ideal values. At the four points with k = 3 the output window holds, for row block i,
  the accumulated products divided by the accumulated row sums plus ε, plus row block i of feat; the four block products
  and the four block row sums, each added onto zero, are the whole sums over the contracted axis. The four written-back
  blocks tile the result array.
-/
import proofs.«157057_j38895223832723_2_alg».proof.Proof.Ideal.Vals1
import proofs.«157057_j38895223832723_2_alg».proof.Proof.PayReads
import proofs.«157057_j38895223832723_2_alg».proof.Proof.Spec

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.KernelIdeal.Pay
open scoped BigOperators

section
variable (V : (c : Dev nD) → (b : Ref sig .tc) → Buf (Elt Ideal) ((c : Thread nD τ).loc b))

/-- The attention input and feat as the second region finds them. -/
abbrev attAt (c : Dev nD) : Cert.AttnSpec.S44.Idx → EReal := V c main_call0_v35
abbrev fAt (c : Dev nD) : Cert.AttnSpec.S41.Idx → EReal := V c main_call0_v36

theorem idxA_0 : ∀ t : Fin cfg1.N, win1_0.index t 0 = t.val / 4 ∧ win1_0.index t 1 = t.val % 4 :=
  (by decide +kernel : ∀ t : Fin grid1.N, win1_0.index t 0 = t.val / 4 ∧ win1_0.index t 1 = t.val % 4)
theorem idxA_1 : ∀ t : Fin cfg1.N, win1_1.index t 0 = t.val % 4 ∧ win1_1.index t 1 = 0 :=
  (by decide +kernel : ∀ t : Fin grid1.N, win1_1.index t 0 = t.val % 4 ∧ win1_1.index t 1 = 0)
theorem idxA_2 : ∀ t : Fin cfg1.N, win1_2.index t 0 = t.val / 4 ∧ win1_2.index t 1 = 0 :=
  (by decide +kernel : ∀ t : Fin grid1.N, win1_2.index t 0 = t.val / 4 ∧ win1_2.index t 1 = 0)
theorem idxA_3 : ∀ t : Fin cfg1.N, win1_3.index t 0 = t.val / 4 ∧ win1_3.index t 1 = 0 :=
  (by decide +kernel : ∀ t : Fin grid1.N, win1_3.index t 0 = t.val / 4 ∧ win1_3.index t 1 = 0)

theorem blkAtt_at (c : Dev nD) (s : Fin cfg1.N) (i k : ℕ) (hs : s.val = 4 * i + k) (hk : k < 4) (r l : Fin 1024) (R K : Fin 4096)
    (hR : R.val = 1024 * i + r.val) (hK : K.val = 1024 * k + l.val) :
    (blkA V c 0 s : Vec Ideal S1024x1024 .f32) (ix2 r l) = attAt V c (ix2 R K) := by
  have hi := idxA_0 s
  unfold blkA
  rw [View.read_apply]
  show V c main_call0_v35 _ = V c main_call0_v35 _
  congr 1
  funext a
  apply Fin.ext
  match a with
  | ⟨0, _⟩ => show win1_0.index s 0 * 1024 + 1 * r.val = R.val; rw [hi.1, hR]; omega
  | ⟨1, _⟩ => show win1_0.index s 1 * 1024 + 1 * l.val = K.val; rw [hi.2, hK]; omega

theorem blkFk_at (c : Dev nD) (s : Fin cfg1.N) (i k : ℕ) (hs : s.val = 4 * i + k) (hk : k < 4) (l : Fin 1024) (j : Fin 128) (K : Fin 4096)
    (hK : K.val = 1024 * k + l.val) :
    (blkA V c 1 s : Vec Ideal S1024x128 .f32) (ix2 l j) = fAt V c (ix2 K j) := by
  have hi := idxA_1 s
  unfold blkA
  rw [View.read_apply]
  show V c main_call0_v36 _ = V c main_call0_v36 _
  congr 1
  funext a
  apply Fin.ext
  match a with
  | ⟨0, _⟩ => show win1_1.index s 0 * 1024 + 1 * l.val = K.val; rw [hi.1, hK]; omega
  | ⟨1, _⟩ => show win1_1.index s 1 * 128 + 1 * j.val = j.val; rw [hi.2]; omega

theorem blkFi_at (c : Dev nD) (s : Fin cfg1.N) (r : Fin 1024) (j : Fin 128) (R : Fin 4096)
    (hR : R.val = 1024 * (s.val / 4) + r.val) :
    (blkA V c 2 s : Vec Ideal S1024x128 .f32) (ix2 r j) = fAt V c (ix2 R j) := by
  have hi := idxA_2 s
  unfold blkA
  rw [View.read_apply]
  show V c main_call0_v36 _ = V c main_call0_v36 _
  congr 1
  funext a
  apply Fin.ext
  match a with
  | ⟨0, _⟩ => show win1_2.index s 0 * 1024 + 1 * r.val = R.val; rw [hi.1, hR]; omega
  | ⟨1, _⟩ => show win1_2.index s 1 * 128 + 1 * j.val = j.val; rw [hi.2]; omega

/-- At a point with k = 3 the output window holds the last step over the four steps of each accumulator. -/
theorem outA_steps (c : Dev nD) (t : Fin cfg1.N) (h3 : t.val % 4 = 3) :
    (traj1 V c t.val t.isLt).1
      = k1_pay6 (k1_pay5 (blkA V c 0 t) (k1_pay5 (blkA V c 0 ⟨t.val - 1, by have := t.isLt; omega⟩) (k1_pay5 (blkA V c 0 ⟨t.val - 1 - 1, by have := t.isLt; omega⟩) (k1_pay5 (blkA V c 0 ⟨t.val - 1 - 1 - 1, by have := t.isLt; omega⟩) (k1_pay2 (F := Ideal))))))
          (k1_pay4 (blkA V c 0 t) (k1_pay4 (blkA V c 0 ⟨t.val - 1, by have := t.isLt; omega⟩) (k1_pay4 (blkA V c 0 ⟨t.val - 1 - 1, by have := t.isLt; omega⟩) (k1_pay4 (blkA V c 0 ⟨t.val - 1 - 1 - 1, by have := t.isLt; omega⟩) (k1_pay1 (F := Ideal)) (blkA V c 1 ⟨t.val - 1 - 1 - 1, by have := t.isLt; omega⟩)) (blkA V c 1 ⟨t.val - 1 - 1, by have := t.isLt; omega⟩)) (blkA V c 1 ⟨t.val - 1, by have := t.isLt; omega⟩)) (blkA V c 1 t))
          (blkA V c 2 t) := by
  have hlt := t.isLt
  have e3 := traj1_last V c t (by omega) h3
  have e2 := traj1_mid V c ⟨t.val - 1, by omega⟩ (by dsimp only; omega) (by dsimp only; omega)
  have e1 := traj1_mid V c ⟨t.val - 1 - 1, by omega⟩ (by dsimp only; omega) (by dsimp only; omega)
  have e0 := traj1_first V c ⟨t.val - 1 - 1 - 1, by omega⟩ (by dsimp only; omega) (by dsimp only; omega)
  dsimp only at e2 e1 e0
  rw [e3]; dsimp only
  rw [outLast1_eq, e2]; dsimp only
  rw [accMid1_eq, sumMid1_eq, e1]; dsimp only
  rw [accMid1_eq, sumMid1_eq, e0]; dsimp only
  rw [accFirst1_eq, sumFirst1_eq]

theorem outA_entry (c : Dev nD) (t : Fin cfg1.N) (h3 : t.val % 4 = 3) (r : Fin 1024) (j : Fin 128) (R : Fin 4096)
    (hR : R.val = 1024 * (t.val / 4) + r.val) :
    (traj1 V c t.val t.isLt).1 (ix2 r j) = Cert.AttnSpec.outKernel (attAt V c) (fAt V c) eps R j := by
  have hlt : t.val < 16 := lt_of_lt_of_eq t.isLt (show cfg1.N = 16 from N_1)
  rw [outA_steps V c t h3, final1_apply, step1_apply, step1_apply, step1_apply, step1_apply, zeros128'_apply,
    rows1_apply, rows1_apply, rows1_apply, rows1_apply, zeros1_apply, blkFi_at V c t r j R hR]
  unfold Cert.AttnSpec.outKernel
  congr 1
  congr 1
  · refine Cert.AttnSpec.blocks4 (fun K => attAt V c (ix2 R K) * fAt V c (ix2 K j)) _ _ _ _ ?_ ?_ ?_ ?_
    · refine Finset.sum_congr rfl fun l _ => ?_
      rw [blkAtt_at V c _ (t.val / 4) 0 (by dsimp only; omega) (by omega) r l R ⟨l.val, by have := l.isLt; omega⟩ hR (by simp),
        blkFk_at V c _ (t.val / 4) 0 (by dsimp only; omega) (by omega) l j ⟨l.val, by have := l.isLt; omega⟩ (by simp)]
    · refine Finset.sum_congr rfl fun l _ => ?_
      rw [blkAtt_at V c _ (t.val / 4) 1 (by dsimp only; omega) (by omega) r l R ⟨1024 + l.val, by have := l.isLt; omega⟩ hR (by simp),
        blkFk_at V c _ (t.val / 4) 1 (by dsimp only; omega) (by omega) l j ⟨1024 + l.val, by have := l.isLt; omega⟩ (by simp)]
    · refine Finset.sum_congr rfl fun l _ => ?_
      rw [blkAtt_at V c _ (t.val / 4) 2 (by dsimp only; omega) (by omega) r l R ⟨2048 + l.val, by have := l.isLt; omega⟩ hR (by simp),
        blkFk_at V c _ (t.val / 4) 2 (by dsimp only; omega) (by omega) l j ⟨2048 + l.val, by have := l.isLt; omega⟩ (by simp)]
    · refine Finset.sum_congr rfl fun l _ => ?_
      rw [blkAtt_at V c _ (t.val / 4) 3 (by omega) (by omega) r l R ⟨3072 + l.val, by have := l.isLt; omega⟩ hR (by simp),
        blkFk_at V c _ (t.val / 4) 3 (by omega) (by omega) l j ⟨3072 + l.val, by have := l.isLt; omega⟩ (by simp)]
  · congr 1
    refine Cert.AttnSpec.blocks4 (fun K => attAt V c (ix2 R K)) _ _ _ _ ?_ ?_ ?_ ?_
    · refine Finset.sum_congr rfl fun l _ => ?_
      rw [blkAtt_at V c _ (t.val / 4) 0 (by dsimp only; omega) (by omega) r l R ⟨l.val, by have := l.isLt; omega⟩ hR (by simp)]
    · refine Finset.sum_congr rfl fun l _ => ?_
      rw [blkAtt_at V c _ (t.val / 4) 1 (by dsimp only; omega) (by omega) r l R ⟨1024 + l.val, by have := l.isLt; omega⟩ hR (by simp)]
    · refine Finset.sum_congr rfl fun l _ => ?_
      rw [blkAtt_at V c _ (t.val / 4) 2 (by dsimp only; omega) (by omega) r l R ⟨2048 + l.val, by have := l.isLt; omega⟩ hR (by simp)]
    · refine Finset.sum_congr rfl fun l _ => ?_
      rw [blkAtt_at V c _ (t.val / 4) 3 (by omega) (by omega) r l R ⟨3072 + l.val, by have := l.isLt; omega⟩ hR (by simp)]

/-- The result, as contents of its array. -/
def outG (c : Dev nD) : Buf (Elt Ideal) ((c : Thread nD τ).loc main_v0) :=
  fun i => Cert.AttnSpec.outKernel (attAt V c) (fAt V c) eps (i 0) (i 1)

theorem flushedA (c : Dev nD) (t : Fin cfg1.N) (hf : (cfg1.win 3).flush t = true) :
    (dat1 V c).flushed 3 t = ((cfg1.win 3).blk t).view.read (Elt Ideal) (outG V c) := by
  have h3 : t.val % 4 = 3 := (flush1_3 t).mp hf
  have hi := idxA_3 t
  show (cfg1.win 3).cut (grid1.coords t) ((dat1 V c).after 3 t) = _
  rw [after1_3]
  funext y
  rw [View.read_apply]
  obtain ⟨r, j, rfl⟩ : ∃ (r : Fin 1024) (j : Fin 128), y = ix2 r j := ⟨y 0, y 1, eq_ix2 y⟩
  show (traj1 V c t.val t.isLt).1 (ix2 r j) = outG V c _
  unfold outG
  refine (outA_entry V c t h3 r j (((cfg1.win 3).blk t).view.emb (ix2 r j) 0) ?_).trans ?_
  · show win1_3.index t 0 * 1024 + 1 * r.val = 1024 * (t.val / 4) + r.val
    rw [hi.1]; omega
  · refine congrArg (Cert.AttnSpec.outKernel (attAt V c) (fAt V c) eps _) (Fin.ext ?_)
    show j.val = win1_3.index t 1 * 128 + 1 * j.val
    rw [hi.2]; omega

theorem out_final (c : Dev nD) : (dat1 V c).arrAt 3 cfg1.N = outG V c :=
  (dat1 V c).arrAt_eq_of_cover 3 (outG V c) (flushedA V c) fun i => by
    have h0 : (i 0 : Nat) < 4096 := (i 0).isLt
    have h1 : (i 1 : Nat) < 128 := (i 1).isLt
    have hN : cfg1.N = 16 := N_1
    have hpt : 4 * ((i 0 : Nat) / 1024) + 3 < cfg1.N := by omega
    refine ⟨⟨4 * ((i 0 : Nat) / 1024) + 3, hpt⟩, (flush1_3 _).mpr (by dsimp only; omega), ?_⟩
    have hi := idxA_3 ⟨4 * ((i 0 : Nat) / 1024) + 3, hpt⟩
    show i ∈ ((View.whole main_v0).slice (win1_3.rect ⟨4 * ((i 0 : Nat) / 1024) + 3, hpt⟩)).set
    rw [View.set_slice_whole, Rect.mem_set_unit]
    intro a
    match a with
    | ⟨0, _⟩ =>
      show win1_3.index _ 0 * 1024 ≤ (i 0 : Nat) ∧ (i 0 : Nat) < win1_3.index _ 0 * 1024 + 1024
      rw [hi.1]; dsimp only; omega
    | ⟨1, _⟩ =>
      show win1_3.index _ 1 * 128 ≤ (i 1 : Nat) ∧ (i 1 : Nat) < win1_3.index _ 1 * 128 + 128
      rw [hi.2]; omega

end

end Cert.KernelIdeal.Frm

end
-- ==== Proof.RefValue.lean ====
/-
  The reference, at the ideal values, entry by entry: its last stage is the attention input's rows divided by their sums
  plus ε, multiplied into feat = W · af, plus feat — the rows normalised BEFORE the product.
-/
import proofs.«157057_j38895223832723_2_alg».proof.Proof.Gen.ReferenceIdeal.Read
import proofs.«157057_j38895223832723_2_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx

/-- Two rank-2 indices with the same coordinates are equal. -/
theorem idx2_ext {n0 n1 : ℕ} (a b : (⟨2, ![n0, n1]⟩ : Shape).Idx) (h0 : (a 0).val = (b 0).val) (h1 : (a 1).val = (b 1).val) : a = b :=
  funext fun d => Fin.ext (by match d with | ⟨0, _⟩ => exact h0 | ⟨1, _⟩ => exact h1)

abbrev eps : EReal := Ideal.ofBits .f32 0x2B8CBCCC#32

/-- The reference's feat stage is W · af. -/
theorem feat_entry (x2 : (⟨S4096x128, .f32⟩ : BufTy).Contents (Elt Ideal)) (x4 : (⟨S4096x4096, .f32⟩ : BufTy).Contents (Elt Ideal)) (i : S4096x128.Idx) :
    val_main_v42 (F := Ideal) x2 x4 i = Cert.AttnSpec.feat x4 x2 (i 0) (i 1) := by
  rw [val_main_v42_apply]
  unfold Cert.AttnSpec.feat
  exact Finset.sum_congr rfl fun k _ => congrArg₂ (· * ·) (congrArg x4 (idx2_ext _ _ rfl rfl)) (congrArg x2 (idx2_ext _ _ rfl rfl))

/-- The divisor of row p: the row's sum (the host starts it from zero) plus ε. -/
theorem divisor_entry (x0 x1 : (⟨S1000000, .i32⟩ : BufTy).Contents (Elt Ideal)) (x2 : (⟨S4096x128, .f32⟩ : BufTy).Contents (Elt Ideal)) (x3 : (⟨S1000000x128, .f32⟩ : BufTy).Contents (Elt Ideal))
    (i : S4096x4096.Idx) :
    val_main_v40 (F := Ideal) x0 x1 x2 x3 i = (0 + ∑ K : Fin 4096, val_main_v35 (F := Ideal) x0 x1 x2 x3 (ix2 (i 0) K)) + eps := by
  rw [val_main_v40_apply, val_main_v39_apply]
  simp only [Ideal.addf_def]
  refine congrArg₂ (· + ·) ?_ ?_
  · rw [val_main_v37_apply, val_main_v36_apply, val_main_cst_8_apply]
    simp only [Ideal.ofBits_def, Ideal.ofBits_zero_f32]
    exact congrArg (0 + ·) (Finset.sum_congr rfl fun K _ => congrArg _ (idx2_ext _ _ rfl rfl))
  · rw [val_main_v38_apply, val_main_cst_9_apply]
    rfl

/-- THE REFERENCE'S RESULT at entry (p, q). -/
theorem ref_entry (x0 x1 : (⟨S1000000, .i32⟩ : BufTy).Contents (Elt Ideal)) (x2 : (⟨S4096x128, .f32⟩ : BufTy).Contents (Elt Ideal)) (x3 : (⟨S1000000x128, .f32⟩ : BufTy).Contents (Elt Ideal))
    (x4 : (⟨S4096x4096, .f32⟩ : BufTy).Contents (Elt Ideal)) (i : S4096x128.Idx) :
    val_main_v44 (F := Ideal) x0 x1 x2 x3 x4 i
      = Cert.AttnSpec.outRef (val_main_v35 (F := Ideal) x0 x1 x2 x3) (fun u => Cert.AttnSpec.feat x4 x2 (u 0) (u 1)) eps (i 0) (i 1) := by
  rw [val_main_v44_apply, val_main_v43_apply]
  unfold Cert.AttnSpec.outRef
  simp only [Ideal.addf_def]
  refine congrArg₂ (· + ·) ?_ ?_
  · refine Finset.sum_congr rfl fun k _ => ?_
    rw [val_main_v41_apply, divisor_entry, feat_entry]
    simp only [Ideal.hostDivf_def]
    rw [show lidx_main_v43 i k = ix2 (i 0) k from idx2_ext _ _ rfl rfl, show ridx_main_v43 i k = ix2 k (i 1) from idx2_ext _ _ rfl rfl]
    rfl
  · exact feat_entry x2 x4 i

end Cert.ReferenceIdeal.RefValue

end
-- ==== Proof.AttInput.lean ====
/-
  The attention input, whatever the arguments hold: every entry is a nonnegative real. Each edge contributes
  exp(−√(a sum of squares)); a sum of squares of extended reals is nonnegative (possibly +∞), its square root is
  nonnegative (possibly +∞), and exp of minus that lies in [0, 1] — exp(−∞) being 0. An entry of the attention input
  is zero plus the contributions of the edges landing on it, finitely many numbers in [0, 1]. And ε is a positive real.
-/
import proofs.«157057_j38895223832723_2_alg».proof.Proof.RefValue
import proofs.«157057_j38895223832723_2_alg».proof.Proof.LibFiniteReals
import Mathlib.Data.EReal.Operations
import Mathlib.Analysis.SpecialFunctions.Exp

noncomputable section

open scoped BigOperators

namespace Cert.ReferenceIdeal.RefValue

open Cert.ReferenceIdeal Cert.ReferenceIdeal.Read Idealize.ShloMosaic Idealize.ShloMosaic.ValueIdx Cert.FiniteReals

/-- ε, single precision's nearest value to 10⁻¹², is the positive real 9223372 · 2⁻⁶³. -/
theorem eps_pos : ∃ r : ℝ, 0 < r ∧ eps = (r : EReal) := by
  refine ⟨(9223372 : ℝ) * (2 : ℝ) ^ (-63 : ℤ), by positivity, ?_⟩
  simp [eps, Ideal.ofBits, Ideal.ieee, -EReal.coe_mul] <;> norm_num

/-- The square of an extended real is nonnegative. -/
theorem sq_nonneg' (x : EReal) : 0 ≤ x * x := by
  rcases le_total 0 x with h | h
  · exact mul_nonneg h h
  · have e : x * x = (-x) * (-x) := by rw [neg_mul_neg]
    rw [e]
    exact mul_nonneg (by simpa using h) (by simpa using h)

/-- exp(−√y) of a nonnegative extended real is a nonnegative real. -/
theorem exp_neg_sqrt (y : EReal) (hy : 0 ≤ y) : ∃ r : ℝ, 0 ≤ r ∧ Ideal.exp (-(Ideal.sqrt y)) = (r : EReal) := by
  induction y using EReal.rec with
  | bot => simp at hy
  | top => exact ⟨0, le_refl _, by rw [Ideal.sqrt_top, EReal.neg_top, Ideal.exp_bot]; simp⟩
  | coe r =>
    have hr : 0 ≤ r := by exact_mod_cast hy
    refine ⟨Real.exp (-(Real.sqrt r)), (Real.exp_pos _).le, ?_⟩
    rw [Ideal.sqrt_coe, if_neg (not_lt.mpr hr), ← EReal.coe_neg, Ideal.exp_coe]

/-- Every edge's contribution is a nonnegative real. -/
theorem edge_nonneg (x0 x1 : (⟨S1000000, .i32⟩ : BufTy).Contents (Elt Ideal)) (x2 : (⟨S4096x128, .f32⟩ : BufTy).Contents (Elt Ideal)) (x3 : (⟨S1000000x128, .f32⟩ : BufTy).Contents (Elt Ideal))
    (j : S1000000.Idx) : ∃ r : ℝ, 0 ≤ r ∧ val_main_v20 (F := Ideal) x0 x1 x2 x3 j = (r : EReal) := by
  rw [val_main_v20_apply, val_main_v19_apply, val_main_v18_apply, val_main_v17_apply]
  simp only [Ideal.hostUnary_exp_def, Ideal.hostNegf_def, Ideal.negf_def, Ideal.hostUnary_sqrt_def]
  refine exp_neg_sqrt _ ?_
  rw [val_main_cst_apply]
  simp only [Ideal.ofBits_def, Ideal.ofBits_zero_f32, zero_add]
  refine Finset.sum_nonneg fun k _ => ?_
  rw [val_main_v16_apply]
  simp only [Ideal.mulf_def]
  exact sq_nonneg' _

/-- A finite sum of nonnegative reals, taken in the extended reals, is a nonnegative real. -/
theorem sum_nonneg_real {ι : Type*} (S : Finset ι) (f : ι → EReal) (hf : ∀ j, ∃ r : ℝ, 0 ≤ r ∧ f j = (r : EReal)) :
    ∃ r : ℝ, 0 ≤ r ∧ ∑ j ∈ S, f j = (r : EReal) := by
  choose v hv0 hv using hf
  refine ⟨∑ j ∈ S, v j, Finset.sum_nonneg fun j _ => hv0 j, ?_⟩
  rw [← coe_sum]
  exact Finset.sum_congr rfl fun j _ => hv j

/-- An accumulating scatter of nonnegative reals into zeros leaves nonnegative reals, whatever the indices. -/
theorem hostScatterAdd_nonneg {s si su : Shape} (d : ScatterDims s si su) {w : Nat} (z : s.Idx → EReal) (idx : IVec si w)
    (upd : su.Idx → EReal) (hz : ∀ i, z i = 0) (hu : ∀ j, ∃ r : ℝ, 0 ≤ r ∧ upd j = (r : EReal)) (i : s.Idx) :
    ∃ r : ℝ, 0 ≤ r ∧ Host.scatterAdd (F := Ideal) (φ := .f32) d z idx upd i = (r : EReal) := by
  show ∃ r : ℝ, 0 ≤ r ∧ Ideal.hostScatterAdd d z idx upd i = (r : EReal)
  unfold Ideal.hostScatterAdd
  rw [hz i, zero_add]
  exact sum_nonneg_real _ _ hu

/-- Every entry of the attention input is a nonnegative real. -/
theorem att_nonneg (x0 x1 : (⟨S1000000, .i32⟩ : BufTy).Contents (Elt Ideal)) (x2 : (⟨S4096x128, .f32⟩ : BufTy).Contents (Elt Ideal)) (x3 : (⟨S1000000x128, .f32⟩ : BufTy).Contents (Elt Ideal))
    (i : S4096x4096.Idx) : ∃ r : ℝ, 0 ≤ r ∧ val_main_v35 (F := Ideal) x0 x1 x2 x3 i = (r : EReal) := by
  have hz : ∀ u, val_main_v21 (F := Ideal) u = 0 := fun u => by
    rw [val_main_v21_apply, val_main_cst_3_apply]; exact Ideal.ofBits_zero_f32
  have hu := edge_nonneg x0 x1 x2 x3
  unfold val_main_v35
  generalize val_main_v21 (F := Ideal) = z at hz ⊢
  generalize val_main_v20 (F := Ideal) x0 x1 x2 x3 = upd at hu ⊢
  generalize val_main_v34 (F := Ideal) x0 x1 = idx
  exact hostScatterAdd_nonneg _ z idx upd hz hu i

end Cert.ReferenceIdeal.RefValue

end
-- ==== Proof.LibLines.lean ====
/-
  A general lemma file: straight lines of host operations, cut and joined.

  A host program that is only operations is a straight line; a program printed as several stretches one after the other
  (the caller's lines, an outlined function's body at its call, the caller's next lines) is the chain of their straight
  lines, and that chain is the straight line of the concatenation.  Likewise what the buffers hold after a concatenation
  is what they hold after its second part, started from what they hold after the first.  Last, a concatenation of two
  arrays named as a function of the two.
-/
import Idealize.ShloMosaic.Lib.Pipeline.Regions
import Idealize.ShloMosaic.Lib.StableHlo.Run

noncomputable section

namespace Cert.Lines

open Idealize.ShloMosaic Idealize.ShloMosaic.StableHlo Idealize.SL.Sem

variable {nD : Nat} {τ : Topo} {sig : RefSig} {Val : EltTy → Type} {Λ : Labels}

/-- A straight line followed by nothing more is itself. -/
theorem seq_bind_pure (l : List (HloOp τ sig Val)) :
    ((seq l : Prog (TpuEff nD τ sig Val Λ .tc) PUnit) >>= fun _ => pure ⟨⟩) = seq l := by
  induction l with
  | nil => rfl
  | cons op l ih => simp only [seq, bind_assoc, ih]

/-- The chain of the straight lines of some stretches is the straight line of the stretches joined. -/
theorem chain_map_seq (L : List (List (HloOp τ sig Val))) :
    (Pipeline.chain (L.map seq) : Prog (TpuEff nD τ sig Val Λ .tc) PUnit) = seq L.flatten := by
  induction L with
  | nil => rfl
  | cons l L ih => simp only [List.map_cons, Pipeline.chain_cons, List.flatten_cons, seq_append, ih]

/-- The buffers after a concatenation: after its second part, from what they hold after the first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A concatenation of two pieces, as a plain function of the two pieces. -/
def pairCat {α : Type} (t s₁ s₂ : Shape) (a : Fin t.rank) (x₁ : s₁.Idx → α) (x₂ : s₂.Idx → α)
    (h : Shape.Concatenates [s₁, s₂] t a) : t.Idx → α :=
  concatenate t a [⟨s₁, x₁⟩, ⟨s₂, x₂⟩] h

/-- The concatenation of the list of the two (shape, array) pairs is that function of the two arrays. -/
theorem concat_pair {α : Type} (t s₁ s₂ : Shape) (a : Fin t.rank) (x₁ : s₁.Idx → α) (x₂ : s₂.Idx → α)
    (h : Shape.Concatenates [s₁, s₂] t a) :
    concatenate t a [⟨s₁, x₁⟩, ⟨s₂, x₂⟩] h = pairCat t s₁ s₂ a x₁ x₂ h := rfl

end Cert.Lines

end
-- ==== Proof.Bridge.lean ====
/-
  The two programs compute one function. The idealized kernel's result array ends at
  (att · feat) / (rowsum att + ε) + feat with feat = W · af (the two regions' values, read off the run); the reference's
  at (att / (rowsum att + ε)) · feat + feat. The attention input att is built by the same host operations in both
  programs, and its entries are nonnegative reals whatever the arguments hold, so the two normalisations agree.
-/
import proofs.«157057_j38895223832723_2_alg».proof.Proof.Ideal.Whole
import proofs.«157057_j38895223832723_2_alg».proof.Proof.Feat
import proofs.«157057_j38895223832723_2_alg».proof.Proof.Attn
import proofs.«157057_j38895223832723_2_alg».proof.Proof.AttInput
import Idealize.ShloMosaic.Lib.StableHlo.Run
import proofs.«157057_j38895223832723_2_alg».proof.Proof.LibLines

set_option maxRecDepth 16384

noncomputable section

namespace Cert.Proof.Bridge

open Idealize.ShloMosaic Idealize.ShloMosaic.TcCoe Idealize.SL.Sem Idealize.ShloMosaic.ValueIdx
open Cert.KernelIdeal Cert.KernelIdeal.Gen Cert.KernelIdeal.Frm

variable (m : (ℓ : Loc nD τ sig) → Buf (Elt Ideal) ℓ)

/-- The attention input as a function of the launch memory's arguments (the host operations' composed term, named by
    the reference's stage). -/
abbrev attOf (c : Dev nD) : Cert.AttnSpec.S44.Idx → EReal :=
  Cert.ReferenceIdeal.Read.val_main_v35 (F := Ideal) (m ((c : Thread nD τ).loc main_arg0)) (m ((c : Thread nD τ).loc main_arg1))
    (m ((c : Thread nD τ).loc main_arg2)) (m ((c : Thread nD τ).loc main_arg3))

/-- feat as a function of the launch memory's arguments. -/
abbrev featOf (c : Dev nD) : Cert.AttnSpec.S41.Idx → EReal :=
  fun u => Cert.AttnSpec.feat (m ((c : Thread nD τ).loc main_arg4)) (m ((c : Thread nD τ).loc main_arg2)) (u 0) (u 1)

/-- The common result. -/
def resultOf (c : Dev nD) : Buf (Elt Ideal) ((c : Thread nD τ).loc main_v0) :=
  fun i => Cert.AttnSpec.outKernel (attOf m c) (featOf m c) Cert.KernelIdeal.Pay.eps (i 0) (i 1)

/-- An accumulating scatter of equal operands through equal index lists is equal. -/
theorem scatter_congr {s si su : Shape} {w : Nat} (d d' : ScatterDims s si su) (hd : d = d') {x x' : FVec Ideal s .f32} {i i' : IVec si w}
    {u u' : FVec Ideal su .f32} (hx : x = x') (hi : i = i') (hu : u = u') :
    Host.scatterAdd d x i u = Host.scatterAdd d' x' i' u' := by
  subst hd hx hi hu; rfl

/-- The second region finds the attention input the host operations built. -/
theorem att_found (c : Dev nD) : attAt (arr2 m) c = attOf m c := by
  show mem2 m c (Proc.devRef .tc main_call0_v35) = _
  rw [mem2_of_ne m c main_call0_v35 (by decide)]
  show StableHlo.after hostOps0 (Gen.V0 m c) (Proc.devRef .tc main_call0_v35) = _
  simp only [hostOps0, Cert.Lines.concat_pair]
  after_results_simp
  unfold attOf Cert.ReferenceIdeal.Read.val_main_v35 Cert.ReferenceIdeal.Read.val_main_v20 Cert.ReferenceIdeal.Read.val_main_v19 Cert.ReferenceIdeal.Read.val_main_v18
  refine scatter_congr _ _ rfl ?_ ?_ ?_
  · rfl
  · rfl
  · refine congrArg Host.exp ?_
    refine congrArg Host.negf ?_
    refine congrArg Host.sqrt ?_
    rfl

/-- The first region finds W and af as launched, -/
theorem w_found (c : Dev nD) : wAt (arr1 m) c = m ((c : Thread nD τ).loc main_arg4) :=
  Gen.V1_of m c main_arg4 (by decide)
theorem a_found (c : Dev nD) : aAt (arr1 m) c = m ((c : Thread nD τ).loc main_arg2) :=
  Gen.V1_of m c main_arg2 (by decide)

/-- and the second finds the feat the first wrote. -/
theorem feat_found (c : Dev nD) : fAt (arr2 m) c = featOf m c := by
  show mem2 m c (Proc.devRef .tc main_call0_v36) = _
  rw [mem2_arr m c 2, feat_final (arr1 m) c]
  unfold featG
  rw [w_found, a_found]
  rfl

/-- The kernel's run: the result array ends at the common result, the arguments as launched. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (by
      rw [out_final (arr2 m) c]
      unfold outG resultOf
      rw [att_found, feat_found]), (h c).2⟩) (run_result (F := Ideal) m ρ)

/-- The reference's stage is the common result. -/
theorem ref_result (c : Dev nD) :
    Cert.ReferenceIdeal.Read.val_main_v44 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) = resultOf m c := by
  funext i
  rw [Cert.ReferenceIdeal.RefValue.ref_entry]
  unfold resultOf
  exact (Cert.AttnSpec.outKernel_eq_outRef (attOf m c) (featOf m c) _
    (Cert.ReferenceIdeal.RefValue.att_nonneg _ _ _ _) Cert.ReferenceIdeal.RefValue.eps_pos (i 0) (i 1)).symm

end Cert.Proof.Bridge

end
-- ==== Proof.lean ====
/-
  The certificate of a graph-attention layer: h = A · feat + feat with feat = W · af and A the attention input's rows
  divided by their sums plus ε. The kernel builds the attention input on the host exactly as the reference does, then
  runs two tiled matrix-product kernels over a 4 × 4 grid of 1024-wide blocks: the first accumulates W · af over the
  contracted blocks; the second accumulates att · feat and the row sums of att together and divides once, at the last
  block. Both programs' frames: every execution terminates without a fault and leaves the arguments as launched (each
  kernel body is run symbolically once per control case, the accumulators' contents carried through the region's invariant). No operation was rewritten by the
  idealization. At the ideal values the two results agree because dividing a sum of products by a positive real is
  multiplying it by a nonnegative real, which distributes over any finite sum of extended reals, and every entry of
  the attention input is a nonnegative real, being a finite sum of values of exp on (−∞, 0].
-/
import proofs.«157057_j38895223832723_2_alg».proof.Defs
import proofs.«157057_j38895223832723_2_alg».proof.Proof.Gen.Kernel
import proofs.«157057_j38895223832723_2_alg».proof.Proof.Gen.KernelIdeal
import proofs.«157057_j38895223832723_2_alg».proof.Proof.Gen.ReferenceIdeal
import proofs.«157057_j38895223832723_2_alg».proof.Proof.Gen.Pre_finite_inputs
import proofs.«157057_j38895223832723_2_alg».proof.Proof.Gen.ReferenceIdeal.Run
import proofs.«157057_j38895223832723_2_alg».proof.Proof.Gen.ReferenceIdeal.Read
import proofs.«157057_j38895223832723_2_alg».proof.Proof.Bits.Whole
import proofs.«157057_j38895223832723_2_alg».proof.Proof.Ideal.Whole
import proofs.«157057_j38895223832723_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Frm.frame_all (F := Bits) m ρ
theorem frame_ki : Cert.frame_KernelIdeal := fun m ρ _ => Cert.KernelIdeal.Frm.frame_all (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' _ hagree
  refine ⟨fun c => Cert.Proof.Bridge.resultOf m c, Cert.Proof.Bridge.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v44_eq, (hagree c).1, (hagree c).2.1, (hagree c).2.2.1, (hagree c).2.2.2.1, (hagree c).2.2.2.2]
  exact Cert.Proof.Bridge.ref_result m c

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
